-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg11
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg7 : FVec F S128 .f32) (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg10
  let main_cst_18 : FVec F S_ .f32 := constant S_ .f32 0x7F800000#32
  let main_v50 : FVec F S128x40 .f32 := broadcastInDim S128x40 ![] bcast_S_S128x40 main_cst_18
  fn_part3 (F := F) main_arg11 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S200x10000 : Shape := ⟨2, ![200, 10000]⟩
abbrev S200x128 : Shape := ⟨2, ![200, 128]⟩
abbrev S10000x40 : Shape := ⟨2, ![10000, 40]⟩
abbrev S1x40 : Shape := ⟨2, ![1, 40]⟩
abbrev S200x40 : Shape := ⟨2, ![200, 40]⟩
abbrev S200 : Shape := ⟨1, ![200]⟩
abbrev S200x1 : Shape := ⟨2, ![200, 1]⟩

abbrev nBuf : Space → Nat
  | .hbm => 26
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S10000x128, .bf16⟩
  | .hbm, ⟨13, _⟩ => ⟨S1x128, .f32⟩
  | .hbm, ⟨14, _⟩ => ⟨S10000x128, .f32⟩
  | .hbm, ⟨15, _⟩ => ⟨S10000x10000, .bf16⟩
  | .hbm, ⟨16, _⟩ => ⟨S1x128, .f32⟩
  | .hbm, ⟨17, _⟩ => ⟨S1x128, .f32⟩
  | .hbm, ⟨18, _⟩ => ⟨S10000x128, .bf16⟩
  | .hbm, ⟨19, _⟩ => ⟨S1x128, .f32⟩
  | .hbm, ⟨20, _⟩ => ⟨S10000x128, .f32⟩
  | .hbm, ⟨21, _⟩ => ⟨S1x128, .f32⟩
  | .hbm, ⟨22, _⟩ => ⟨S1x128, .f32⟩
  | .hbm, ⟨23, _⟩ => ⟨S10000x40, .bf16⟩
  | .hbm, ⟨24, _⟩ => ⟨S1x40, .f32⟩
  | .hbm, ⟨25, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S10000x128, .bf16⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S200x10000, .bf16⟩
  | .local _ .vmem, ⟨10, _⟩ => ⟨S200x10000, .bf16⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S10000x128, .bf16⟩
  | .local _ .vmem, ⟨16, _⟩ => ⟨S200x10000, .bf16⟩
  | .local _ .vmem, ⟨17, _⟩ => ⟨S200x10000, .bf16⟩
  | .local _ .vmem, ⟨18, _⟩ => ⟨S10000x128, .bf16⟩
  | .local _ .vmem, ⟨19, _⟩ => ⟨S1x128, .f32⟩
  | .local _ .vmem, ⟨20, _⟩ => ⟨S200x128, .f32⟩
  | .local _ .vmem, ⟨21, _⟩ => ⟨S200x128, .f32⟩
  | .local _ .vmem, ⟨22, _⟩ => ⟨S10000x128, .f32⟩
  | .local _ .vmem, ⟨23, _⟩ => ⟨S1x128, .f32⟩
  | .local _ .vmem, ⟨24, _⟩ => ⟨S1x128, .f32⟩
  | .local _ .vmem, ⟨25, _⟩ => ⟨S128x40, .f32⟩
  | .local _ .vmem, ⟨26, _⟩ => ⟨S10000x40, .bf16⟩
  | .local _ .vmem, ⟨27, _⟩ => ⟨S200x10000, .bf16⟩
  | .local _ .vmem, ⟨28, _⟩ => ⟨S200x10000, .bf16⟩
  | .local _ .vmem, ⟨29, _⟩ => ⟨S10000x40, .bf16⟩
  | .local _ .vmem, ⟨30, _⟩ => ⟨S1x40, .f32⟩
  | .local _ .vmem, ⟨31, _⟩ => ⟨S200x40, .f32⟩
  | .local _ .vmem, ⟨32, _⟩ => ⟨S200x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S10000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S128x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S10000x40 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x40 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S200x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  reduces_S10000x128_S128 : S10000x128.Reduces [0] S128
  broadcasts_S1x128_S10000x128 : S1x128.Broadcasts S10000x128
  shapeCasts_S200x10000_S200x10000 : S200x10000.ShapeCasts S200x10000
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  packedbf16_S10000x40_S10000x40_0_0 : (Rect.unit (s := S10000x40) ![0, 0] S10000x40.size inb_S10000x40_S10000x40_0_0).PackedRows (EltTy.packing .bf16)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  reduces_S200x40_S200 : S200x40.Reduces [1] S200
  shapeCasts_S200_S200x1 : S200.ShapeCasts S200x1
  broadcasts_S200x1_S200x40 : S200x1.Broadcasts S200x40
  inb_S200x40_S200x40_0_0 : ∀ a, (![0, 0] : Fin 2 → Nat) a + S200x40.size a ≤ S200x40.size a
  h_S200x40 : 0 < S200x40.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x40_S10000x40_1_0_0_1_n_n_wf : DotDims.WF S10000x128 S128x40 S10000x40 [1] [0] [0] [1] [] []
  dot_S200x10000_S10000x40_S200x40_1_0_0_1_n_n_wf : DotDims.WF S200x10000 S10000x40 S200x40 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x128.size a ≤ S10000x128.size a
  hwx1_3 : ∀ i : grid1.Coords, EltTy.bits .f32 = 32 ∨ (Rect.block (s := S10000x128) S200x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x10000.size a ≤ S10000x10000.size a
  hwx1_4 : ∀ i : grid1.Coords, EltTy.bits .bf16 = 32 ∨ (Rect.block (s := S10000x10000) S200x10000.size (cc1_transform_4 i) (hinb1_4 i)).WholeWords (EltTy.packing .bf16)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x128.size a ≤ S10000x128.size a
  hwx3_3 : ∀ i : grid3.Coords, EltTy.bits .f32 = 32 ∨ (Rect.block (s := S10000x128) S200x128.size (cc3_transform_3 i) (hinb3_3 i)).WholeWords (EltTy.packing .f32)
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x10000.size a ≤ S10000x10000.size a
  hwx5_0 : ∀ i : grid5.Coords, EltTy.bits .bf16 = 32 ∨ (Rect.block (s := S10000x10000) S200x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x40.size a ≤ S10000x40.size a
  hwx5_1 : ∀ i : grid5.Coords, EltTy.bits .bf16 = 32 ∨ (Rect.block (s := S10000x40) S10000x40.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S200x40.size a ≤ S10000x40.size a
  hwx5_3 : ∀ i : grid5.Coords, EltTy.bits .f32 = 32 ∨ (Rect.block (s := S10000x40) S200x40.size (cc5_transform_3 i) (hinb5_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S200x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S200x10000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.whole (Memref.whole main_v2_0) false false (stage2_0 0) (sem2_0 0) (Memref.isWhole_whole _) (hstage2_0 0)

abbrev win2_1 : Pipeline.Window sig grid2 :=
  Pipeline.Window.whole (Memref.whole main_v3) false false (stage2_1 0) (sem2_1 0) (Memref.isWhole_whole _) (hstage2_1 0)

abbrev win2_2 : Pipeline.Window sig grid2 :=
  Pipeline.Window.whole (Memref.whole main_v4) false false (stage2_2 0) (sem2_2 0) (Memref.isWhole_whole _) (hstage2_2 0)

abbrev win2_3 : Pipeline.Window sig grid2 :=
  Pipeline.Window.whole (Memref.whole main_arg6) false false (stage2_3 0) (sem2_3 0) (Memref.isWhole_whole _) (hstage2_3 0)

abbrev win2_4 : Pipeline.Window sig grid2 :=
  Pipeline.Window.whole (Memref.whole main_v5) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S200x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.whole (Memref.whole main_v7) false false (stage4_0 0) (sem4_0 0) (Memref.isWhole_whole _) (hstage4_0 0)

abbrev win4_1 : Pipeline.Window sig grid4 :=
  Pipeline.Window.whole (Memref.whole main_v8) false false (stage4_1 0) (sem4_1 0) (Memref.isWhole_whole _) (hstage4_1 0)

abbrev win4_2 : Pipeline.Window sig grid4 :=
  Pipeline.Window.whole (Memref.whole main_v9) false false (stage4_2 0) (sem4_2 0) (Memref.isWhole_whole _) (hstage4_2 0)

abbrev win4_3 : Pipeline.Window sig grid4 :=
  Pipeline.Window.whole (Memref.whole main_arg10) false false (stage4_3 0) (sem4_3 0) (Memref.isWhole_whole _) (hstage4_3 0)

abbrev win4_4 : Pipeline.Window sig grid4 :=
  Pipeline.Window.whole (Memref.whole main_v10) true false (stage4_4 0) (sem4_4 0) (Memref.isWhole_whole _) (hstage4_4 0)

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v2_1) S200x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S10000x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v12) S200x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 136
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S10000x128, .f32⟩
  | 13 => ⟨S10000x128, .f32⟩
  | 14 => ⟨S1x128, .f32⟩
  | 15 => ⟨S10000x128, .f32⟩
  | 16 => ⟨S10000x128, .f32⟩
  | 17 => ⟨S_, .f32⟩
  | 18 => ⟨S128, .f32⟩
  | 19 => ⟨S_, .f32⟩
  | 20 => ⟨S128, .f32⟩
  | 21 => ⟨S128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S10000x128, .f32⟩
  | 30 => ⟨S10000x128, .f32⟩
  | 31 => ⟨S10000x128, .f32⟩
  | 32 => ⟨S_, .f32⟩
  | 33 => ⟨S_, .f32⟩
  | 34 => ⟨S_, .f32⟩
  | 35 => ⟨S_, .f32⟩
  | 36 => ⟨S128, .f32⟩
  | 37 => ⟨S128, .f32⟩
  | 38 => ⟨S128, .f32⟩
  | 39 => ⟨S_, .f32⟩
  | 40 => ⟨S_, .i1⟩
  | 41 => ⟨S_, .f32⟩
  | 42 => ⟨S_, .f32⟩
  | 43 => ⟨S128, .f32⟩
  | 44 => ⟨S128, .f32⟩
  | 45 => ⟨S1x128, .f32⟩
  | 46 => ⟨S10000x128, .f32⟩
  | 47 => ⟨S10000x128, .f32⟩
  | 48 => ⟨S_, .f32⟩
  | 49 => ⟨S128, .f32⟩
  | 50 => ⟨S128, .f32⟩
  | 51 => ⟨S128, .f32⟩
  | 52 => ⟨S1x128, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S_, .f32⟩
  | 62 => ⟨S10000x128, .f32⟩
  | 63 => ⟨S10000x128, .f32⟩
  | 64 => ⟨S10000x128, .f32⟩
  | 65 => ⟨S10000x128, .f32⟩
  | 66 => ⟨S1x128, .f32⟩
  | 67 => ⟨S10000x128, .f32⟩
  | 68 => ⟨S10000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S10000x128, .f32⟩
  | 82 => ⟨S10000x128, .f32⟩
  | 83 => ⟨S10000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S10000x128, .f32⟩
  | 99 => ⟨S10000x128, .f32⟩
  | 100 => ⟨S_, .f32⟩
  | 101 => ⟨S128, .f32⟩
  | 102 => ⟨S128, .f32⟩
  | 103 => ⟨S128, .f32⟩
  | 104 => ⟨S1x128, .f32⟩
  | 105 => ⟨S10000x128, .f32⟩
  | 106 => ⟨S10000x128, .f32⟩
  | 107 => ⟨S1x128, .f32⟩
  | 108 => ⟨S10000x128, .f32⟩
  | 109 => ⟨S10000x128, .f32⟩
  | 110 => ⟨S1x128, .f32⟩
  | 111 => ⟨S10000x128, .f32⟩
  | 112 => ⟨S10000x128, .f32⟩
  | 113 => ⟨S_, .f32⟩
  | 114 => ⟨S10000x128, .f32⟩
  | 115 => ⟨S10000x128, .f32⟩
  | 116 => ⟨S10000x40, .f32⟩
  | 117 => ⟨S10000x40, .f32⟩
  | 118 => ⟨S1x40, .f32⟩
  | 119 => ⟨S10000x40, .f32⟩
  | 120 => ⟨S10000x40, .f32⟩
  | 121 => ⟨S_, .f32⟩
  | 122 => ⟨S10000, .f32⟩
  | 123 => ⟨S_, .f32⟩
  | 124 => ⟨S10000, .f32⟩
  | 125 => ⟨S10000, .f32⟩
  | 126 => ⟨S10000x1, .f32⟩
  | 127 => ⟨S10000x40, .f32⟩
  | _ => ⟨S10000x128, .f32⟩

abbrev hbmTy0_1 (i : Nat) : BufTy := match i % 128 with
  | 0 => ⟨S10000x40, .f32⟩
  | 1 => ⟨S10000x40, .f32⟩
  | 2 => ⟨S_, .f32⟩
  | 3 => ⟨S10000, .f32⟩
  | 4 => ⟨S10000x1, .f32⟩
  | 5 => ⟨S10000x1, .f32⟩
  | 6 => ⟨S10000x40, .f32⟩
  | 7 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_cst_3 : Ref sig .tc := ⟨.hbm, 39, rfl⟩
abbrev main_call0_v12 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call1_cst : Ref sig .tc := ⟨.hbm, 61, rfl⟩
abbrev main_call1_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_v30 : Ref sig .tc := ⟨.hbm, 70, rfl⟩
abbrev main_cst_3 : Ref sig .tc := ⟨.hbm, 71, rfl⟩
abbrev main_v31 : Ref sig .tc := ⟨.hbm, 72, rfl⟩
abbrev main_v32 : Ref sig .tc := ⟨.hbm, 73, rfl⟩
abbrev main_c_4 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_cst_3 : Ref sig .tc := ⟨.hbm, 91, rfl⟩
abbrev main_call2_v12 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_5 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_call3_cst : Ref sig .tc := ⟨.hbm, 113, rfl⟩
abbrev main_call3_v0 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_call4_cst : Ref sig .tc := ⟨.hbm, 121, rfl⟩
abbrev main_call4_v0 : Ref sig .tc := ⟨.hbm, 122, rfl⟩
abbrev main_call4_cst_0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_cst_1 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_v55 : Ref sig .tc := ⟨.hbm, 135, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KernelChain.lean ====
/-
  The arrays each kernel region finds, read back through the segment boundaries.

  Between the launch and the return the program's buffers change only where a region writes its result arrays back and
  where a reshape writes its result. So at the boundary where a region is entered, an argument array still holds what
  it was launched with, a reshaped bias, scale or shift row is the argument vector recast as a [1, n] row, and an earlier
  region's result array still holds what that region's write-backs left in it (the copied adjacency passes, unchanged,
  through the region that reads it in between).
-/
import proofs.«107854_g28295244546728_cont_sun_m_959_2_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## A stretch of reshapes leaves every buffer but its results alone -/

theorem skip1 (c : Dev nD) (b : Ref sig .tc) (h : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem skip2 (c : Dev nD) (b : Ref sig .tc) (h3 : b ≠ main_v3) (h4 : b ≠ main_v4) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h3, StableHlo.devRef_ne_of_ne h4⟩))

theorem skip3 (c : Dev nD) (b : Ref sig .tc) (h : b ≠ main_v6) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne h))

theorem skip4 (c : Dev nD) (b : Ref sig .tc) (h8 : b ≠ main_v8) (h9 : b ≠ main_v9) :
    W8 m ρ c (Proc.devRef .tc b) = W7 m ρ c (Proc.devRef .tc b) :=
  StableHlo.after_of_forall_not_mem (b := Proc.devRef .tc b) _ _ (List.forall_iff_forall_mem.mp (by
    simp only [hostOps4, List.Forall, StableHlo.reshape_writes, Finset.mem_singleton]
    exact ⟨StableHlo.devRef_ne_of_ne h8, StableHlo.devRef_ne_of_ne h9⟩))

theorem skip5 (c : Dev nD) (b : Ref sig .tc) (h : b ≠ main_v11) :
    W10 m ρ c (Proc.devRef .tc b) = W9 m ρ c (Proc.devRef .tc b) :=
  StableHlo.after_of_forall_not_mem (b := Proc.devRef .tc b) _ _ (List.forall_iff_forall_mem.mp (by
    simp only [hostOps5, List.Forall, StableHlo.reshape_writes, Finset.mem_singleton]
    exact StableHlo.devRef_ne_of_ne h))

/-! ## A buffer no region owns and no reshape writes holds its launch contents at every boundary -/

theorem at1 (c : Dev nD) (b : Ref sig .tc) (h0 : ∀ w, Pipeline.arrRef spec0 w ≠ b) :
    W1 m ρ c (Proc.devRef .tc b) = m ((c : Thread nD τ).loc b) := (W1_of_ne m ρ c b h0).trans rfl

theorem at2 (c : Dev nD) (b : Ref sig .tc) (h0 : ∀ w, Pipeline.arrRef spec0 w ≠ b) (v1 : b ≠ main_v1) :
    W2 m ρ c (Proc.devRef .tc b) = m ((c : Thread nD τ).loc b) := (skip1 m ρ c b v1).trans (at1 m ρ c b h0)

theorem at3 (c : Dev nD) (b : Ref sig .tc) (h0 : ∀ w, Pipeline.arrRef spec0 w ≠ b) (v1 : b ≠ main_v1)
    (h1 : ∀ w, Pipeline.arrRef spec1 w ≠ b) :
    W3 m ρ c (Proc.devRef .tc b) = m ((c : Thread nD τ).loc b) := (W3_of_ne m ρ c b h1).trans (at2 m ρ c b h0 v1)

theorem at4 (c : Dev nD) (b : Ref sig .tc) (h0 : ∀ w, Pipeline.arrRef spec0 w ≠ b) (v1 : b ≠ main_v1)
    (h1 : ∀ w, Pipeline.arrRef spec1 w ≠ b) (v3 : b ≠ main_v3) (v4 : b ≠ main_v4) :
    W4 m ρ c (Proc.devRef .tc b) = m ((c : Thread nD τ).loc b) := (skip2 m ρ c b v3 v4).trans (at3 m ρ c b h0 v1 h1)

theorem at5 (c : Dev nD) (b : Ref sig .tc) (h0 : ∀ w, Pipeline.arrRef spec0 w ≠ b) (v1 : b ≠ main_v1)
    (h1 : ∀ w, Pipeline.arrRef spec1 w ≠ b) (v3 : b ≠ main_v3) (v4 : b ≠ main_v4) (h2 : ∀ w, Pipeline.arrRef spec2 w ≠ b) :
    W5 m ρ c (Proc.devRef .tc b) = m ((c : Thread nD τ).loc b) := (W5_of_ne m ρ c b h2).trans (at4 m ρ c b h0 v1 h1 v3 v4)

theorem at6 (c : Dev nD) (b : Ref sig .tc) (h0 : ∀ w, Pipeline.arrRef spec0 w ≠ b) (v1 : b ≠ main_v1)
    (h1 : ∀ w, Pipeline.arrRef spec1 w ≠ b) (v3 : b ≠ main_v3) (v4 : b ≠ main_v4) (h2 : ∀ w, Pipeline.arrRef spec2 w ≠ b)
    (v6 : b ≠ main_v6) :
    W6 m ρ c (Proc.devRef .tc b) = m ((c : Thread nD τ).loc b) := (skip3 m ρ c b v6).trans (at5 m ρ c b h0 v1 h1 v3 v4 h2)

theorem at7 (c : Dev nD) (b : Ref sig .tc) (h0 : ∀ w, Pipeline.arrRef spec0 w ≠ b) (v1 : b ≠ main_v1)
    (h1 : ∀ w, Pipeline.arrRef spec1 w ≠ b) (v3 : b ≠ main_v3) (v4 : b ≠ main_v4) (h2 : ∀ w, Pipeline.arrRef spec2 w ≠ b)
    (v6 : b ≠ main_v6) (h3 : ∀ w, Pipeline.arrRef spec3 w ≠ b) :
    W7 m ρ c (Proc.devRef .tc b) = m ((c : Thread nD τ).loc b) := (W7_of_ne m ρ c b h3).trans (at6 m ρ c b h0 v1 h1 v3 v4 h2 v6)

theorem at8 (c : Dev nD) (b : Ref sig .tc) (h0 : ∀ w, Pipeline.arrRef spec0 w ≠ b) (v1 : b ≠ main_v1)
    (h1 : ∀ w, Pipeline.arrRef spec1 w ≠ b) (v3 : b ≠ main_v3) (v4 : b ≠ main_v4) (h2 : ∀ w, Pipeline.arrRef spec2 w ≠ b)
    (v6 : b ≠ main_v6) (h3 : ∀ w, Pipeline.arrRef spec3 w ≠ b) (v8 : b ≠ main_v8) (v9 : b ≠ main_v9) :
    W8 m ρ c (Proc.devRef .tc b) = m ((c : Thread nD τ).loc b) :=
  (skip4 m ρ c b v8 v9).trans (at7 m ρ c b h0 v1 h1 v3 v4 h2 v6 h3)

theorem at9 (c : Dev nD) (b : Ref sig .tc) (h0 : ∀ w, Pipeline.arrRef spec0 w ≠ b) (v1 : b ≠ main_v1)
    (h1 : ∀ w, Pipeline.arrRef spec1 w ≠ b) (v3 : b ≠ main_v3) (v4 : b ≠ main_v4) (h2 : ∀ w, Pipeline.arrRef spec2 w ≠ b)
    (v6 : b ≠ main_v6) (h3 : ∀ w, Pipeline.arrRef spec3 w ≠ b) (v8 : b ≠ main_v8) (v9 : b ≠ main_v9)
    (h4 : ∀ w, Pipeline.arrRef spec4 w ≠ b) :
    W9 m ρ c (Proc.devRef .tc b) = m ((c : Thread nD τ).loc b) :=
  (W9_of_ne m ρ c b h4).trans (at8 m ρ c b h0 v1 h1 v3 v4 h2 v6 h3 v8 v9)

/-! ## The reshaped rows: an argument vector recast as a one-row matrix -/

theorem row_v1 (c : Dev nD) :
    W2 m ρ c (Proc.devRef .tc main_v1) = shapeCast S1x128 (m ((c : Thread nD τ).loc main_arg3)) shapeCasts_S128_S1x128 := by
  rw [← at1 m ρ c main_arg3 (by decide)]
  show StableHlo.after hostOps1 (W1 m ρ c) (Proc.devRef .tc main_v1) = _
  after_results
  rfl

theorem row_v3 (c : Dev nD) :
    W4 m ρ c (Proc.devRef .tc main_v3) = shapeCast S1x128 (m ((c : Thread nD τ).loc main_arg4)) shapeCasts_S128_S1x128 := by
  rw [← at3 m ρ c main_arg4 (by decide) (by decide) (by decide)]
  show StableHlo.after hostOps2 (W3 m ρ c) (Proc.devRef .tc main_v3) = _
  after_results
  rfl

theorem row_v4 (c : Dev nD) :
    W4 m ρ c (Proc.devRef .tc main_v4) = shapeCast S1x128 (m ((c : Thread nD τ).loc main_arg5)) shapeCasts_S128_S1x128 := by
  rw [← at3 m ρ c main_arg5 (by decide) (by decide) (by decide)]
  show StableHlo.after hostOps2 (W3 m ρ c) (Proc.devRef .tc main_v4) = _
  after_results
  rfl

theorem row_v6 (c : Dev nD) :
    W6 m ρ c (Proc.devRef .tc main_v6) = shapeCast S1x128 (m ((c : Thread nD τ).loc main_arg7)) shapeCasts_S128_S1x128 := by
  rw [← at5 m ρ c main_arg7 (by decide) (by decide) (by decide) (by decide) (by decide) (by decide)]
  show StableHlo.after hostOps3 (W5 m ρ c) (Proc.devRef .tc main_v6) = _
  after_results
  rfl

theorem row_v8 (c : Dev nD) :
    W8 m ρ c (Proc.devRef .tc main_v8) = shapeCast S1x128 (m ((c : Thread nD τ).loc main_arg8)) shapeCasts_S128_S1x128 := by
  rw [← at7 m ρ c main_arg8 (by decide) (by decide) (by decide) (by decide) (by decide) (by decide) (by decide) (by decide)]
  show StableHlo.after hostOps4 (W7 m ρ c) (Proc.devRef .tc main_v8) = _
  after_results
  rfl

theorem row_v9 (c : Dev nD) :
    W8 m ρ c (Proc.devRef .tc main_v9) = shapeCast S1x128 (m ((c : Thread nD τ).loc main_arg9)) shapeCasts_S128_S1x128 := by
  rw [← at7 m ρ c main_arg9 (by decide) (by decide) (by decide) (by decide) (by decide) (by decide) (by decide) (by decide)]
  show StableHlo.after hostOps4 (W7 m ρ c) (Proc.devRef .tc main_v9) = _
  after_results
  rfl

theorem row_v11 (c : Dev nD) :
    W10 m ρ c (Proc.devRef .tc main_v11) = shapeCast S1x40 (m ((c : Thread nD τ).loc main_arg11)) shapeCasts_S40_S1x40 := by
  rw [← at9 m ρ c main_arg11 (by decide) (by decide) (by decide) (by decide) (by decide) (by decide) (by decide) (by decide)
    (by decide) (by decide) (by decide)]
  show StableHlo.after hostOps5 (W9 m ρ c) (Proc.devRef .tc main_v11) = _
  after_results
  rfl

/-! ## The regions' result arrays, from the boundary after the region to where they are read -/

/-- The first product, where the first aggregation reads it. -/
theorem v0_at2 (c : Dev nD) : W2 m ρ c (Proc.devRef .tc main_v0) = (dat0 (V0 m ρ) c).arrAt 2 cfg0.N :=
  (skip1 m ρ c main_v0 (by decide)).trans (W1_arr m ρ c 2)

/-- The first layer's activations, where the first normalisation reads them. -/
theorem v2_0_at4 (c : Dev nD) : W4 m ρ c (Proc.devRef .tc main_v2_0) = (dat1 (V2 m ρ) c).arrAt 3 cfg1.N :=
  (skip2 m ρ c main_v2_0 (by decide) (by decide)).trans (W3_arr m ρ c 3)

/-- The copied adjacency, where the second aggregation reads it. -/
theorem v2_1_at6 (c : Dev nD) : W6 m ρ c (Proc.devRef .tc main_v2_1) = (dat1 (V2 m ρ) c).arrAt 4 cfg1.N :=
  (skip3 m ρ c main_v2_1 (by decide)).trans ((W5_of_ne m ρ c main_v2_1 (by decide)).trans
    ((skip2 m ρ c main_v2_1 (by decide) (by decide)).trans (W3_arr m ρ c 4)))

/-- The second product, where the second aggregation reads it. -/
theorem v5_at6 (c : Dev nD) : W6 m ρ c (Proc.devRef .tc main_v5) = (dat2 (V4 m ρ) c).arrAt 4 cfg2.N :=
  (skip3 m ρ c main_v5 (by decide)).trans (W5_arr m ρ c 4)

/-- The second layer's activations, where the second normalisation reads them. -/
theorem v7_at8 (c : Dev nD) : W8 m ρ c (Proc.devRef .tc main_v7) = (dat3 (V6 m ρ) c).arrAt 3 cfg3.N :=
  (skip4 m ρ c main_v7 (by decide) (by decide)).trans (W7_arr m ρ c 3)

/-- The copied adjacency passes unchanged through the region that reads it in between, to where the last
    aggregation reads it. -/
theorem v2_1_at10 (c : Dev nD) : W10 m ρ c (Proc.devRef .tc main_v2_1) = (dat1 (V2 m ρ) c).arrAt 4 cfg1.N :=
  (skip5 m ρ c main_v2_1 (by decide)).trans ((W9_of_ne m ρ c main_v2_1 (by decide)).trans
    ((skip4 m ρ c main_v2_1 (by decide) (by decide)).trans
      (((W7_arr m ρ c 0).trans (((dat3 (V6 m ρ) c).arrAt_in 0 rfl _).trans (A_eq3 (V6 m ρ) c 0))).trans
        (v2_1_at6 m ρ c))))

/-- The third product, where the last aggregation reads it. -/
theorem v10_at10 (c : Dev nD) : W10 m ρ c (Proc.devRef .tc main_v10) = (dat4 (V8 m ρ) c).arrAt 4 cfg4.N :=
  (skip5 m ρ c main_v10 (by decide)).trans (W9_arr m ρ c 4)

end Cert.KernelIdeal.Chain

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«107854_g28295244546728_cont_sun_m_959_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.Consts.lean ====
/-
  The float literals both programs spell, as the extended reals their bit patterns denote.

  10000.0 (the number of nodes, the divisor of every column mean) is the real 10000; the batch-norm epsilon is a
  positive real; the word of all zeros is 0; the word of minus infinity is the bottom of the extended reals. Only
  these facts about the literals are ever used: that the count is a nonzero positive real, that epsilon is a
  positive real, and that the two sentinels are 0 and bottom.
-/
import Idealize.ShloMosaic.PureOps.Ideal
import Idealize.ShloMosaic.PureOps.Ideal.Laws

noncomputable section

namespace Cert.Gcn

open Idealize.ShloMosaic

/-- The literal 10000.0 denotes the real 10000. -/
theorem count_eq : Ideal.ofBits .f32 0x461C4000#32 = ((10000 : ℝ) : EReal) := by
  simp [Ideal.ofBits, Ideal.ieee, -EReal.coe_mul]; norm_num

/-- The batch-norm epsilon denotes a positive real. -/
theorem eps_pos : ∃ r : ℝ, 0 < r ∧ Ideal.ofBits .f32 0x3727C5AC#32 = (r : EReal) := by
  refine ⟨_, ?_, by simp [Ideal.ofBits, Ideal.ieee, -EReal.coe_mul]; rfl⟩
  norm_num

/-- The word of minus infinity denotes the bottom element. -/
theorem negInf_eq : Ideal.ofBits .f32 0xFF800000#32 = (⊥ : EReal) := by
  simp [Ideal.ofBits, Ideal.ieee]

end Cert.Gcn

end
-- ==== Proof.LibRsqrtQuotient.lean ====
/-
  The reciprocal square root as a factor against the quotient by the square root, on the extended reals, with no
  finiteness.

  A kernel often normalises by multiplying with rsqrt(y) where a reference divides by sqrt(y) (batch, layer and RMS
  normalisation with y = variance + ε). On the extended reals the two agree for EVERY numerator x, finite or not, as
  soon as y > 0, infinite or not: for a positive real y both are the product of x with 1/√y, and at y = +∞ both are
  the product with 0. And such a y is positive without any finiteness hypothesis: a square x·x is never negative on the
  extended reals (the squares of both infinities are +∞), so a sum of squares is nonnegative, its quotient by a positive
  real count is nonnegative, and adding a positive real ε makes it positive.
-/
import Idealize.ShloMosaic.PureOps.Ideal
import Idealize.ShloMosaic.PureOps.Ideal.Laws

noncomputable section

open scoped BigOperators

namespace Cert.LibRsqrtQuotient

open Idealize.ShloMosaic

/-- A square is never negative on the extended reals. -/
theorem mul_self_nonneg (x : EReal) : 0 ≤ x * x := by
  induction x using EReal.rec with
  | bot => simp
  | coe r => exact_mod_cast _root_.mul_self_nonneg r
  | top => simp

/-- A finite sum of squares is nonnegative. -/
theorem sum_mul_self_nonneg {ι : Type*} (s : Finset ι) (f : ι → EReal) : 0 ≤ ∑ i ∈ s, f i * f i :=
  Finset.sum_nonneg fun i _ => mul_self_nonneg (f i)

/-- The quotient of a nonnegative extended real by a positive real is nonnegative. -/
theorem div_pos_real_nonneg {s : EReal} (hs : 0 ≤ s) {n : ℝ} (hn : 0 < n) : 0 ≤ Ideal.div s (n : EReal) := by
  rw [Ideal.div_coe hn.ne']
  exact mul_nonneg hs (by exact_mod_cast (by positivity : (0 : ℝ) ≤ 1 / n))

/-- A nonnegative extended real plus a positive real is positive. -/
theorem add_pos_real_pos {v : EReal} (hv : 0 ≤ v) {r : ℝ} (hr : 0 < r) : 0 < v + (r : EReal) :=
  calc (0 : EReal) < (r : EReal) := by exact_mod_cast hr
    _ = 0 + (r : EReal) := (zero_add _).symm
    _ ≤ v + (r : EReal) := add_le_add_left hv _

/-- For y > 0, infinite or not, x·(1/√y) is x/√y for every extended real x. -/
theorem mul_rsqrt_eq_div_sqrt (x y : EReal) (hy : 0 < y) : x * Ideal.rsqrt y = Ideal.div x (Ideal.sqrt y) := by
  induction y using EReal.rec with
  | bot => exact absurd hy (not_lt_bot)
  | coe r =>
    have hr : 0 < r := by exact_mod_cast hy
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]
  | top => rw [Ideal.rsqrt_top, Ideal.sqrt_top, Ideal.div, if_neg (by simp), EReal.inv_top]

end Cert.LibRsqrtQuotient

end
-- ==== Proof.Spec.lean ====
/-
  The network both programs compute, entry by entry on the extended reals.

  A graph convolution layer is H = A·(X·W) + b: row r of X·W is the row vector (X r)·W, and row r of A·P + b is
  (A r)·P + b. Batch normalisation takes, per column e, the mean m_e = (Σ_r H[r,e]) / n and the variance
  v_e = (Σ_r (H[r,e] − m_e)²) / n over the n = 10000 rows, and maps H[r,e] to (H[r,e] − m_e) / √(v_e + ε) · g_e + β_e;
  a ReLU follows. The last layer ends in a log-softmax of every row: H[r,e] − max_f H[r,f] − log Σ_f exp(H[r,f] − max_f H[r,f]).

  One program divides by √(v_e + ε), the other multiplies by the reciprocal square root of v_e + ε. On the extended
  reals the two agree for EVERY numerator as soon as v_e + ε > 0, infinite or not: for a positive real y both are the
  product with 1/√y, and at y = +∞ both are the product with 0. And v_e + ε > 0 always, because a square is never
  negative on the extended reals (the squares of both infinities are +∞), so a sum of squares over a positive real
  count is nonnegative, and ε is a positive real. No finiteness of any entry is used.
-/
import Idealize.ShloMosaic.Lib.ValueIdx
import Idealize.ShloMosaic.PureOps.Ideal.Laws
import proofs.«107854_g28295244546728_cont_sun_m_959_2_alg».proof.Proof.LibDenseRows
import proofs.«107854_g28295244546728_cont_sun_m_959_2_alg».proof.Proof.Consts
import proofs.«107854_g28295244546728_cont_sun_m_959_2_alg».proof.Proof.LibRsqrtQuotient

noncomputable section

open scoped BigOperators

namespace Cert.Gcn

open Idealize.ShloMosaic Cert.LibDenseRows

variable {M K N : ℕ}

/-- The number of rows every column statistic divides by, as the programs spell it. -/
abbrev count : EReal := Ideal.ofBits .f32 0x461C4000#32
/-- The batch-norm epsilon, as the programs spell it. -/
abbrev eps : EReal := Ideal.ofBits .f32 0x3727C5AC#32
/-- The value a row maximum starts from, as the programs spell it. -/
abbrev negInf : EReal := Ideal.ofBits .f32 0xFF800000#32

/-- X·W, row by row. -/
def mm (X : Fin M → Fin K → EReal) (W : Fin K → Fin N → EReal) : Fin M → Fin N → EReal := fun r => matvec W (X r)

/-- A·P + b, row by row. -/
def agg (A : Fin M → Fin K → EReal) (P : Fin K → Fin N → EReal) (b : Fin N → EReal) : Fin M → Fin N → EReal :=
  fun r => dense P b (A r)

/-- The mean of column e. -/
def colMean (H : Fin M → Fin N → EReal) (e : Fin N) : EReal := Ideal.div (∑ r : Fin M, H r e) count

/-- An entry less its column's mean. -/
def centred (H : Fin M → Fin N → EReal) (r : Fin M) (e : Fin N) : EReal := H r e - colMean H e

/-- The variance of column e: the mean of the squares of the centred entries. -/
def colVar (H : Fin M → Fin N → EReal) (e : Fin N) : EReal :=
  Ideal.div (∑ r : Fin M, centred H r e * centred H r e) count

/-- Batch normalisation with scale g and shift β, then ReLU, dividing by the standard deviation. -/
def bnRelu (H : Fin M → Fin N → EReal) (g be : Fin N → EReal) : Fin M → Fin N → EReal :=
  fun r e => max (Ideal.div (centred H r e) (Ideal.sqrt (colVar H e + eps)) * g e + be e) 0

/-- The same with the reciprocal square root as a factor. -/
def bnReluK (H : Fin M → Fin N → EReal) (g be : Fin N → EReal) : Fin M → Fin N → EReal :=
  fun r e => max (centred H r e * Ideal.rsqrt (colVar H e + eps) * g e + be e) 0

/-- The maximum of row r, from minus infinity. -/
def rowMax (H : Fin M → Fin N → EReal) (r : Fin M) : EReal :=
  (Finset.univ : Finset (Fin N)).fold max negInf (fun f => H r f)

/-- The log-softmax of every row. -/
def logSoftmax (H : Fin M → Fin N → EReal) : Fin M → Fin N → EReal :=
  fun r e => H r e - rowMax H r - Ideal.log (∑ f : Fin N, Ideal.exp (H r f - rowMax H r))

/-- The three-layer network. -/
def net (x : Fin 10000 → Fin 128 → EReal) (adj : Fin 10000 → Fin 10000 → EReal)
    (W1 : Fin 128 → Fin 128 → EReal) (b1 g1 be1 : Fin 128 → EReal)
    (W2 : Fin 128 → Fin 128 → EReal) (b2 g2 be2 : Fin 128 → EReal)
    (W3 : Fin 128 → Fin 40 → EReal) (b3 : Fin 40 → EReal) : Fin 10000 → Fin 40 → EReal :=
  logSoftmax (agg adj (mm (bnRelu (agg adj (mm (bnRelu (agg adj (mm x W1) b1) g1 be1) W2) b2) g2 be2) W3) b3)

/-! ## The reciprocal square root against the quotient by the square root -/

theorem colVar_nonneg (H : Fin M → Fin N → EReal) (e : Fin N) : 0 ≤ colVar H e := by
  unfold colVar
  rw [show count = ((10000 : ℝ) : EReal) from count_eq]
  exact Cert.LibRsqrtQuotient.div_pos_real_nonneg (Cert.LibRsqrtQuotient.sum_mul_self_nonneg _ _) (by norm_num)

theorem colVar_add_eps_pos (H : Fin M → Fin N → EReal) (e : Fin N) : 0 < colVar H e + eps := by
  obtain ⟨r, hr, he⟩ := eps_pos
  rw [show eps = (r : EReal) from he]
  exact Cert.LibRsqrtQuotient.add_pos_real_pos (colVar_nonneg H e) hr

theorem bnReluK_eq (H : Fin M → Fin N → EReal) (g be : Fin N → EReal) : bnReluK H g be = bnRelu H g be := by
  funext r e
  unfold bnReluK bnRelu
  rw [Cert.LibRsqrtQuotient.mul_rsqrt_eq_div_sqrt _ _ (colVar_add_eps_pos H e)]

end Cert.Gcn

end
-- ==== Proof.LibRowReads.lean ====
/-
  Three reads of a dense layer's vector operations at one entry, on the extended reals, for any extents.

  * `bias_row_apply`: a `[1, b]` bias row, recast to its own shape and spread over `a` rows, reads at `(r, e)` its one
    row at `e`.
  * `product_apply`: a plain `[M, K] × [K, N]` matrix product into the zero accumulator whose right operand is a weight
    block recast to its own shape reads at `(r, e)` the sum `∑ k, X[r, k] · W[k, e]` (any dimension record equal to
    the plain one, any operand formats: a change of float format is the identity here).
  * `two_columns_apply`: two `[a, 1]` columns set side by side into `[a, 2]` read at `(r, k)` the first column's row `r`
    for `k = 0` and the second's for `k = 1`.
  Built on this directory's `matmul_plain_zero_apply` (LibPlainMatmul.lean).
-/
import proofs.«107854_g28295244546728_cont_sun_m_959_2_alg».proof.Proof.LibPlainMatmul
import Idealize.ShloMosaic.Lib.Pipeline.Value
import Idealize.ShloMosaic.Lib.ValueLayout

noncomputable section

open scoped BigOperators

namespace Cert.LibRowReads

open Idealize.ShloMosaic Idealize.ShloMosaic.ValueIdx

/-- A `[1, b]` bias row, recast to its own shape and spread over `a` rows, reads its one row. -/
theorem bias_row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (r : Fin a) (e : Fin b) :
    broadcastTo ⟨2, ![a, b]⟩ (shapeCast ⟨2, ![1, b]⟩ v h1) h2 (ix2 r e) = v (ix2 (0 : Fin 1) e) :=
  (broadcastTo_1b_ab_apply _ h2 r e).trans (congrFun (shapeCast_self v h1) _)

/-- A plain product of an `[M, K]` block with a `[K, N]` weight block (recast to its own shape) into the zero
    accumulator: entry `(r, e)` is `∑ k, X[r, k] · W[k, e]`. -/
theorem product_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (h : (⟨2, ![K, N]⟩ : Shape).ShapeCasts ⟨2, ![K, N]⟩) (r : Fin M) (e : Fin N) :
    FloatOps.matmul d none X (shapeCast ⟨2, ![K, N]⟩ W h) (constant ⟨2, ![M, N]⟩ .f32 0x00000000#32) (ix2 r e)
      = ∑ k : Fin K, X (ix2 r k) * W (ix2 k e) := by
  rw [shapeCast_self W h]
  exact matmul_plain_zero_apply d hd none X W r e

/-- Two `[a, 1]` columns set side by side: entry `(r, k)` of the `[a, 2]` result is the first column's entry of row `r`
    for `k = 0` and the second's for `k = 1`. -/
theorem two_columns_apply {a : ℕ} (X Y : (⟨2, ![a, 1]⟩ : Shape).Idx → EReal)
    (h : Shape.Concatenates [(⟨2, ![a, 1]⟩ : Shape), (⟨2, ![a, 1]⟩ : Shape)] (⟨2, ![a, 2]⟩ : Shape) (1 : Fin 2)) (r : Fin a) (k : Fin 2) :
    concatenate (⟨2, ![a, 2]⟩ : Shape) (1 : Fin 2) [⟨(⟨2, ![a, 1]⟩ : Shape), X⟩, ⟨(⟨2, ![a, 1]⟩ : Shape), Y⟩] h (ix2 r k)
      = if k.val = 0 then X (ix2 r (0 : Fin 1)) else Y (ix2 r (0 : Fin 1)) := by
  match k with
  | ⟨0, _⟩ =>
    rw [if_pos rfl]
    exact concatenate_pair_apply_left (1 : Fin 2) X Y h (ix2 r (⟨0, by decide⟩ : Fin 2)) rfl (ix2 r (0 : Fin 1))
      (fun b => match b with | ⟨0, _⟩ => rfl | ⟨1, _⟩ => rfl)
  | ⟨1, _⟩ =>
    rw [if_neg Nat.one_ne_zero]
    exact concatenate_pair_apply_right (1 : Fin 2) X Y h (ix2 r (⟨1, by decide⟩ : Fin 2)) rfl rfl (ix2 r (0 : Fin 1))
      (fun b hb => match b, hb with | ⟨0, _⟩, _ => rfl | ⟨1, _⟩, hb => absurd rfl hb) rfl

end Cert.LibRowReads

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.LibAxisReads.lean ====
/-
  Broadcasts of scalars, vectors, rows and columns, and sums over either axis of a matrix, read at an index on the
  extended reals, for any extents.

  * A scalar (a rank-0 array) broadcast to any shape reads, at every index, its one entry; a constant scalar reads the
    value its word denotes.
  * A vector [a] made a column [a, 1] reads its entry of the row; a column [a, 1] spread over c columns reads the
    column's entry of the row. A vector [b] made a row [1, b] reads its entry of the column; a row [1, b] spread over
    a rows reads the row's entry of the column. (The host's `broadcast_in_dim` spellings: what `jnp.mean(axis=0)`,
    `jnp.var`, a bias add and a softmax's keepdims print as.)
  * A host sum of an [a, b] matrix over its first axis reads, at column e, the initial value plus the sum of the
    column's entries; over its last axis, at row i, the initial value plus the sum of the row's entries: the index
    with the summed coordinate put back is (r, e), respectively (i, f).
  * A vector sum (`multi_reduction <add>`) over the LEADING axis of an [a, b] matrix reads, at column e, the sum of
    that column (the accumulator word being the sum's neutral element, no initial term appears).
-/
import Idealize.ShloMosaic.Lib.ValueIdx
import Idealize.ShloMosaic.Lib.Pipeline.Value
import Idealize.ShloMosaic.PureOps.Ideal.Laws

noncomputable section

open scoped BigOperators

namespace Cert.LibAxisReads

open Idealize.ShloMosaic Idealize.ShloMosaic.ValueIdx

variable {α : Type}

/-- A rank-0 array broadcast to any shape reads its one entry everywhere. -/
theorem scalar_broadcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A constant scalar broadcast to any shape reads, at every index, the value the constant's word denotes. -/
theorem const_broadcast_apply {t : Shape} {φ : FTy} (dims : Fin 0 → Fin t.rank) (h : (⟨0, ![]⟩ : Shape).BroadcastsInDim t dims)
    (b : BitVec φ.bits) (j : t.Idx) :
    broadcastInDim t dims h (constant (F := Ideal) ⟨0, ![]⟩ φ b) j = Ideal.ofBits φ b :=
  scalar_broadcast_apply dims h _ j

/-- A vector [a] made a column [a, 1] reads, at (r, u), the vector at r. -/
theorem vec_column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun d => by
    match d with
    | ⟨0, _⟩ =>
      show r.val = if a = 1 then 0 else r.val
      split
      · have := r.isLt; omega
      · rfl)

/-- A vector [b] made a row [1, b] reads, at (u, e), the vector at e. -/
theorem vec_row_apply {b : ℕ} (v : (⟨1, ![b]⟩ : Shape).Idx → α)
    (h : (⟨1, ![b]⟩ : Shape).BroadcastsInDim ⟨2, ![1, b]⟩ ![1]) (u : Fin 1) (e : Fin b) :
    broadcastInDim ⟨2, ![1, b]⟩ ![1] h v (ix2 u e) = v (ix1 e) :=
  broadcastInDim_apply ![1] h v (ix2 u e) (ix1 e) (fun d => by
    match d with
    | ⟨0, _⟩ =>
      show e.val = if b = 1 then 0 else e.val
      split
      · have := e.isLt; omega
      · rfl)

/-- A row [1, b] spread over a rows reads, at (r, e), the row's entry of column e. -/
theorem row_spread_apply {a b : ℕ} (v : (⟨2, ![1, b]⟩ : Shape).Idx → α)
    (h : (⟨2, ![1, b]⟩ : Shape).BroadcastsInDim ⟨2, ![a, b]⟩ ![0, 1]) (r : Fin a) (e : Fin b) :
    broadcastInDim ⟨2, ![a, b]⟩ ![0, 1] h v (ix2 r e) = v (ix2 (0 : Fin 1) e) :=
  broadcastInDim_apply ![0, 1] h v (ix2 r e) (ix2 (0 : Fin 1) e) (fun d => by
    match d with
    | ⟨0, _⟩ =>
      show (0 : ℕ) = if (1 : ℕ) = 1 then 0 else r.val
      rw [if_pos rfl]
    | ⟨1, _⟩ =>
      show e.val = if b = 1 then 0 else e.val
      split
      · have := e.isLt; omega
      · rfl)

/-- A column [a, 1] spread over c columns reads, at (r, e), the column's entry of row r. -/
theorem column_spread_apply {a c : ℕ} (v : (⟨2, ![a, 1]⟩ : Shape).Idx → α)
    (h : (⟨2, ![a, 1]⟩ : Shape).BroadcastsInDim ⟨2, ![a, c]⟩ ![0, 1]) (r : Fin a) (e : Fin c) :
    broadcastInDim ⟨2, ![a, c]⟩ ![0, 1] h v (ix2 r e) = v (ix2 r (0 : Fin 1)) :=
  broadcastInDim_apply ![0, 1] h v (ix2 r e) (ix2 r (0 : Fin 1)) (fun d => by
    match d with
    | ⟨0, _⟩ =>
      show r.val = if a = 1 then 0 else r.val
      split
      · have := r.isLt; omega
      · rfl
    | ⟨1, _⟩ =>
      show (0 : ℕ) = if (1 : ℕ) = 1 then 0 else e.val
      rw [if_pos rfl])

/-- A host sum over the first axis of an [a, b] matrix reads, at column e, the initial value plus the sum of the
    column's entries. -/
theorem hostReduceAdd_firstAxis_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduceAdd (F := Ideal) x init h' hu (ix1 e) = init (Shape.Idx.first hu) + ∑ r : Fin a, x (ix2 r e) := by
  refine (Ideal.hostReduceAdd_single h' h x (init (Shape.Idx.first hu)) (ix1 e)).trans ?_
  refine congrArg (fun z => init (Shape.Idx.first hu) + z) ?_
  exact Finset.sum_congr rfl fun r _ => congrArg x (funext fun d => Fin.ext (by
    match d with
    | ⟨0, _⟩ => rfl
    | ⟨1, _⟩ => rfl))

/-- A host sum over the last axis of an [a, b] matrix reads, at row i, the initial value plus the sum of the row's
    entries. -/
theorem hostReduceAdd_lastAxis_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) x init h' hu (ix1 i) = init (Shape.Idx.first hu) + ∑ f : Fin b, x (ix2 i f) := by
  refine (Ideal.hostReduceAdd_single h' h x (init (Shape.Idx.first hu)) (ix1 i)).trans ?_
  refine congrArg (fun z => init (Shape.Idx.first hu) + z) ?_
  exact Finset.sum_congr rfl fun f _ => congrArg x (funext fun d => Fin.ext (by
    match d with
    | ⟨0, _⟩ => rfl
    | ⟨1, _⟩ => rfl))

/-- On the extended reals a vector sum over the leading axis of an `[a, b]` matrix reads, at column `e`, the sum of
    that column's entries: the index over `e` with coordinate `r` put back on the summed axis is `(r, e)`. -/
theorem multiReduction_add_firstAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (e : Fin b) :
    multiReduction .add [0] ⟨1, ![b]⟩ src acc h hφ hacc (ix1 e) = ∑ r : Fin a, src (ix2 r e) := by
  refine (Ideal.multiReduction_add_single src acc h hφ hacc (ix1 e)).trans ?_
  exact Finset.sum_congr rfl fun r _ => congrArg src (funext fun d => Fin.ext (by
    match d with
    | ⟨0, _⟩ => rfl
    | ⟨1, _⟩ => rfl))

end Cert.LibAxisReads

end
-- ==== Proof.KernelBodies.lean ====
/-
  The value each kernel body stores, read row by row on the extended reals.

  Six bodies make up the network. The first stores X·W. The second and fourth store A·P + b for a block of 200 rows of
  the adjacency matrix (the second also stores the block itself in a narrower float format, which on the extended reals
  is the block). The third and fifth normalise their input per column, scale, shift, cut off below at zero, and
  multiply by a weight block. The sixth stores A·P + b followed by the log-softmax of every row.

  Each theorem below takes the arrays a body loads as arbitrary arrays of the literal shapes and states the stored
  array, taken apart into rows, as the specification's function of the loaded arrays' rows. The steps are the same in
  every body: a recast of an array to its own shape is the array; a plain product into the zero accumulator is the row
  vector times the matrix; a `[1, n]` row spread over the rows adds the same row to every row; a sum over the leading
  axis of a matrix is, at column e, the sum of that column, and a sum or maximum over the last axis is, at row r, the sum
  or maximum of that row; a vector kept as a one-row or one-column matrix and spread back reads the vector's entry of
  that column or row; the scalar literals read their words everywhere. The batch-norm bodies multiply by the reciprocal
  square root where the specification divides by the square root; the two agree on the extended reals with no
  finiteness (`Cert.Gcn.bnReluK_eq`). No finiteness of any entry is used anywhere.
-/
import proofs.«107854_g28295244546728_cont_sun_m_959_2_alg».proof.Proof.Gen.KernelIdeal.Skeleton
import proofs.«107854_g28295244546728_cont_sun_m_959_2_alg».proof.Proof.Spec
import proofs.«107854_g28295244546728_cont_sun_m_959_2_alg».proof.Proof.LibDenseRows
import proofs.«107854_g28295244546728_cont_sun_m_959_2_alg».proof.Proof.LibRowReads
import proofs.«107854_g28295244546728_cont_sun_m_959_2_alg».proof.Proof.LibKeepdims
import proofs.«107854_g28295244546728_cont_sun_m_959_2_alg».proof.Proof.LibUnitAxes
import proofs.«107854_g28295244546728_cont_sun_m_959_2_alg».proof.Proof.LibAxisReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Idealize.ShloMosaic Idealize.ShloMosaic.ValueIdx Cert.KernelIdeal Cert.KernelIdeal.Gen Cert.LibDenseRows Cert.LibAxisReads

/-! ## The dense bodies -/

/-- The first body stores X·W: a plain product into the zero accumulator, and a change of float format is the identity
    on the extended reals. -/
theorem rows_pay0 (x0 : Vec Ideal S10000x128 .f32) (x1 : Vec Ideal S128x128 .f32) :
    rows (k0_pay1 (F := Ideal) x0 x1) = Cert.Gcn.mm (rows x0) (rows x1) :=
  funext fun r => rows_matmul_zero (φ₁ := .f32) (φ₂ := .f32) dot_S10000x128_S128x128_S10000x128_1_0_0_1_n_n rfl none x0 x1 r

/-- The narrowed copy of the adjacency block is the block itself: a change of float format is the identity on the
    extended reals. -/
theorem pay1_copy (x0 : Vec Ideal S200x10000 .f32) : k1_pay1 (F := Ideal) x0 = x0 := rfl

/-- The first aggregation body stores A·P + b for its block of rows: a recast of an array to its own shape is the
    array, the product is plain and into the zero accumulator, and the one bias row is added to every row. -/
theorem rows_pay1 (x0 : Vec Ideal S200x10000 .f32) (x3 : Vec Ideal S10000x128 .bf16) (x6 : Vec Ideal S1x128 .f32) :
    rows (k1_pay2 (F := Ideal) x0 x3 x6) = Cert.Gcn.agg (rows x0) (rows x3) (rows x6 0) := by
  funext r
  unfold k1_pay2
  rw [shapeCast_self x3, shapeCast_self x6, pay1_copy]
  exact rows_matmul_bias (φ₁ := .f32) (φ₂ := .bf16) dot_S200x10000_S10000x128_S200x128_1_0_0_1_n_n rfl none x0 x3 x6 _ r

/-- The second aggregation body likewise, its left operand already narrow. -/
theorem rows_pay3 (x0 : Vec Ideal S200x10000 .bf16) (x2 : Vec Ideal S10000x128 .bf16) (x5 : Vec Ideal S1x128 .f32) :
    rows (k3_pay1 (F := Ideal) x0 x2 x5) = Cert.Gcn.agg (rows x0) (rows x2) (rows x5 0) := by
  funext r
  unfold k3_pay1
  rw [shapeCast_self x0, shapeCast_self x2, shapeCast_self x5]
  exact rows_matmul_bias (φ₁ := .bf16) (φ₂ := .bf16) dot_S200x10000_S10000x128_S200x128_1_0_0_1_n_n rfl none x0 x2 x5 _ r

/-! ## The batch-norm bodies -/

/-- The value a batch-norm body multiplies by its weight block: the input normalised per column with the reciprocal
    square root, scaled, shifted, and cut off below at zero. -/
def bnBody (v0 : Vec Ideal S10000x128 .f32) (v18 : Vec Ideal S1x128 .f32) (v22 : Vec Ideal S1x128 .f32) : FVec Ideal S10000x128 .f32 :=
  have v1 : FVec Ideal S10000x128 .f32 := shapeCast S10000x128 v0 shapeCasts_S10000x128_S10000x128
  have v2 : FVec Ideal S128 .f32 := multiReduction .add [0] S128 v1 0x00000000#32 reduces_S10000x128_S128 (.inl rfl) rfl
  have v3 : FVec Ideal S1x128 .f32 := shapeCast S1x128 v2 shapeCasts_S128_S1x128
  have cst_1 : Ideal .f32 := Scalar.ofBits .f32 0x461C4000#32
  have v4 : FVec Ideal S1x128 .f32 := broadcast S1x128 cst_1
  have v5 : FVec Ideal S1x128 .f32 := divf v3 v4
  have v6 : FVec Ideal S10000x128 .f32 := broadcastTo S10000x128 v5 broadcasts_S1x128_S10000x128
  have v7 : FVec Ideal S10000x128 .f32 := subf v1 v6
  have v8 : FVec Ideal S10000x128 .f32 := mulf v7 v7
  have v9 : FVec Ideal S128 .f32 := multiReduction .add [0] S128 v8 0x00000000#32 reduces_S10000x128_S128 (.inl rfl) rfl
  have v10 : FVec Ideal S1x128 .f32 := shapeCast S1x128 v9 shapeCasts_S128_S1x128
  have cst_3 : Ideal .f32 := Scalar.ofBits .f32 0x461C4000#32
  have v11 : FVec Ideal S1x128 .f32 := broadcast S1x128 cst_3
  have v12 : FVec Ideal S1x128 .f32 := divf v10 v11
  have cst_4 : Ideal .f32 := Scalar.ofBits .f32 0x3727C5AC#32
  have v13 : FVec Ideal S1x128 .f32 := broadcast S1x128 cst_4
  have v14 : FVec Ideal S1x128 .f32 := addf v12 v13
  have v15 : FVec Ideal S1x128 .f32 := rsqrt v14
  have v16 : FVec Ideal S10000x128 .f32 := broadcastTo S10000x128 v15 broadcasts_S1x128_S10000x128
  have v17 : FVec Ideal S10000x128 .f32 := mulf v7 v16
  have v19 : FVec Ideal S1x128 .f32 := shapeCast S1x128 v18 shapeCasts_S1x128_S1x128
  have v20 : FVec Ideal S10000x128 .f32 := broadcastTo S10000x128 v19 broadcasts_S1x128_S10000x128
  have v21 : FVec Ideal S10000x128 .f32 := mulf v17 v20
  have v23 : FVec Ideal S1x128 .f32 := shapeCast S1x128 v22 shapeCasts_S1x128_S1x128
  have v24 : FVec Ideal S10000x128 .f32 := broadcastTo S10000x128 v23 broadcasts_S1x128_S10000x128
  have v25 : FVec Ideal S10000x128 .f32 := addf v21 v24
  have cst_9 : Ideal .f32 := Scalar.ofBits .f32 0x00000000#32
  have v26 : FVec Ideal S10000x128 .f32 := broadcast S10000x128 cst_9
  have v27 : FVec Ideal S10000x128 .f32 := maximumf v25 v26
  v27

/-- Row by row, that value is the kernel's spelling of batch normalisation followed by ReLU. Column `e`'s mean is the
    column sum over the count; an entry less that mean is the centred entry; the column sum of the squared centred
    entries over the count is the variance; the reciprocal square root of the variance plus epsilon multiplies the
    centred entry; the scale row multiplies, the shift row adds, and the maximum with the zero word is the maximum
    with 0. Every step is an equation between the same extended reals. -/
theorem rows_bnBody (x0 : Vec Ideal S10000x128 .f32) (x18 x22 : Vec Ideal S1x128 .f32) :
    rows (bnBody x0 x18 x22) = Cert.Gcn.bnReluK (rows x0) (rows x18 0) (rows x22 0) := by
  unfold bnBody
  extract_lets v1 v2 v3 cnt v4 v5 v6 v7 v8 v9 v10 v12 ceps v13 v14 v15 v16 v17 v19 v20 v21 v23 v24 v25 c0 v26 v27
  have e1 : v1 = x0 := shapeCast_self x0 _
  have h5 : ∀ (u : Fin 1) (e : Fin 128), v5 (ix2 u e) = Cert.Gcn.colMean (rows x0) e := fun u e => by
    show Ideal.div (v3 (ix2 u e)) (Ideal.ofBits .f32 0x461C4000#32) = _
    rw [show v3 (ix2 u e) = v2 (ix1 e) from shapeCast_a_1a_apply v2 _ u e,
      show v2 (ix1 e) = ∑ q : Fin 10000, v1 (ix2 q e) from multiReduction_add_firstAxis_apply v1 _ _ _ _ e, e1]
    rfl
  have h7 : ∀ (r : Fin 10000) (e : Fin 128), v7 (ix2 r e) = Cert.Gcn.centred (rows x0) r e := fun r e => by
    show v1 (ix2 r e) - v6 (ix2 r e) = _
    rw [show v6 (ix2 r e) = v5 (ix2 (0 : Fin 1) e) from broadcastTo_1b_ab_apply v5 _ r e, h5, e1]
    rfl
  have h12 : ∀ (u : Fin 1) (e : Fin 128), v12 (ix2 u e) = Cert.Gcn.colVar (rows x0) e := fun u e => by
    show Ideal.div (v10 (ix2 u e)) (Ideal.ofBits .f32 0x461C4000#32) = _
    rw [show v10 (ix2 u e) = v9 (ix1 e) from shapeCast_a_1a_apply v9 _ u e,
      show v9 (ix1 e) = ∑ q : Fin 10000, v8 (ix2 q e) from multiReduction_add_firstAxis_apply v8 _ _ _ _ e]
    refine congrArg (fun s => Ideal.div s (Ideal.ofBits .f32 0x461C4000#32)) (Finset.sum_congr rfl fun q _ => ?_)
    show v7 (ix2 q e) * v7 (ix2 q e) = _
    rw [h7]
  have h16 : ∀ (r : Fin 10000) (e : Fin 128), v16 (ix2 r e) = Ideal.rsqrt (Cert.Gcn.colVar (rows x0) e + Cert.Gcn.eps) := fun r e => by
    rw [show v16 (ix2 r e) = v15 (ix2 (0 : Fin 1) e) from broadcastTo_1b_ab_apply v15 _ r e]
    show Ideal.rsqrt (v12 (ix2 (0 : Fin 1) e) + Ideal.ofBits .f32 0x3727C5AC#32) = _
    rw [h12]
  funext r e
  show max (v7 (ix2 r e) * v16 (ix2 r e) * v20 (ix2 r e) + v24 (ix2 r e)) (Ideal.ofBits .f32 0x00000000#32) = _
  rw [h7, h16, Ideal.ofBits_zero_f32,
    show v20 (ix2 r e) = x18 (ix2 (0 : Fin 1) e) from Cert.LibRowReads.bias_row_apply x18 _ _ r e,
    show v24 (ix2 r e) = x22 (ix2 (0 : Fin 1) e) from Cert.LibRowReads.bias_row_apply x22 _ _ r e]
  rfl

/-- The first batch-norm body: the normalised value times the weight block, row by row. The body's value is, term for
    term, the plain product of `bnBody` with the weights into the zero accumulator; the two spellings of the
    normalisation agree on the extended reals. -/
theorem rows_pay2 (x0 : Vec Ideal S10000x128 .f32) (x18 x22 : Vec Ideal S1x128 .f32) (x28 : Vec Ideal S128x128 .f32) :
    rows (k2_pay1 (F := Ideal) x0 x18 x22 x28) = Cert.Gcn.mm (Cert.Gcn.bnRelu (rows x0) (rows x18 0) (rows x22 0)) (rows x28) := by
  funext r
  rw [← Cert.Gcn.bnReluK_eq, ← rows_bnBody x0 x18 x22]
  exact rows_matmul_zero (φ₁ := .f32) (φ₂ := .f32) dot_S10000x128_S128x128_S10000x128_1_0_0_1_n_n rfl none (bnBody x0 x18 x22) x28 r

/-- The second batch-norm body: the same with a 128 × 40 weight block. -/
theorem rows_pay4 (x0 : Vec Ideal S10000x128 .f32) (x18 x22 : Vec Ideal S1x128 .f32) (x28 : Vec Ideal S128x40 .f32) :
    rows (k4_pay1 (F := Ideal) x0 x18 x22 x28) = Cert.Gcn.mm (Cert.Gcn.bnRelu (rows x0) (rows x18 0) (rows x22 0)) (rows x28) := by
  funext r
  rw [← Cert.Gcn.bnReluK_eq, ← rows_bnBody x0 x18 x22]
  exact rows_matmul_zero (φ₁ := .f32) (φ₂ := .f32) dot_S10000x128_S128x40_S10000x40_1_0_0_1_n_n rfl none (bnBody x0 x18 x22) x28 r

/-! ## The log-softmax body -/

/-- The last body: a graph-convolution layer followed by the log-softmax of every row. The layer is the plain product
    plus the bias row; the row maximum is the fold of `max` from the word of minus infinity over the row; kept as a
    column and spread back over the row it is subtracted from every entry; the exponentials are summed along the row,
    and the logarithm of that sum, kept as a column and spread back, is subtracted in turn. -/
theorem rows_pay5 (x0 : Vec Ideal S200x10000 .bf16) (x2 : Vec Ideal S10000x40 .bf16) (x5 : Vec Ideal S1x40 .f32) :
    rows (k5_pay1 (F := Ideal) x0 x2 x5) = Cert.Gcn.logSoftmax (Cert.Gcn.agg (rows x0) (rows x2) (rows x5 0)) := by
  unfold k5_pay1
  extract_lets v1 v3 cst v4 v6 v7 v8 v9 v10 v11 v12 v13 v14 v15 v16 v19 v20
  have e1 : v1 = x0 := shapeCast_self x0 _
  have e3 : v3 = x2 := shapeCast_self x2 _
  have e6 : v6 = x5 := shapeCast_self x5 _
  have h8 : ∀ (r : Fin 200) (e : Fin 40), v8 (ix2 r e) = Cert.Gcn.agg (rows x0) (rows x2) (rows x5 0) r e := fun r e =>
    congrFun ((rows_matmul_bias (φ₁ := .bf16) (φ₂ := .bf16) dot_S200x10000_S10000x40_S200x40_1_0_0_1_n_n rfl none v1 v3 v6 _ r).trans
      (by rw [e1, e3, e6]; rfl)) e
  have h9 : ∀ r : Fin 200, v9 (ix1 r) = Cert.Gcn.rowMax (Cert.Gcn.agg (rows x0) (rows x2) (rows x5 0)) r := fun r =>
    (Cert.LibUnitAxes.multiReduction_maximumf_lastAxis_apply v8 _ _ _ _ r).trans
      (by rw [show (fun f : Fin 40 => v8 (ix2 r f)) = fun f => Cert.Gcn.agg (rows x0) (rows x2) (rows x5 0) r f from funext fun f => h8 r f]; rfl)
  have h11 : ∀ (r : Fin 200) (e : Fin 40), v11 (ix2 r e) = Cert.Gcn.rowMax (Cert.Gcn.agg (rows x0) (rows x2) (rows x5 0)) r := fun r e =>
    (Cert.LibKeepdims.broadcastTo_a1_ac_apply v10 _ r e).trans ((Cert.LibKeepdims.shapeCast_a_a1_apply v9 _ r 0).trans (h9 r))
  have h12 : ∀ (r : Fin 200) (e : Fin 40), v12 (ix2 r e)
      = Cert.Gcn.agg (rows x0) (rows x2) (rows x5 0) r e - Cert.Gcn.rowMax (Cert.Gcn.agg (rows x0) (rows x2) (rows x5 0)) r := fun r e => by
    show v8 (ix2 r e) - v11 (ix2 r e) = _
    rw [h8, h11]
  have h14 : ∀ r : Fin 200, v14 (ix1 r)
      = ∑ f : Fin 40, Ideal.exp (Cert.Gcn.agg (rows x0) (rows x2) (rows x5 0) r f - Cert.Gcn.rowMax (Cert.Gcn.agg (rows x0) (rows x2) (rows x5 0)) r) := fun r =>
    (Cert.LibKeepdims.multiReduction_add_lastAxis_apply v13 _ _ _ _ r).trans (Finset.sum_congr rfl fun f _ => by
      show Ideal.exp (v12 (ix2 r f)) = _
      rw [h12])
  have h19 : ∀ (r : Fin 200) (e : Fin 40), v19 (ix2 r e)
      = Ideal.log (∑ f : Fin 40, Ideal.exp (Cert.Gcn.agg (rows x0) (rows x2) (rows x5 0) r f - Cert.Gcn.rowMax (Cert.Gcn.agg (rows x0) (rows x2) (rows x5 0)) r)) := fun r e => by
    rw [show v19 (ix2 r e) = v16 (ix2 r (0 : Fin 1)) from Cert.LibKeepdims.broadcastTo_a1_ac_apply v16 _ r e]
    show Ideal.log (v15 (ix2 r (0 : Fin 1))) = _
    rw [show v15 (ix2 r (0 : Fin 1)) = v14 (ix1 r) from Cert.LibKeepdims.shapeCast_a_a1_apply v14 _ r 0, h14]
  funext r e
  show v12 (ix2 r e) - v19 (ix2 r e) = _
  rw [h12, h19]
  rfl

end Cert.KernelIdeal.Bodies

end
-- ==== Proof.KernelRegion0.lean ====
/-
  Region 0 of the idealized kernel: what its one write-back leaves in the result array.

  The region has a single grid point, and every window is its whole array: the [10000, 128] features and the
  [128, 128] weights come in whole, and the body's one store is the whole [10000, 128] product. So the result array
  is the matrix product of the two arrays the region finds.
-/
import proofs.«107854_g28295244546728_cont_sun_m_959_2_alg».proof.Proof.Gen.KernelIdeal.Frame
import proofs.«107854_g28295244546728_cont_sun_m_959_2_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The region has one grid point and every window is its whole array: every block index is 0. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Window 0's block is the whole array. -/
theorem blk_0 (c : Dev nD) (t : Fin cfg0.N) (r : Fin 10000) (k : Fin 128) :
    iblk0 V c 0 t (ix2 r k) = V c main_arg0 (ix2 r k) := by
  obtain ⟨e0, e1, -⟩ := idx t
  show V c main_arg0 (((cfg0.win 0).blk t).view.emb (ix2 r k)) = _
  refine congrArg (V c main_arg0) (funext fun a => Fin.ext ?_)
  match a with
  | ⟨0, _⟩ => show win0_0.index t (0 : Fin 2) * 10000 + 1 * r.val = r.val; omega
  | ⟨1, _⟩ => show win0_0.index t (1 : Fin 2) * 128 + 1 * k.val = k.val; omega

theorem rows_blk_0 (c : Dev nD) (t : Fin cfg0.N) : rows (iblk0 V c 0 t) = rows (V c main_arg0) :=
  funext fun r => funext fun k => blk_0 V c t r k

/-- Window 1's block is the whole array. -/
theorem blk_1 (c : Dev nD) (t : Fin cfg0.N) (r : Fin 128) (k : Fin 128) :
    iblk0 V c 1 t (ix2 r k) = V c main_arg2 (ix2 r k) := by
  obtain ⟨-, -, e0, e1, -⟩ := idx t
  show V c main_arg2 (((cfg0.win 1).blk t).view.emb (ix2 r k)) = _
  refine congrArg (V c main_arg2) (funext fun a => Fin.ext ?_)
  match a with
  | ⟨0, _⟩ => show win0_1.index t (0 : Fin 2) * 128 + 1 * r.val = r.val; omega
  | ⟨1, _⟩ => show win0_1.index t (1 : Fin 2) * 128 + 1 * k.val = k.val; omega

theorem rows_blk_1 (c : Dev nD) (t : Fin cfg0.N) : rows (iblk0 V c 1 t) = rows (V c main_arg2) :=
  funext fun r => funext fun k => blk_1 V c t r k

/-- The result block is the whole result array. -/
theorem emb_out (t : Fin cfg0.N) (r : Fin 10000) (e : Fin 128) :
    ((cfg0.win 2).blk t).view.emb (ix2 r e) = ix2 r e := by
  obtain ⟨-, -, -, -, e0, e1⟩ := idx t
  refine funext fun a => Fin.ext ?_
  match a with
  | ⟨0, _⟩ => show win0_2.index t (0 : Fin 2) * 10000 + 1 * r.val = r.val; omega
  | ⟨1, _⟩ => show win0_2.index t (1 : Fin 2) * 128 + 1 * e.val = e.val; omega

/-- The result array as one function of the arrays the region finds. -/
def out (a0 : S10000x128.Idx → EReal) (a1 : S128x128.Idx → EReal) : S10000x128.Idx → EReal :=
  fun i => Cert.Gcn.mm (rows a0) (rows a1) (i 0) (i 1)

/-- What the one point writes back: the body's stored value of the whole input arrays' blocks. -/
theorem flushed_pay (c : Dev nD) (t : Fin cfg0.N) :
    (dat0 V c).flushed 2 t = k0_pay1 (F := Ideal) (iblk0 V c 0 t) (iblk0 V c 1 t) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rfl

/-- WHAT THE POINT WRITES BACK is the block of `out` of the arrays the region finds, given the body's stored value
    read row by row (`hpay`). -/
theorem flushed_eq (hpay : ∀ (x0 : Vec Ideal S10000x128 .f32) (x1 : Vec Ideal S128x128 .f32), rows (k0_pay1 (F := Ideal) x0 x1) = Cert.Gcn.mm (rows x0) (rows x1)) (c : Dev nD) (t : Fin cfg0.N) :
    (dat0 V c).flushed 2 t
      = ((cfg0.win 2).blk t).view.read (Elt Ideal) (out (V c main_arg0) (V c main_arg2)) := by
  rw [flushed_pay]
  funext y
  obtain ⟨r, e, rfl⟩ : ∃ (r : Fin 10000) (e : Fin 128), y = ix2 r e := ⟨y 0, y 1, eq_ix2 y⟩
  show rows (k0_pay1 (F := Ideal) (iblk0 V c 0 t) (iblk0 V c 1 t)) r e
    = out (V c main_arg0) (V c main_arg2) (((cfg0.win 2).blk t).view.emb (ix2 r e))
  rw [emb_out, hpay]
  show Cert.Gcn.mm (rows (iblk0 V c 0 t)) (rows (iblk0 V c 1 t)) r e = Cert.Gcn.mm (rows (V c main_arg0)) (rows (V c main_arg2)) r e
  rw [rows_blk_0 V c t, rows_blk_1 V c t]

theorem mem_blk (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- Every index of the result array is in the one point's block. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  refine ⟨t0_0, flush0_2 _, ?_⟩
  rw [mem_blk]
  obtain ⟨-, -, -, -, e0, e1⟩ := idx t0_0
  intro a
  match a with
  | ⟨0, _⟩ =>
    show win0_2.index t0_0 (0 : Fin 2) * 10000 ≤ (i 0).val
      ∧ (i 0).val < win0_2.index t0_0 (0 : Fin 2) * 10000 + 10000
    rw [e0]; omega
  | ⟨1, _⟩ =>
    show win0_2.index t0_0 (1 : Fin 2) * 128 ≤ (i 1).val
      ∧ (i 1).val < win0_2.index t0_0 (1 : Fin 2) * 128 + 128
    rw [e1]; omega

/-- THE ARRAY after the region: `out` of the arrays the region finds. -/
theorem arr (hpay : ∀ (x0 : Vec Ideal S10000x128 .f32) (x1 : Vec Ideal S128x128 .f32), rows (k0_pay1 (F := Ideal) x0 x1) = Cert.Gcn.mm (rows x0) (rows x1)) (c : Dev nD) :
    (dat0 V c).arrAt 2 cfg0.N = out (V c main_arg0) (V c main_arg2) :=
  (dat0 V c).arrAt_eq_of_cover 2 _ (fun t _ => flushed_eq V hpay c t) cover

/-- The same, row by row. -/
theorem rows_arr (hpay : ∀ (x0 : Vec Ideal S10000x128 .f32) (x1 : Vec Ideal S128x128 .f32), rows (k0_pay1 (F := Ideal) x0 x1) = Cert.Gcn.mm (rows x0) (rows x1)) (c : Dev nD) :
    rows ((dat0 V c).arrAt 2 cfg0.N) = Cert.Gcn.mm (rows (V c main_arg0)) (rows (V c main_arg2)) := by
  rw [arr V hpay c]; rfl

end Cert.KernelIdeal.Region0

end
-- ==== Proof.SpecRows.lean ====
/-
  The network's row-local stages, one row at a time.

  A row of A·P + b depends only on the same row of A, and a row of a log-softmax only on the same row of its operand:
  `aggRow P b a` is the row (a·P + b) of one adjacency row a, and `lsmRow h` the log-softmax of one row h. A kernel
  that is handed 200 rows of the adjacency at a time therefore computes, in row r of its block, exactly the row of the
  whole-array result that the block's row is.
-/
import proofs.«107854_g28295244546728_cont_sun_m_959_2_alg».proof.Proof.Spec

noncomputable section

open scoped BigOperators

namespace Cert.Gcn

open Idealize.ShloMosaic Cert.LibDenseRows

variable {M K N : ℕ}

/-- The row a·P + b of one adjacency row a. -/
def aggRow (P : Fin K → Fin N → EReal) (b : Fin N → EReal) (a : Fin K → EReal) : Fin N → EReal := dense P b a

/-- The log-softmax of one row. -/
def lsmRow (h : Fin N → EReal) : Fin N → EReal :=
  fun e => h e - (Finset.univ : Finset (Fin N)).fold max negInf h
    - Ideal.log (∑ f : Fin N, Ideal.exp (h f - (Finset.univ : Finset (Fin N)).fold max negInf h))

theorem agg_row (A : Fin M → Fin K → EReal) (P : Fin K → Fin N → EReal) (b : Fin N → EReal) (r : Fin M) :
    agg A P b r = aggRow P b (A r) := rfl

theorem logSoftmax_row (H : Fin M → Fin N → EReal) (r : Fin M) : logSoftmax H r = lsmRow (H r) := rfl

end Cert.Gcn

end
-- ==== Proof.KernelRegion1.lean ====
/-
  Region 1 of the idealized kernel: what its write-backs leave in the result window's array.

  The grid has 50 points. At point t the body is handed rows 200·t … 200·t + 199 of the adjacency (a [200, 10000] block),
  the whole feature matrix and the whole bias row, and stores a [200, 128] block that is written back to rows
  200·t … 200·t + 199 of the result. The stored block is the block's rows times the feature matrix plus the bias row. Row 200·t + r of the result is that function of row 200·t + r of the
  adjacency, which is row r of the block; the 50 blocks tile the 10000 rows, so the whole array is the function of the
  whole adjacency, row by row.
-/
import proofs.«107854_g28295244546728_cont_sun_m_959_2_alg».proof.Proof.Gen.KernelIdeal.Frame
import proofs.«107854_g28295244546728_cont_sun_m_959_2_alg».proof.Proof.Spec
import Idealize.ShloMosaic.Lib.Pipeline.Value
import Idealize.ShloMosaic.Lib.ValueIdx
import proofs.«107854_g28295244546728_cont_sun_m_959_2_alg».proof.Proof.SpecRows

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency's and the result's block row is the point, every other block index 0. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row of the array that row r of point t's block is. -/
def rowOf (t : Fin cfg1.N) (r : Fin 200) : Fin 10000 :=
  ⟨t.val * 200 + r.val, by have := t.isLt; have : cfg1.N = 50 := N_1; omega⟩

/-- Row r of the adjacency block at point t is row 200·t + r of the adjacency. -/
theorem blk_adj (c : Dev nD) (t : Fin cfg1.N) (r : Fin 200) (k : Fin 10000) :
    iblk1 V c 0 t (ix2 r k) = V c main_arg1 (ix2 (rowOf t r) k) := by
  obtain ⟨e0, e1, -⟩ := idx t
  show V c main_arg1 (((cfg1.win 0).blk t).view.emb (ix2 r k)) = _
  refine congrArg (V c main_arg1) (funext fun a => Fin.ext ?_)
  match a with
  | ⟨0, _⟩ => show win1_0.index t (0 : Fin 2) * 200 + 1 * r.val = t.val * 200 + r.val; omega
  | ⟨1, _⟩ => show win1_0.index t (1 : Fin 2) * 10000 + 1 * k.val = k.val; omega

/-- The feature matrix's block is the whole matrix at every point. -/
theorem blk_p (c : Dev nD) (t : Fin cfg1.N) (k : Fin 10000) (e : Fin 128) :
    iblk1 V c 1 t (ix2 k e) = V c main_v0 (ix2 k e) := by
  obtain ⟨-, -, e0, e1, -⟩ := idx t
  show V c main_v0 (((cfg1.win 1).blk t).view.emb (ix2 k e)) = _
  refine congrArg (V c main_v0) (funext fun a => Fin.ext ?_)
  match a with
  | ⟨0, _⟩ => show win1_1.index t (0 : Fin 2) * 10000 + 1 * k.val = k.val; omega
  | ⟨1, _⟩ => show win1_1.index t (1 : Fin 2) * 128 + 1 * e.val = e.val; omega

/-- The bias row's block is the whole row at every point. -/
theorem blk_b (c : Dev nD) (t : Fin cfg1.N) (e : Fin 128) :
    iblk1 V c 2 t (ix2 (0 : Fin 1) e) = V c main_v1 (ix2 (0 : Fin 1) e) := by
  obtain ⟨-, -, -, -, e0, e1, -⟩ := idx t
  show V c main_v1 (((cfg1.win 2).blk t).view.emb (ix2 (0 : Fin 1) e)) = _
  refine congrArg (V c main_v1) (funext fun a => Fin.ext ?_)
  match a with
  | ⟨0, _⟩ => show win1_2.index t (0 : Fin 2) * 1 + 1 * 0 = 0; omega
  | ⟨1, _⟩ => show win1_2.index t (1 : Fin 2) * 128 + 1 * e.val = e.val; omega

/-- Where row r, column e of point t's result block sits in the result array. -/
theorem emb_out (t : Fin cfg1.N) (r : Fin 200) (e : Fin 128) :
    ((cfg1.win 3).blk t).view.emb (ix2 r e) = ix2 (rowOf t r) e := by
  obtain ⟨-, -, -, -, -, -, e0, e1⟩ := idx t
  refine funext fun a => Fin.ext ?_
  match a with
  | ⟨0, _⟩ => show win1_3.index t (0 : Fin 2) * 200 + 1 * r.val = t.val * 200 + r.val; omega
  | ⟨1, _⟩ => show win1_3.index t (1 : Fin 2) * 128 + 1 * e.val = e.val; omega

/-- The result array as one function of the arrays the region finds: entry (i, e) is the specification's value at
    row i of the adjacency. -/
def out (A : S10000x10000.Idx → EReal) (P : S10000x128.Idx → EReal) (b : S1x128.Idx → EReal) : S10000x128.Idx → EReal :=
  fun i => Cert.Gcn.agg (rows A) (rows P) (rows b 0) (i 0) (i 1)

/-- What point t writes back: the body's stored value of the point's input blocks. -/
theorem flushed_pay (c : Dev nD) (t : Fin cfg1.N) :
    (dat1 V c).flushed 3 t = k1_pay2 (F := Ideal) (iblk1 V c 0 t) (iblk1 V c 1 t) (iblk1 V c 2 t) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x128) hz, View.ld_unit_zero (S := S1x128) hz]
  rfl

/-- The rows of the adjacency block at point t are rows 200·t … of the adjacency; the other two blocks are whole. -/
theorem rows_blocks (c : Dev nD) (t : Fin cfg1.N) (r : Fin 200) :
    rows (iblk1 V c 0 t) r = rows (V c main_arg1) (rowOf t r)
      ∧ rows (iblk1 V c 1 t) = rows (V c main_v0) ∧ rows (iblk1 V c 2 t) 0 = rows (V c main_v1) 0 :=
  ⟨funext fun k => blk_adj V c t r k, funext fun k => funext fun e => blk_p V c t k e, funext fun e => blk_b V c t e⟩

/-- WHAT POINT t WRITES BACK is block t of `out` of the arrays the region finds, given the body's stored value read row
    by row (`hpay`): row r of the block is the row function of row r of the adjacency block, which is row 200·t + r
    of the adjacency. -/
theorem flushed_eq
    (hpay : ∀ (x0 : Vec Ideal S200x10000 .f32) (x1 : Vec Ideal S10000x128 .bf16) (x2 : Vec Ideal S1x128 .f32), rows (k1_pay2 (F := Ideal) x0 x1 x2) = Cert.Gcn.agg (rows x0) (rows x1) (rows x2 0))
    (c : Dev nD) (t : Fin cfg1.N) :
    (dat1 V c).flushed 3 t
      = ((cfg1.win 3).blk t).view.read (Elt Ideal) (out (V c main_arg1) (V c main_v0) (V c main_v1)) := by
  rw [flushed_pay]
  funext y
  obtain ⟨r, e, rfl⟩ : ∃ (r : Fin 200) (e : Fin 128), y = ix2 r e := ⟨y 0, y 1, eq_ix2 y⟩
  show rows (k1_pay2 (F := Ideal) (iblk1 V c 0 t) (iblk1 V c 1 t) (iblk1 V c 2 t)) r e
    = out (V c main_arg1) (V c main_v0) (V c main_v1) (((cfg1.win 3).blk t).view.emb (ix2 r e))
  rw [emb_out, hpay]
  obtain ⟨h0, h1, h2⟩ := rows_blocks V c t r
  show Cert.Gcn.aggRow (rows (iblk1 V c 1 t)) (rows (iblk1 V c 2 t) 0) (rows (iblk1 V c 0 t) r) e
    = Cert.Gcn.aggRow (rows (V c main_v0)) (rows (V c main_v1) 0) (rows (V c main_arg1) (rowOf t r)) e
  rw [h0, h1, h2]

/-- An index of the result array is in point t's block iff each coordinate is in the block's range on its axis. -/
theorem mem_blk (t : Fin cfg1.N) (i : S10000x128.Idx) :
    i ∈ ((cfg1.win 3).blk t).view.set ↔ ∀ a : Fin 2, win1_3.index t a * S200x128.size a ≤ (i a).val
      ∧ (i a).val < win1_3.index t a * S200x128.size a + S200x128.size a := by
  show i ∈ ((View.whole main_v2_0).slice (win1_3.rect t)).set ↔ _
  rw [View.set_slice_whole, Rect.mem_set_unit]
  exact Iff.rfl

/-- Every index of the result array is in some point's block: row i is in the block of point i / 200. -/
theorem cover (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 50 := N_1
  refine ⟨⟨(i 0).val / 200, by omega⟩, flush1_3 _, ?_⟩
  rw [mem_blk]
  obtain ⟨-, -, -, -, -, -, e0, e1⟩ := idx (⟨(i 0).val / 200, by omega⟩ : Fin cfg1.N)
  intro a
  match a with
  | ⟨0, _⟩ =>
    show win1_3.index ⟨(i 0).val / 200, _⟩ (0 : Fin 2) * 200 ≤ (i 0).val
      ∧ (i 0).val < win1_3.index ⟨(i 0).val / 200, _⟩ (0 : Fin 2) * 200 + 200
    rw [e0]; show (i 0).val / 200 * 200 ≤ (i 0).val ∧ (i 0).val < (i 0).val / 200 * 200 + 200; omega
  | ⟨1, _⟩ =>
    show win1_3.index ⟨(i 0).val / 200, _⟩ (1 : Fin 2) * 128 ≤ (i 1).val
      ∧ (i 1).val < win1_3.index ⟨(i 0).val / 200, _⟩ (1 : Fin 2) * 128 + 128
    rw [e1]; omega

/-- THE ARRAY after the region: `out` of the arrays the region finds. -/
theorem arr
    (hpay : ∀ (x0 : Vec Ideal S200x10000 .f32) (x1 : Vec Ideal S10000x128 .bf16) (x2 : Vec Ideal S1x128 .f32), rows (k1_pay2 (F := Ideal) x0 x1 x2) = Cert.Gcn.agg (rows x0) (rows x1) (rows x2 0))
    (c : Dev nD) :
    (dat1 V c).arrAt 3 cfg1.N = out (V c main_arg1) (V c main_v0) (V c main_v1) :=
  (dat1 V c).arrAt_eq_of_cover 3 _ (fun t _ => flushed_eq V hpay c t) cover

/-- The same, row by row. -/
theorem rows_arr
    (hpay : ∀ (x0 : Vec Ideal S200x10000 .f32) (x1 : Vec Ideal S10000x128 .bf16) (x2 : Vec Ideal S1x128 .f32), rows (k1_pay2 (F := Ideal) x0 x1 x2) = Cert.Gcn.agg (rows x0) (rows x1) (rows x2 0))
    (c : Dev nD) :
    rows ((dat1 V c).arrAt 3 cfg1.N)
      = Cert.Gcn.agg (rows (V c main_arg1)) (rows (V c main_v0)) (rows (V c main_v1) 0) := by
  rw [arr V hpay c]; rfl

/-! ## The second result window: the adjacency, copied block by block -/

theorem idx4 : ∀ t : Fin cfg1.N, win1_4.index t (0 : Fin 2) = t.val ∧ win1_4.index t (1 : Fin 2) = 0 :=
  (by decide +kernel : ∀ t : Fin grid1.N, _)

theorem emb_copy (t : Fin cfg1.N) (r : Fin 200) (k : Fin 10000) :
    ((cfg1.win 4).blk t).view.emb (ix2 r k) = ix2 (rowOf t r) k := by
  obtain ⟨e0, e1⟩ := idx4 t
  refine funext fun a => Fin.ext ?_
  match a with
  | ⟨0, _⟩ => show win1_4.index t (0 : Fin 2) * 200 + 1 * r.val = t.val * 200 + r.val; omega
  | ⟨1, _⟩ => show win1_4.index t (1 : Fin 2) * 10000 + 1 * k.val = k.val; omega

/-- What point t writes back to the copy: its adjacency block unchanged (a change of float format is the identity on
    the extended reals), which is block t of the adjacency. -/
theorem flushed_copy (c : Dev nD) (t : Fin cfg1.N) :
    (dat1 V c).flushed 4 t = ((cfg1.win 4).blk t).view.read (Elt Ideal) (V c main_arg1) := by
  show (cfg1.win 4).cut (grid1.coords t) ((dat1 V c).after 4 t) = _
  rw [after1_4]
  unfold out1_4
  rw [View.canon_unit_zero hz]
  simp only [View.ld_unit_zero (S := S200x10000) hz]
  funext y
  obtain ⟨r, k, rfl⟩ : ∃ (r : Fin 200) (k : Fin 10000), y = ix2 r k := ⟨y 0, y 1, eq_ix2 y⟩
  show iblk1 V c 0 t (ix2 r k) = V c main_arg1 (((cfg1.win 4).blk t).view.emb (ix2 r k))
  rw [emb_copy, blk_adj]

theorem mem_blk4 (t : Fin cfg1.N) (i : S10000x10000.Idx) :
    i ∈ ((cfg1.win 4).blk t).view.set ↔ ∀ a : Fin 2, win1_4.index t a * S200x10000.size a ≤ (i a).val
      ∧ (i a).val < win1_4.index t a * S200x10000.size a + S200x10000.size a := by
  show i ∈ ((View.whole main_v2_1).slice (win1_4.rect t)).set ↔ _
  rw [View.set_slice_whole, Rect.mem_set_unit]
  exact Iff.rfl

theorem cover4 (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  have hN : cfg1.N = 50 := N_1
  refine ⟨⟨(i 0).val / 200, by omega⟩, flush1_4 _, ?_⟩
  rw [mem_blk4]
  obtain ⟨e0, e1⟩ := idx4 (⟨(i 0).val / 200, by omega⟩ : Fin cfg1.N)
  intro a
  match a with
  | ⟨0, _⟩ =>
    show win1_4.index ⟨(i 0).val / 200, _⟩ (0 : Fin 2) * 200 ≤ (i 0).val
      ∧ (i 0).val < win1_4.index ⟨(i 0).val / 200, _⟩ (0 : Fin 2) * 200 + 200
    rw [e0]; show (i 0).val / 200 * 200 ≤ (i 0).val ∧ (i 0).val < (i 0).val / 200 * 200 + 200; omega
  | ⟨1, _⟩ =>
    show win1_4.index ⟨(i 0).val / 200, _⟩ (1 : Fin 2) * 10000 ≤ (i 1).val
      ∧ (i 1).val < win1_4.index ⟨(i 0).val / 200, _⟩ (1 : Fin 2) * 10000 + 10000
    rw [e1]; omega

/-- The copy ends holding the adjacency. -/
theorem arr_copy (c : Dev nD) : (dat1 V c).arrAt 4 cfg1.N = V c main_arg1 :=
  (dat1 V c).arrAt_eq_of_cover 4 _ (fun t _ => flushed_copy V c t) cover4

end Cert.KernelIdeal.Region1

end
-- ==== Proof.KernelRegion2.lean ====
/-
  Region 2 of the idealized kernel: what its one write-back leaves in the result array.

  The region has a single grid point, and every window is its whole array: the [10000, 128] activations of the first layer, the
  [1, 128] scale and shift rows and the [128, 128] weights come in whole, and the body's one store is the whole
  [10000, 128] result. The stored value is the batch-normalised, rectified activations times the weights, so the
  result array is that function of the arrays the region finds.
-/
import proofs.«107854_g28295244546728_cont_sun_m_959_2_alg».proof.Proof.Gen.KernelIdeal.Frame
import proofs.«107854_g28295244546728_cont_sun_m_959_2_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The region has one grid point and every window is its whole array: every block index is 0. -/
theorem idx : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Window 0's block is the whole array. -/
theorem blk_0 (c : Dev nD) (t : Fin cfg2.N) (r : Fin 10000) (k : Fin 128) :
    iblk2 V c 0 t (ix2 r k) = V c main_v2_0 (ix2 r k) := by
  obtain ⟨e0, e1, -⟩ := idx t
  show V c main_v2_0 (((cfg2.win 0).blk t).view.emb (ix2 r k)) = _
  refine congrArg (V c main_v2_0) (funext fun a => Fin.ext ?_)
  match a with
  | ⟨0, _⟩ => show win2_0.index t (0 : Fin 2) * 10000 + 1 * r.val = r.val; omega
  | ⟨1, _⟩ => show win2_0.index t (1 : Fin 2) * 128 + 1 * k.val = k.val; omega

theorem rows_blk_0 (c : Dev nD) (t : Fin cfg2.N) : rows (iblk2 V c 0 t) = rows (V c main_v2_0) :=
  funext fun r => funext fun k => blk_0 V c t r k

/-- Window 1's block is the whole array. -/
theorem blk_1 (c : Dev nD) (t : Fin cfg2.N) (r : Fin 1) (k : Fin 128) :
    iblk2 V c 1 t (ix2 r k) = V c main_v3 (ix2 r k) := by
  obtain ⟨-, -, e0, e1, -⟩ := idx t
  show V c main_v3 (((cfg2.win 1).blk t).view.emb (ix2 r k)) = _
  refine congrArg (V c main_v3) (funext fun a => Fin.ext ?_)
  match a with
  | ⟨0, _⟩ => show win2_1.index t (0 : Fin 2) * 1 + 1 * r.val = r.val; omega
  | ⟨1, _⟩ => show win2_1.index t (1 : Fin 2) * 128 + 1 * k.val = k.val; omega

theorem rows_blk_1 (c : Dev nD) (t : Fin cfg2.N) : rows (iblk2 V c 1 t) = rows (V c main_v3) :=
  funext fun r => funext fun k => blk_1 V c t r k

/-- Window 2's block is the whole array. -/
theorem blk_2 (c : Dev nD) (t : Fin cfg2.N) (r : Fin 1) (k : Fin 128) :
    iblk2 V c 2 t (ix2 r k) = V c main_v4 (ix2 r k) := by
  obtain ⟨-, -, -, -, e0, e1, -⟩ := idx t
  show V c main_v4 (((cfg2.win 2).blk t).view.emb (ix2 r k)) = _
  refine congrArg (V c main_v4) (funext fun a => Fin.ext ?_)
  match a with
  | ⟨0, _⟩ => show win2_2.index t (0 : Fin 2) * 1 + 1 * r.val = r.val; omega
  | ⟨1, _⟩ => show win2_2.index t (1 : Fin 2) * 128 + 1 * k.val = k.val; omega

theorem rows_blk_2 (c : Dev nD) (t : Fin cfg2.N) : rows (iblk2 V c 2 t) = rows (V c main_v4) :=
  funext fun r => funext fun k => blk_2 V c t r k

/-- Window 3's block is the whole array. -/
theorem blk_3 (c : Dev nD) (t : Fin cfg2.N) (r : Fin 128) (k : Fin 128) :
    iblk2 V c 3 t (ix2 r k) = V c main_arg6 (ix2 r k) := by
  obtain ⟨-, -, -, -, -, -, e0, e1, -⟩ := idx t
  show V c main_arg6 (((cfg2.win 3).blk t).view.emb (ix2 r k)) = _
  refine congrArg (V c main_arg6) (funext fun a => Fin.ext ?_)
  match a with
  | ⟨0, _⟩ => show win2_3.index t (0 : Fin 2) * 128 + 1 * r.val = r.val; omega
  | ⟨1, _⟩ => show win2_3.index t (1 : Fin 2) * 128 + 1 * k.val = k.val; omega

theorem rows_blk_3 (c : Dev nD) (t : Fin cfg2.N) : rows (iblk2 V c 3 t) = rows (V c main_arg6) :=
  funext fun r => funext fun k => blk_3 V c t r k

/-- The result block is the whole result array. -/
theorem emb_out (t : Fin cfg2.N) (r : Fin 10000) (e : Fin 128) :
    ((cfg2.win 4).blk t).view.emb (ix2 r e) = ix2 r e := by
  obtain ⟨-, -, -, -, -, -, -, -, e0, e1⟩ := idx t
  refine funext fun a => Fin.ext ?_
  match a with
  | ⟨0, _⟩ => show win2_4.index t (0 : Fin 2) * 10000 + 1 * r.val = r.val; omega
  | ⟨1, _⟩ => show win2_4.index t (1 : Fin 2) * 128 + 1 * e.val = e.val; omega

/-- The result array as one function of the arrays the region finds. -/
def out (a0 : S10000x128.Idx → EReal) (a1 : S1x128.Idx → EReal) (a2 : S1x128.Idx → EReal) (a3 : S128x128.Idx → EReal) : S10000x128.Idx → EReal :=
  fun i => Cert.Gcn.mm (Cert.Gcn.bnRelu (rows a0) ((rows a1) 0) ((rows a2) 0)) (rows a3) (i 0) (i 1)

/-- What the one point writes back: the body's stored value of the whole input arrays' blocks. -/
theorem flushed_pay (c : Dev nD) (t : Fin cfg2.N) :
    (dat2 V c).flushed 4 t = k2_pay1 (F := Ideal) (iblk2 V c 0 t) (iblk2 V c 1 t) (iblk2 V c 2 t) (iblk2 V c 3 t) := by
  show (cfg2.win 4).cut (grid2.coords t) ((dat2 V c).after 4 t) = _
  rw [after2_4]
  unfold out2_4
  rw [View.canon_unit_zero hz]
  simp only [View.ld_unit_zero (S := S10000x128) hz, View.ld_unit_zero (S := S1x128) hz, View.ld_unit_zero (S := S128x128) hz]
  rfl

/-- WHAT THE POINT WRITES BACK is the block of `out` of the arrays the region finds, given the body's stored value
    read row by row (`hpay`). -/
theorem flushed_eq (hpay : ∀ (x0 : Vec Ideal S10000x128 .f32) (x1 : Vec Ideal S1x128 .f32) (x2 : Vec Ideal S1x128 .f32) (x3 : Vec Ideal S128x128 .f32), rows (k2_pay1 (F := Ideal) x0 x1 x2 x3) = Cert.Gcn.mm (Cert.Gcn.bnRelu (rows x0) ((rows x1) 0) ((rows x2) 0)) (rows x3)) (c : Dev nD) (t : Fin cfg2.N) :
    (dat2 V c).flushed 4 t
      = ((cfg2.win 4).blk t).view.read (Elt Ideal) (out (V c main_v2_0) (V c main_v3) (V c main_v4) (V c main_arg6)) := by
  rw [flushed_pay]
  funext y
  obtain ⟨r, e, rfl⟩ : ∃ (r : Fin 10000) (e : Fin 128), y = ix2 r e := ⟨y 0, y 1, eq_ix2 y⟩
  show rows (k2_pay1 (F := Ideal) (iblk2 V c 0 t) (iblk2 V c 1 t) (iblk2 V c 2 t) (iblk2 V c 3 t)) r e
    = out (V c main_v2_0) (V c main_v3) (V c main_v4) (V c main_arg6) (((cfg2.win 4).blk t).view.emb (ix2 r e))
  rw [emb_out, hpay]
  show Cert.Gcn.mm (Cert.Gcn.bnRelu (rows (iblk2 V c 0 t)) ((rows (iblk2 V c 1 t)) 0) ((rows (iblk2 V c 2 t)) 0)) (rows (iblk2 V c 3 t)) r e = Cert.Gcn.mm (Cert.Gcn.bnRelu (rows (V c main_v2_0)) ((rows (V c main_v3)) 0) ((rows (V c main_v4)) 0)) (rows (V c main_arg6)) r e
  rw [rows_blk_0 V c t, rows_blk_1 V c t, rows_blk_2 V c t, rows_blk_3 V c t]

theorem mem_blk (t : Fin cfg2.N) (i : S10000x128.Idx) :
    i ∈ ((cfg2.win 4).blk t).view.set ↔ ∀ a : Fin 2, win2_4.index t a * S10000x128.size a ≤ (i a).val
      ∧ (i a).val < win2_4.index t a * S10000x128.size a + S10000x128.size a := by
  show i ∈ ((View.whole main_v5).slice (win2_4.rect t)).set ↔ _
  rw [View.set_slice_whole, Rect.mem_set_unit]
  exact Iff.rfl

/-- Every index of the result array is in the one point's block. -/
theorem cover (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  refine ⟨t2_0, flush2_4 _, ?_⟩
  rw [mem_blk]
  obtain ⟨-, -, -, -, -, -, -, -, e0, e1⟩ := idx t2_0
  intro a
  match a with
  | ⟨0, _⟩ =>
    show win2_4.index t2_0 (0 : Fin 2) * 10000 ≤ (i 0).val
      ∧ (i 0).val < win2_4.index t2_0 (0 : Fin 2) * 10000 + 10000
    rw [e0]; omega
  | ⟨1, _⟩ =>
    show win2_4.index t2_0 (1 : Fin 2) * 128 ≤ (i 1).val
      ∧ (i 1).val < win2_4.index t2_0 (1 : Fin 2) * 128 + 128
    rw [e1]; omega

/-- THE ARRAY after the region: `out` of the arrays the region finds. -/
theorem arr (hpay : ∀ (x0 : Vec Ideal S10000x128 .f32) (x1 : Vec Ideal S1x128 .f32) (x2 : Vec Ideal S1x128 .f32) (x3 : Vec Ideal S128x128 .f32), rows (k2_pay1 (F := Ideal) x0 x1 x2 x3) = Cert.Gcn.mm (Cert.Gcn.bnRelu (rows x0) ((rows x1) 0) ((rows x2) 0)) (rows x3)) (c : Dev nD) :
    (dat2 V c).arrAt 4 cfg2.N = out (V c main_v2_0) (V c main_v3) (V c main_v4) (V c main_arg6) :=
  (dat2 V c).arrAt_eq_of_cover 4 _ (fun t _ => flushed_eq V hpay c t) cover

/-- The same, row by row. -/
theorem rows_arr (hpay : ∀ (x0 : Vec Ideal S10000x128 .f32) (x1 : Vec Ideal S1x128 .f32) (x2 : Vec Ideal S1x128 .f32) (x3 : Vec Ideal S128x128 .f32), rows (k2_pay1 (F := Ideal) x0 x1 x2 x3) = Cert.Gcn.mm (Cert.Gcn.bnRelu (rows x0) ((rows x1) 0) ((rows x2) 0)) (rows x3)) (c : Dev nD) :
    rows ((dat2 V c).arrAt 4 cfg2.N) = Cert.Gcn.mm (Cert.Gcn.bnRelu (rows (V c main_v2_0)) ((rows (V c main_v3)) 0) ((rows (V c main_v4)) 0)) (rows (V c main_arg6)) := by
  rw [arr V hpay c]; rfl

end Cert.KernelIdeal.Region2

end
-- ==== Proof.KernelRegion3.lean ====
/-
  Region 3 of the idealized kernel: what its write-backs leave in the result window's array.

  The grid has 50 points. At point t the body is handed rows 200·t … 200·t + 199 of the adjacency (a [200, 10000] block),
  the whole feature matrix and the whole bias row, and stores a [200, 128] block that is written back to rows
  200·t … 200·t + 199 of the result. The stored block is the block's rows times the feature matrix plus the bias row. Row 200·t + r of the result is that function of row 200·t + r of the
  adjacency, which is row r of the block; the 50 blocks tile the 10000 rows, so the whole array is the function of the
  whole adjacency, row by row.
-/
import proofs.«107854_g28295244546728_cont_sun_m_959_2_alg».proof.Proof.Gen.KernelIdeal.Frame
import proofs.«107854_g28295244546728_cont_sun_m_959_2_alg».proof.Proof.Spec
import Idealize.ShloMosaic.Lib.Pipeline.Value
import Idealize.ShloMosaic.Lib.ValueIdx
import proofs.«107854_g28295244546728_cont_sun_m_959_2_alg».proof.Proof.SpecRows

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency's and the result's block row is the point, every other block index 0. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row of the array that row r of point t's block is. -/
def rowOf (t : Fin cfg3.N) (r : Fin 200) : Fin 10000 :=
  ⟨t.val * 200 + r.val, by have := t.isLt; have : cfg3.N = 50 := N_3; omega⟩

/-- Row r of the adjacency block at point t is row 200·t + r of the adjacency. -/
theorem blk_adj (c : Dev nD) (t : Fin cfg3.N) (r : Fin 200) (k : Fin 10000) :
    iblk3 V c 0 t (ix2 r k) = V c main_v2_1 (ix2 (rowOf t r) k) := by
  obtain ⟨e0, e1, -⟩ := idx t
  show V c main_v2_1 (((cfg3.win 0).blk t).view.emb (ix2 r k)) = _
  refine congrArg (V c main_v2_1) (funext fun a => Fin.ext ?_)
  match a with
  | ⟨0, _⟩ => show win3_0.index t (0 : Fin 2) * 200 + 1 * r.val = t.val * 200 + r.val; omega
  | ⟨1, _⟩ => show win3_0.index t (1 : Fin 2) * 10000 + 1 * k.val = k.val; omega

/-- The feature matrix's block is the whole matrix at every point. -/
theorem blk_p (c : Dev nD) (t : Fin cfg3.N) (k : Fin 10000) (e : Fin 128) :
    iblk3 V c 1 t (ix2 k e) = V c main_v5 (ix2 k e) := by
  obtain ⟨-, -, e0, e1, -⟩ := idx t
  show V c main_v5 (((cfg3.win 1).blk t).view.emb (ix2 k e)) = _
  refine congrArg (V c main_v5) (funext fun a => Fin.ext ?_)
  match a with
  | ⟨0, _⟩ => show win3_1.index t (0 : Fin 2) * 10000 + 1 * k.val = k.val; omega
  | ⟨1, _⟩ => show win3_1.index t (1 : Fin 2) * 128 + 1 * e.val = e.val; omega

/-- The bias row's block is the whole row at every point. -/
theorem blk_b (c : Dev nD) (t : Fin cfg3.N) (e : Fin 128) :
    iblk3 V c 2 t (ix2 (0 : Fin 1) e) = V c main_v6 (ix2 (0 : Fin 1) e) := by
  obtain ⟨-, -, -, -, e0, e1, -⟩ := idx t
  show V c main_v6 (((cfg3.win 2).blk t).view.emb (ix2 (0 : Fin 1) e)) = _
  refine congrArg (V c main_v6) (funext fun a => Fin.ext ?_)
  match a with
  | ⟨0, _⟩ => show win3_2.index t (0 : Fin 2) * 1 + 1 * 0 = 0; omega
  | ⟨1, _⟩ => show win3_2.index t (1 : Fin 2) * 128 + 1 * e.val = e.val; omega

/-- Where row r, column e of point t's result block sits in the result array. -/
theorem emb_out (t : Fin cfg3.N) (r : Fin 200) (e : Fin 128) :
    ((cfg3.win 3).blk t).view.emb (ix2 r e) = ix2 (rowOf t r) e := by
  obtain ⟨-, -, -, -, -, -, e0, e1⟩ := idx t
  refine funext fun a => Fin.ext ?_
  match a with
  | ⟨0, _⟩ => show win3_3.index t (0 : Fin 2) * 200 + 1 * r.val = t.val * 200 + r.val; omega
  | ⟨1, _⟩ => show win3_3.index t (1 : Fin 2) * 128 + 1 * e.val = e.val; omega

/-- The result array as one function of the arrays the region finds: entry (i, e) is the specification's value at
    row i of the adjacency. -/
def out (A : S10000x10000.Idx → EReal) (P : S10000x128.Idx → EReal) (b : S1x128.Idx → EReal) : S10000x128.Idx → EReal :=
  fun i => Cert.Gcn.agg (rows A) (rows P) (rows b 0) (i 0) (i 1)

/-- What point t writes back: the body's stored value of the point's input blocks. -/
theorem flushed_pay (c : Dev nD) (t : Fin cfg3.N) :
    (dat3 V c).flushed 3 t = k3_pay1 (F := Ideal) (iblk3 V c 0 t) (iblk3 V c 1 t) (iblk3 V c 2 t) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x128) hz, View.ld_unit_zero (S := S1x128) hz]
  rfl

/-- The rows of the adjacency block at point t are rows 200·t … of the adjacency; the other two blocks are whole. -/
theorem rows_blocks (c : Dev nD) (t : Fin cfg3.N) (r : Fin 200) :
    rows (iblk3 V c 0 t) r = rows (V c main_v2_1) (rowOf t r)
      ∧ rows (iblk3 V c 1 t) = rows (V c main_v5) ∧ rows (iblk3 V c 2 t) 0 = rows (V c main_v6) 0 :=
  ⟨funext fun k => blk_adj V c t r k, funext fun k => funext fun e => blk_p V c t k e, funext fun e => blk_b V c t e⟩

/-- WHAT POINT t WRITES BACK is block t of `out` of the arrays the region finds, given the body's stored value read row
    by row (`hpay`): row r of the block is the row function of row r of the adjacency block, which is row 200·t + r
    of the adjacency. -/
theorem flushed_eq
    (hpay : ∀ (x0 : Vec Ideal S200x10000 .bf16) (x1 : Vec Ideal S10000x128 .bf16) (x2 : Vec Ideal S1x128 .f32), rows (k3_pay1 (F := Ideal) x0 x1 x2) = Cert.Gcn.agg (rows x0) (rows x1) (rows x2 0))
    (c : Dev nD) (t : Fin cfg3.N) :
    (dat3 V c).flushed 3 t
      = ((cfg3.win 3).blk t).view.read (Elt Ideal) (out (V c main_v2_1) (V c main_v5) (V c main_v6)) := by
  rw [flushed_pay]
  funext y
  obtain ⟨r, e, rfl⟩ : ∃ (r : Fin 200) (e : Fin 128), y = ix2 r e := ⟨y 0, y 1, eq_ix2 y⟩
  show rows (k3_pay1 (F := Ideal) (iblk3 V c 0 t) (iblk3 V c 1 t) (iblk3 V c 2 t)) r e
    = out (V c main_v2_1) (V c main_v5) (V c main_v6) (((cfg3.win 3).blk t).view.emb (ix2 r e))
  rw [emb_out, hpay]
  obtain ⟨h0, h1, h2⟩ := rows_blocks V c t r
  show Cert.Gcn.aggRow (rows (iblk3 V c 1 t)) (rows (iblk3 V c 2 t) 0) (rows (iblk3 V c 0 t) r) e
    = Cert.Gcn.aggRow (rows (V c main_v5)) (rows (V c main_v6) 0) (rows (V c main_v2_1) (rowOf t r)) e
  rw [h0, h1, h2]

/-- An index of the result array is in point t's block iff each coordinate is in the block's range on its axis. -/
theorem mem_blk (t : Fin cfg3.N) (i : S10000x128.Idx) :
    i ∈ ((cfg3.win 3).blk t).view.set ↔ ∀ a : Fin 2, win3_3.index t a * S200x128.size a ≤ (i a).val
      ∧ (i a).val < win3_3.index t a * S200x128.size a + S200x128.size a := by
  show i ∈ ((View.whole main_v7).slice (win3_3.rect t)).set ↔ _
  rw [View.set_slice_whole, Rect.mem_set_unit]
  exact Iff.rfl

/-- Every index of the result array is in some point's block: row i is in the block of point i / 200. -/
theorem cover (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hN : cfg3.N = 50 := N_3
  refine ⟨⟨(i 0).val / 200, by omega⟩, flush3_3 _, ?_⟩
  rw [mem_blk]
  obtain ⟨-, -, -, -, -, -, e0, e1⟩ := idx (⟨(i 0).val / 200, by omega⟩ : Fin cfg3.N)
  intro a
  match a with
  | ⟨0, _⟩ =>
    show win3_3.index ⟨(i 0).val / 200, _⟩ (0 : Fin 2) * 200 ≤ (i 0).val
      ∧ (i 0).val < win3_3.index ⟨(i 0).val / 200, _⟩ (0 : Fin 2) * 200 + 200
    rw [e0]; show (i 0).val / 200 * 200 ≤ (i 0).val ∧ (i 0).val < (i 0).val / 200 * 200 + 200; omega
  | ⟨1, _⟩ =>
    show win3_3.index ⟨(i 0).val / 200, _⟩ (1 : Fin 2) * 128 ≤ (i 1).val
      ∧ (i 1).val < win3_3.index ⟨(i 0).val / 200, _⟩ (1 : Fin 2) * 128 + 128
    rw [e1]; omega

/-- THE ARRAY after the region: `out` of the arrays the region finds. -/
theorem arr
    (hpay : ∀ (x0 : Vec Ideal S200x10000 .bf16) (x1 : Vec Ideal S10000x128 .bf16) (x2 : Vec Ideal S1x128 .f32), rows (k3_pay1 (F := Ideal) x0 x1 x2) = Cert.Gcn.agg (rows x0) (rows x1) (rows x2 0))
    (c : Dev nD) :
    (dat3 V c).arrAt 3 cfg3.N = out (V c main_v2_1) (V c main_v5) (V c main_v6) :=
  (dat3 V c).arrAt_eq_of_cover 3 _ (fun t _ => flushed_eq V hpay c t) cover

/-- The same, row by row. -/
theorem rows_arr
    (hpay : ∀ (x0 : Vec Ideal S200x10000 .bf16) (x1 : Vec Ideal S10000x128 .bf16) (x2 : Vec Ideal S1x128 .f32), rows (k3_pay1 (F := Ideal) x0 x1 x2) = Cert.Gcn.agg (rows x0) (rows x1) (rows x2 0))
    (c : Dev nD) :
    rows ((dat3 V c).arrAt 3 cfg3.N)
      = Cert.Gcn.agg (rows (V c main_v2_1)) (rows (V c main_v5)) (rows (V c main_v6) 0) := by
  rw [arr V hpay c]; rfl

end Cert.KernelIdeal.Region3

end
-- ==== Proof.KernelRegion4.lean ====
/-
  Region 4 of the idealized kernel: what its one write-back leaves in the result array.

  The region has a single grid point, and every window is its whole array: the [10000, 128] activations of the second layer, the
  [1, 128] scale and shift rows and the [128, 40] weights come in whole, and the body's one store is the whole
  [10000, 40] result. The stored value is the batch-normalised, rectified activations times the weights, so the
  result array is that function of the arrays the region finds.
-/
import proofs.«107854_g28295244546728_cont_sun_m_959_2_alg».proof.Proof.Gen.KernelIdeal.Frame
import proofs.«107854_g28295244546728_cont_sun_m_959_2_alg».proof.Proof.Spec
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The region has one grid point and every window is its whole array: every block index is 0. -/
theorem idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Window 0's block is the whole array. -/
theorem blk_0 (c : Dev nD) (t : Fin cfg4.N) (r : Fin 10000) (k : Fin 128) :
    iblk4 V c 0 t (ix2 r k) = V c main_v7 (ix2 r k) := by
  obtain ⟨e0, e1, -⟩ := idx t
  show V c main_v7 (((cfg4.win 0).blk t).view.emb (ix2 r k)) = _
  refine congrArg (V c main_v7) (funext fun a => Fin.ext ?_)
  match a with
  | ⟨0, _⟩ => show win4_0.index t (0 : Fin 2) * 10000 + 1 * r.val = r.val; omega
  | ⟨1, _⟩ => show win4_0.index t (1 : Fin 2) * 128 + 1 * k.val = k.val; omega

theorem rows_blk_0 (c : Dev nD) (t : Fin cfg4.N) : rows (iblk4 V c 0 t) = rows (V c main_v7) :=
  funext fun r => funext fun k => blk_0 V c t r k

/-- Window 1's block is the whole array. -/
theorem blk_1 (c : Dev nD) (t : Fin cfg4.N) (r : Fin 1) (k : Fin 128) :
    iblk4 V c 1 t (ix2 r k) = V c main_v8 (ix2 r k) := by
  obtain ⟨-, -, e0, e1, -⟩ := idx t
  show V c main_v8 (((cfg4.win 1).blk t).view.emb (ix2 r k)) = _
  refine congrArg (V c main_v8) (funext fun a => Fin.ext ?_)
  match a with
  | ⟨0, _⟩ => show win4_1.index t (0 : Fin 2) * 1 + 1 * r.val = r.val; omega
  | ⟨1, _⟩ => show win4_1.index t (1 : Fin 2) * 128 + 1 * k.val = k.val; omega

theorem rows_blk_1 (c : Dev nD) (t : Fin cfg4.N) : rows (iblk4 V c 1 t) = rows (V c main_v8) :=
  funext fun r => funext fun k => blk_1 V c t r k

/-- Window 2's block is the whole array. -/
theorem blk_2 (c : Dev nD) (t : Fin cfg4.N) (r : Fin 1) (k : Fin 128) :
    iblk4 V c 2 t (ix2 r k) = V c main_v9 (ix2 r k) := by
  obtain ⟨-, -, -, -, e0, e1, -⟩ := idx t
  show V c main_v9 (((cfg4.win 2).blk t).view.emb (ix2 r k)) = _
  refine congrArg (V c main_v9) (funext fun a => Fin.ext ?_)
  match a with
  | ⟨0, _⟩ => show win4_2.index t (0 : Fin 2) * 1 + 1 * r.val = r.val; omega
  | ⟨1, _⟩ => show win4_2.index t (1 : Fin 2) * 128 + 1 * k.val = k.val; omega

theorem rows_blk_2 (c : Dev nD) (t : Fin cfg4.N) : rows (iblk4 V c 2 t) = rows (V c main_v9) :=
  funext fun r => funext fun k => blk_2 V c t r k

/-- Window 3's block is the whole array. -/
theorem blk_3 (c : Dev nD) (t : Fin cfg4.N) (r : Fin 128) (k : Fin 40) :
    iblk4 V c 3 t (ix2 r k) = V c main_arg10 (ix2 r k) := by
  obtain ⟨-, -, -, -, -, -, e0, e1, -⟩ := idx t
  show V c main_arg10 (((cfg4.win 3).blk t).view.emb (ix2 r k)) = _
  refine congrArg (V c main_arg10) (funext fun a => Fin.ext ?_)
  match a with
  | ⟨0, _⟩ => show win4_3.index t (0 : Fin 2) * 128 + 1 * r.val = r.val; omega
  | ⟨1, _⟩ => show win4_3.index t (1 : Fin 2) * 40 + 1 * k.val = k.val; omega

theorem rows_blk_3 (c : Dev nD) (t : Fin cfg4.N) : rows (iblk4 V c 3 t) = rows (V c main_arg10) :=
  funext fun r => funext fun k => blk_3 V c t r k

/-- The result block is the whole result array. -/
theorem emb_out (t : Fin cfg4.N) (r : Fin 10000) (e : Fin 40) :
    ((cfg4.win 4).blk t).view.emb (ix2 r e) = ix2 r e := by
  obtain ⟨-, -, -, -, -, -, -, -, e0, e1⟩ := idx t
  refine funext fun a => Fin.ext ?_
  match a with
  | ⟨0, _⟩ => show win4_4.index t (0 : Fin 2) * 10000 + 1 * r.val = r.val; omega
  | ⟨1, _⟩ => show win4_4.index t (1 : Fin 2) * 40 + 1 * e.val = e.val; omega

/-- The result array as one function of the arrays the region finds. -/
def out (a0 : S10000x128.Idx → EReal) (a1 : S1x128.Idx → EReal) (a2 : S1x128.Idx → EReal) (a3 : S128x40.Idx → EReal) : S10000x40.Idx → EReal :=
  fun i => Cert.Gcn.mm (Cert.Gcn.bnRelu (rows a0) ((rows a1) 0) ((rows a2) 0)) (rows a3) (i 0) (i 1)

/-- What the one point writes back: the body's stored value of the whole input arrays' blocks. -/
theorem flushed_pay (c : Dev nD) (t : Fin cfg4.N) :
    (dat4 V c).flushed 4 t = k4_pay1 (F := Ideal) (iblk4 V c 0 t) (iblk4 V c 1 t) (iblk4 V c 2 t) (iblk4 V c 3 t) := by
  show (cfg4.win 4).cut (grid4.coords t) ((dat4 V c).after 4 t) = _
  rw [after4_4]
  unfold out4_4
  rw [View.canon_unit_zero hz]
  simp only [View.ld_unit_zero (S := S10000x128) hz, View.ld_unit_zero (S := S1x128) hz, View.ld_unit_zero (S := S128x40) hz]
  rfl

/-- WHAT THE POINT WRITES BACK is the block of `out` of the arrays the region finds, given the body's stored value
    read row by row (`hpay`). -/
theorem flushed_eq (hpay : ∀ (x0 : Vec Ideal S10000x128 .f32) (x1 : Vec Ideal S1x128 .f32) (x2 : Vec Ideal S1x128 .f32) (x3 : Vec Ideal S128x40 .f32), rows (k4_pay1 (F := Ideal) x0 x1 x2 x3) = Cert.Gcn.mm (Cert.Gcn.bnRelu (rows x0) ((rows x1) 0) ((rows x2) 0)) (rows x3)) (c : Dev nD) (t : Fin cfg4.N) :
    (dat4 V c).flushed 4 t
      = ((cfg4.win 4).blk t).view.read (Elt Ideal) (out (V c main_v7) (V c main_v8) (V c main_v9) (V c main_arg10)) := by
  rw [flushed_pay]
  funext y
  obtain ⟨r, e, rfl⟩ : ∃ (r : Fin 10000) (e : Fin 40), y = ix2 r e := ⟨y 0, y 1, eq_ix2 y⟩
  show rows (k4_pay1 (F := Ideal) (iblk4 V c 0 t) (iblk4 V c 1 t) (iblk4 V c 2 t) (iblk4 V c 3 t)) r e
    = out (V c main_v7) (V c main_v8) (V c main_v9) (V c main_arg10) (((cfg4.win 4).blk t).view.emb (ix2 r e))
  rw [emb_out, hpay]
  show Cert.Gcn.mm (Cert.Gcn.bnRelu (rows (iblk4 V c 0 t)) ((rows (iblk4 V c 1 t)) 0) ((rows (iblk4 V c 2 t)) 0)) (rows (iblk4 V c 3 t)) r e = Cert.Gcn.mm (Cert.Gcn.bnRelu (rows (V c main_v7)) ((rows (V c main_v8)) 0) ((rows (V c main_v9)) 0)) (rows (V c main_arg10)) r e
  rw [rows_blk_0 V c t, rows_blk_1 V c t, rows_blk_2 V c t, rows_blk_3 V c t]

theorem mem_blk (t : Fin cfg4.N) (i : S10000x40.Idx) :
    i ∈ ((cfg4.win 4).blk t).view.set ↔ ∀ a : Fin 2, win4_4.index t a * S10000x40.size a ≤ (i a).val
      ∧ (i a).val < win4_4.index t a * S10000x40.size a + S10000x40.size a := by
  show i ∈ ((View.whole main_v10).slice (win4_4.rect t)).set ↔ _
  rw [View.set_slice_whole, Rect.mem_set_unit]
  exact Iff.rfl

/-- Every index of the result array is in the one point's block. -/
theorem cover (i : S10000x40.Idx) :
    ∃ t : Fin cfg4.N, (cfg4.win 4).flush t = true ∧ i ∈ ((cfg4.win 4).blk t).view.set := by
  have hi0 : (i 0).val < 10000 := (i 0).isLt
  have hi1 : (i 1).val < 40 := (i 1).isLt
  refine ⟨t4_0, flush4_4 _, ?_⟩
  rw [mem_blk]
  obtain ⟨-, -, -, -, -, -, -, -, e0, e1⟩ := idx t4_0
  intro a
  match a with
  | ⟨0, _⟩ =>
    show win4_4.index t4_0 (0 : Fin 2) * 10000 ≤ (i 0).val
      ∧ (i 0).val < win4_4.index t4_0 (0 : Fin 2) * 10000 + 10000
    rw [e0]; omega
  | ⟨1, _⟩ =>
    show win4_4.index t4_0 (1 : Fin 2) * 40 ≤ (i 1).val
      ∧ (i 1).val < win4_4.index t4_0 (1 : Fin 2) * 40 + 40
    rw [e1]; omega

/-- THE ARRAY after the region: `out` of the arrays the region finds. -/
theorem arr (hpay : ∀ (x0 : Vec Ideal S10000x128 .f32) (x1 : Vec Ideal S1x128 .f32) (x2 : Vec Ideal S1x128 .f32) (x3 : Vec Ideal S128x40 .f32), rows (k4_pay1 (F := Ideal) x0 x1 x2 x3) = Cert.Gcn.mm (Cert.Gcn.bnRelu (rows x0) ((rows x1) 0) ((rows x2) 0)) (rows x3)) (c : Dev nD) :
    (dat4 V c).arrAt 4 cfg4.N = out (V c main_v7) (V c main_v8) (V c main_v9) (V c main_arg10) :=
  (dat4 V c).arrAt_eq_of_cover 4 _ (fun t _ => flushed_eq V hpay c t) cover

/-- The same, row by row. -/
theorem rows_arr (hpay : ∀ (x0 : Vec Ideal S10000x128 .f32) (x1 : Vec Ideal S1x128 .f32) (x2 : Vec Ideal S1x128 .f32) (x3 : Vec Ideal S128x40 .f32), rows (k4_pay1 (F := Ideal) x0 x1 x2 x3) = Cert.Gcn.mm (Cert.Gcn.bnRelu (rows x0) ((rows x1) 0) ((rows x2) 0)) (rows x3)) (c : Dev nD) :
    rows ((dat4 V c).arrAt 4 cfg4.N) = Cert.Gcn.mm (Cert.Gcn.bnRelu (rows (V c main_v7)) ((rows (V c main_v8)) 0) ((rows (V c main_v9)) 0)) (rows (V c main_arg10)) := by
  rw [arr V hpay c]; rfl

end Cert.KernelIdeal.Region4

end
-- ==== Proof.KernelRegion5.lean ====
/-
  Region 5 of the idealized kernel: what its write-backs leave in the result window's array.

  The grid has 50 points. At point t the body is handed rows 200·t … 200·t + 199 of the adjacency (a [200, 10000] block),
  the whole feature matrix and the whole bias row, and stores a [200, 40] block that is written back to rows
  200·t … 200·t + 199 of the result. The stored block is the log-softmax of every row of (the block's rows times the feature matrix plus the bias row). Row 200·t + r of the result is that function of row 200·t + r of the
  adjacency, which is row r of the block; the 50 blocks tile the 10000 rows, so the whole array is the function of the
  whole adjacency, row by row.
-/
import proofs.«107854_g28295244546728_cont_sun_m_959_2_alg».proof.Proof.Gen.KernelIdeal.Frame
import proofs.«107854_g28295244546728_cont_sun_m_959_2_alg».proof.Proof.Spec
import Idealize.ShloMosaic.Lib.Pipeline.Value
import Idealize.ShloMosaic.Lib.ValueIdx
import proofs.«107854_g28295244546728_cont_sun_m_959_2_alg».proof.Proof.SpecRows

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRows

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency's and the result's block row is the point, every other block index 0. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The row of the array that row r of point t's block is. -/
def rowOf (t : Fin cfg5.N) (r : Fin 200) : Fin 10000 :=
  ⟨t.val * 200 + r.val, by have := t.isLt; have : cfg5.N = 50 := N_5; omega⟩

/-- Row r of the adjacency block at point t is row 200·t + r of the adjacency. -/
theorem blk_adj (c : Dev nD) (t : Fin cfg5.N) (r : Fin 200) (k : Fin 10000) :
    iblk5 V c 0 t (ix2 r k) = V c main_v2_1 (ix2 (rowOf t r) k) := by
  obtain ⟨e0, e1, -⟩ := idx t
  show V c main_v2_1 (((cfg5.win 0).blk t).view.emb (ix2 r k)) = _
  refine congrArg (V c main_v2_1) (funext fun a => Fin.ext ?_)
  match a with
  | ⟨0, _⟩ => show win5_0.index t (0 : Fin 2) * 200 + 1 * r.val = t.val * 200 + r.val; omega
  | ⟨1, _⟩ => show win5_0.index t (1 : Fin 2) * 10000 + 1 * k.val = k.val; omega

/-- The feature matrix's block is the whole matrix at every point. -/
theorem blk_p (c : Dev nD) (t : Fin cfg5.N) (k : Fin 10000) (e : Fin 40) :
    iblk5 V c 1 t (ix2 k e) = V c main_v10 (ix2 k e) := by
  obtain ⟨-, -, e0, e1, -⟩ := idx t
  show V c main_v10 (((cfg5.win 1).blk t).view.emb (ix2 k e)) = _
  refine congrArg (V c main_v10) (funext fun a => Fin.ext ?_)
  match a with
  | ⟨0, _⟩ => show win5_1.index t (0 : Fin 2) * 10000 + 1 * k.val = k.val; omega
  | ⟨1, _⟩ => show win5_1.index t (1 : Fin 2) * 40 + 1 * e.val = e.val; omega

/-- The bias row's block is the whole row at every point. -/
theorem blk_b (c : Dev nD) (t : Fin cfg5.N) (e : Fin 40) :
    iblk5 V c 2 t (ix2 (0 : Fin 1) e) = V c main_v11 (ix2 (0 : Fin 1) e) := by
  obtain ⟨-, -, -, -, e0, e1, -⟩ := idx t
  show V c main_v11 (((cfg5.win 2).blk t).view.emb (ix2 (0 : Fin 1) e)) = _
  refine congrArg (V c main_v11) (funext fun a => Fin.ext ?_)
  match a with
  | ⟨0, _⟩ => show win5_2.index t (0 : Fin 2) * 1 + 1 * 0 = 0; omega
  | ⟨1, _⟩ => show win5_2.index t (1 : Fin 2) * 40 + 1 * e.val = e.val; omega

/-- Where row r, column e of point t's result block sits in the result array. -/
theorem emb_out (t : Fin cfg5.N) (r : Fin 200) (e : Fin 40) :
    ((cfg5.win 3).blk t).view.emb (ix2 r e) = ix2 (rowOf t r) e := by
  obtain ⟨-, -, -, -, -, -, e0, e1⟩ := idx t
  refine funext fun a => Fin.ext ?_
  match a with
  | ⟨0, _⟩ => show win5_3.index t (0 : Fin 2) * 200 + 1 * r.val = t.val * 200 + r.val; omega
  | ⟨1, _⟩ => show win5_3.index t (1 : Fin 2) * 40 + 1 * e.val = e.val; omega

/-- The result array as one function of the arrays the region finds: entry (i, e) is the specification's value at
    row i of the adjacency. -/
def out (A : S10000x10000.Idx → EReal) (P : S10000x40.Idx → EReal) (b : S1x40.Idx → EReal) : S10000x40.Idx → EReal :=
  fun i => Cert.Gcn.logSoftmax (Cert.Gcn.agg (rows A) (rows P) (rows b 0)) (i 0) (i 1)

/-- What point t writes back: the body's stored value of the point's input blocks. -/
theorem flushed_pay (c : Dev nD) (t : Fin cfg5.N) :
    (dat5 V c).flushed 3 t = k5_pay1 (F := Ideal) (iblk5 V c 0 t) (iblk5 V c 1 t) (iblk5 V c 2 t) := by
  show (cfg5.win 3).cut (grid5.coords t) ((dat5 V c).after 3 t) = _
  rw [after5_3]
  unfold out5_3
  rw [View.canon_unit_zero hz]
  simp only [View.ld_unit_zero (S := S200x10000) hz, View.ld_unit_zero (S := S10000x40) hz, View.ld_unit_zero (S := S1x40) hz]
  rfl

/-- The rows of the adjacency block at point t are rows 200·t … of the adjacency; the other two blocks are whole. -/
theorem rows_blocks (c : Dev nD) (t : Fin cfg5.N) (r : Fin 200) :
    rows (iblk5 V c 0 t) r = rows (V c main_v2_1) (rowOf t r)
      ∧ rows (iblk5 V c 1 t) = rows (V c main_v10) ∧ rows (iblk5 V c 2 t) 0 = rows (V c main_v11) 0 :=
  ⟨funext fun k => blk_adj V c t r k, funext fun k => funext fun e => blk_p V c t k e, funext fun e => blk_b V c t e⟩

/-- WHAT POINT t WRITES BACK is block t of `out` of the arrays the region finds, given the body's stored value read row
    by row (`hpay`): row r of the block is the row function of row r of the adjacency block, which is row 200·t + r
    of the adjacency. -/
theorem flushed_eq
    (hpay : ∀ (x0 : Vec Ideal S200x10000 .bf16) (x1 : Vec Ideal S10000x40 .bf16) (x2 : Vec Ideal S1x40 .f32), rows (k5_pay1 (F := Ideal) x0 x1 x2) = Cert.Gcn.logSoftmax (Cert.Gcn.agg (rows x0) (rows x1) (rows x2 0)))
    (c : Dev nD) (t : Fin cfg5.N) :
    (dat5 V c).flushed 3 t
      = ((cfg5.win 3).blk t).view.read (Elt Ideal) (out (V c main_v2_1) (V c main_v10) (V c main_v11)) := by
  rw [flushed_pay]
  funext y
  obtain ⟨r, e, rfl⟩ : ∃ (r : Fin 200) (e : Fin 40), y = ix2 r e := ⟨y 0, y 1, eq_ix2 y⟩
  show rows (k5_pay1 (F := Ideal) (iblk5 V c 0 t) (iblk5 V c 1 t) (iblk5 V c 2 t)) r e
    = out (V c main_v2_1) (V c main_v10) (V c main_v11) (((cfg5.win 3).blk t).view.emb (ix2 r e))
  rw [emb_out, hpay]
  obtain ⟨h0, h1, h2⟩ := rows_blocks V c t r
  show Cert.Gcn.lsmRow (Cert.Gcn.aggRow (rows (iblk5 V c 1 t)) (rows (iblk5 V c 2 t) 0) (rows (iblk5 V c 0 t) r)) e
    = Cert.Gcn.lsmRow (Cert.Gcn.aggRow (rows (V c main_v10)) (rows (V c main_v11) 0) (rows (V c main_v2_1) (rowOf t r))) e
  rw [h0, h1, h2]

/-- An index of the result array is in point t's block iff each coordinate is in the block's range on its axis. -/
theorem mem_blk (t : Fin cfg5.N) (i : S10000x40.Idx) :
    i ∈ ((cfg5.win 3).blk t).view.set ↔ ∀ a : Fin 2, win5_3.index t a * S200x40.size a ≤ (i a).val
      ∧ (i a).val < win5_3.index t a * S200x40.size a + S200x40.size a := by
  show i ∈ ((View.whole main_v12).slice (win5_3.rect t)).set ↔ _
  rw [View.set_slice_whole, Rect.mem_set_unit]
  exact Iff.rfl

/-- Every index of the result array is in some point's block: row i is in the block of point i / 200. -/
theorem cover (i : S10000x40.Idx) :
    ∃ t : Fin cfg5.N, (cfg5.win 3).flush t = true ∧ i ∈ ((cfg5.win 3).blk t).view.set := by
  have hi0 : (i 0).val < 10000 := (i 0).isLt
  have hi1 : (i 1).val < 40 := (i 1).isLt
  have hN : cfg5.N = 50 := N_5
  refine ⟨⟨(i 0).val / 200, by omega⟩, flush5_3 _, ?_⟩
  rw [mem_blk]
  obtain ⟨-, -, -, -, -, -, e0, e1⟩ := idx (⟨(i 0).val / 200, by omega⟩ : Fin cfg5.N)
  intro a
  match a with
  | ⟨0, _⟩ =>
    show win5_3.index ⟨(i 0).val / 200, _⟩ (0 : Fin 2) * 200 ≤ (i 0).val
      ∧ (i 0).val < win5_3.index ⟨(i 0).val / 200, _⟩ (0 : Fin 2) * 200 + 200
    rw [e0]; show (i 0).val / 200 * 200 ≤ (i 0).val ∧ (i 0).val < (i 0).val / 200 * 200 + 200; omega
  | ⟨1, _⟩ =>
    show win5_3.index ⟨(i 0).val / 200, _⟩ (1 : Fin 2) * 40 ≤ (i 1).val
      ∧ (i 1).val < win5_3.index ⟨(i 0).val / 200, _⟩ (1 : Fin 2) * 40 + 40
    rw [e1]; omega

/-- THE ARRAY after the region: `out` of the arrays the region finds. -/
theorem arr
    (hpay : ∀ (x0 : Vec Ideal S200x10000 .bf16) (x1 : Vec Ideal S10000x40 .bf16) (x2 : Vec Ideal S1x40 .f32), rows (k5_pay1 (F := Ideal) x0 x1 x2) = Cert.Gcn.logSoftmax (Cert.Gcn.agg (rows x0) (rows x1) (rows x2 0)))
    (c : Dev nD) :
    (dat5 V c).arrAt 3 cfg5.N = out (V c main_v2_1) (V c main_v10) (V c main_v11) :=
  (dat5 V c).arrAt_eq_of_cover 3 _ (fun t _ => flushed_eq V hpay c t) cover

/-- The same, row by row. -/
theorem rows_arr
    (hpay : ∀ (x0 : Vec Ideal S200x10000 .bf16) (x1 : Vec Ideal S10000x40 .bf16) (x2 : Vec Ideal S1x40 .f32), rows (k5_pay1 (F := Ideal) x0 x1 x2) = Cert.Gcn.logSoftmax (Cert.Gcn.agg (rows x0) (rows x1) (rows x2 0)))
    (c : Dev nD) :
    rows ((dat5 V c).arrAt 3 cfg5.N)
      = Cert.Gcn.logSoftmax (Cert.Gcn.agg (rows (V c main_v2_1)) (rows (V c main_v10)) (rows (V c main_v11) 0)) := by
  rw [arr V hpay c]; rfl

end Cert.KernelIdeal.Region5

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«107854_g28295244546728_cont_sun_m_959_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.KernelValue.lean ====
/-
  The idealized kernel's result array, row by row: it is the network of the launch arguments.

  Region by region the result arrays are the specification's stages of the arrays each region finds, and those arrays
  are the launch arguments or earlier regions' results:
      P₁ = X·W₁,  H₁ = A·P₁ + b₁,  P₂ = relu(bn(H₁))·W₂,  H₂ = A·P₂ + b₂,  P₃ = relu(bn(H₂))·W₃,
      result = log-softmax(A·P₃ + b₃),
  where the adjacency A the second and third aggregations read is the copy the first one wrote, which is A itself, and
  each bias, scale and shift row is its argument vector recast as a one-row matrix.
-/
import proofs.«107854_g28295244546728_cont_sun_m_959_2_alg».proof.Proof.KernelChain
import proofs.«107854_g28295244546728_cont_sun_m_959_2_alg».proof.Proof.KernelBodies
import proofs.«107854_g28295244546728_cont_sun_m_959_2_alg».proof.Proof.KernelRegion0
import proofs.«107854_g28295244546728_cont_sun_m_959_2_alg».proof.Proof.KernelRegion1
import proofs.«107854_g28295244546728_cont_sun_m_959_2_alg».proof.Proof.KernelRegion2
import proofs.«107854_g28295244546728_cont_sun_m_959_2_alg».proof.Proof.KernelRegion3
import proofs.«107854_g28295244546728_cont_sun_m_959_2_alg».proof.Proof.KernelRegion4
import proofs.«107854_g28295244546728_cont_sun_m_959_2_alg».proof.Proof.KernelRegion5
import proofs.«107854_g28295244546728_cont_sun_m_959_2_alg».proof.Proof.LibHostDenseRows

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Chain Cert.LibDenseRows

variable (m : (ℓ : Loc nD τ sig) → Buf (Elt Ideal) ℓ) (ρ : Dev nD → PrngReg)

/-- A vector recast as a one-row matrix: its one row is the vector. -/
theorem row128 (b : S128.Idx → EReal) : rows (shapeCast S1x128 b shapeCasts_S128_S1x128) (0 : Fin 1) = vec b :=
  Cert.LibHostDenseRows.rows_shapeCast_vec b shapeCasts_S128_S1x128

theorem row40 (b : S40.Idx → EReal) : rows (shapeCast S1x40 b shapeCasts_S40_S1x40) (0 : Fin 1) = vec b :=
  Cert.LibHostDenseRows.rows_shapeCast_vec b shapeCasts_S40_S1x40

/-- X·W₁. -/
abbrev P1 (c : Dev nD) : Fin 10000 → Fin 128 → EReal := Cert.Gcn.mm (rows (m ((c : Thread nD τ).loc main_arg0))) (rows (m ((c : Thread nD τ).loc main_arg2)))
/-- A·P₁ + b₁. -/
abbrev H1 (c : Dev nD) : Fin 10000 → Fin 128 → EReal := Cert.Gcn.agg (rows (m ((c : Thread nD τ).loc main_arg1))) (P1 m c) (vec (m ((c : Thread nD τ).loc main_arg3)))
/-- relu(bn(H₁))·W₂. -/
abbrev P2 (c : Dev nD) : Fin 10000 → Fin 128 → EReal :=
  Cert.Gcn.mm (Cert.Gcn.bnRelu (H1 m c) (vec (m ((c : Thread nD τ).loc main_arg4))) (vec (m ((c : Thread nD τ).loc main_arg5)))) (rows (m ((c : Thread nD τ).loc main_arg6)))
/-- A·P₂ + b₂. -/
abbrev H2 (c : Dev nD) : Fin 10000 → Fin 128 → EReal := Cert.Gcn.agg (rows (m ((c : Thread nD τ).loc main_arg1))) (P2 m c) (vec (m ((c : Thread nD τ).loc main_arg7)))
/-- relu(bn(H₂))·W₃. -/
abbrev P3 (c : Dev nD) : Fin 10000 → Fin 40 → EReal :=
  Cert.Gcn.mm (Cert.Gcn.bnRelu (H2 m c) (vec (m ((c : Thread nD τ).loc main_arg8))) (vec (m ((c : Thread nD τ).loc main_arg9)))) (rows (m ((c : Thread nD τ).loc main_arg10)))

theorem stage0 (c : Dev nD) : rows ((dat0 (V0 m ρ) c).arrAt 2 cfg0.N) = P1 m c :=
  Region0.rows_arr (V0 m ρ) Bodies.rows_pay0 c

theorem stage1 (c : Dev nD) : rows ((dat1 (V2 m ρ) c).arrAt 3 cfg1.N) = H1 m c := by
  rw [Region1.rows_arr (V2 m ρ) Bodies.rows_pay1 c]
  show Cert.Gcn.agg (rows (W2 m ρ c (Proc.devRef .tc main_arg1))) (rows (W2 m ρ c (Proc.devRef .tc main_v0)))
      (rows (W2 m ρ c (Proc.devRef .tc main_v1)) 0) = _
  rw [at2 m ρ c main_arg1 (by decide) (by decide), v0_at2, row_v1, stage0, row128]

theorem copy1 (c : Dev nD) : (dat1 (V2 m ρ) c).arrAt 4 cfg1.N = (m ((c : Thread nD τ).loc main_arg1)) := by
  rw [Region1.arr_copy (V2 m ρ) c]
  exact at2 m ρ c main_arg1 (by decide) (by decide)

theorem stage2 (c : Dev nD) : rows ((dat2 (V4 m ρ) c).arrAt 4 cfg2.N) = P2 m c := by
  rw [Region2.rows_arr (V4 m ρ) Bodies.rows_pay2 c]
  show Cert.Gcn.mm (Cert.Gcn.bnRelu (rows (W4 m ρ c (Proc.devRef .tc main_v2_0))) (rows (W4 m ρ c (Proc.devRef .tc main_v3)) 0)
      (rows (W4 m ρ c (Proc.devRef .tc main_v4)) 0)) (rows (W4 m ρ c (Proc.devRef .tc main_arg6))) = _
  rw [v2_0_at4, row_v3, row_v4, at4 m ρ c main_arg6 (by decide) (by decide) (by decide) (by decide) (by decide),
    stage1, row128, row128]

theorem stage3 (c : Dev nD) : rows ((dat3 (V6 m ρ) c).arrAt 3 cfg3.N) = H2 m c := by
  rw [Region3.rows_arr (V6 m ρ) Bodies.rows_pay3 c]
  show Cert.Gcn.agg (rows (W6 m ρ c (Proc.devRef .tc main_v2_1))) (rows (W6 m ρ c (Proc.devRef .tc main_v5)))
      (rows (W6 m ρ c (Proc.devRef .tc main_v6)) 0) = _
  rw [v2_1_at6, v5_at6, row_v6, copy1, stage2, row128]

theorem stage4 (c : Dev nD) : rows ((dat4 (V8 m ρ) c).arrAt 4 cfg4.N) = P3 m c := by
  rw [Region4.rows_arr (V8 m ρ) Bodies.rows_pay4 c]
  show Cert.Gcn.mm (Cert.Gcn.bnRelu (rows (W8 m ρ c (Proc.devRef .tc main_v7))) (rows (W8 m ρ c (Proc.devRef .tc main_v8)) 0)
      (rows (W8 m ρ c (Proc.devRef .tc main_v9)) 0)) (rows (W8 m ρ c (Proc.devRef .tc main_arg10))) = _
  rw [v7_at8, row_v8, row_v9, at8 m ρ c main_arg10 (by decide) (by decide) (by decide) (by decide) (by decide) (by decide)
    (by decide) (by decide) (by decide) (by decide), stage3, row128, row128]

theorem stage5 (c : Dev nD) : rows ((dat5 (V10 m ρ) c).arrAt 3 cfg5.N)
    = Cert.Gcn.logSoftmax (Cert.Gcn.agg (rows (m ((c : Thread nD τ).loc main_arg1))) (P3 m c) (vec (m ((c : Thread nD τ).loc main_arg11)))) := by
  rw [Region5.rows_arr (V10 m ρ) Bodies.rows_pay5 c]
  show Cert.Gcn.logSoftmax (Cert.Gcn.agg (rows (W10 m ρ c (Proc.devRef .tc main_v2_1))) (rows (W10 m ρ c (Proc.devRef .tc main_v10)))
      (rows (W10 m ρ c (Proc.devRef .tc main_v11)) 0)) = _
  rw [v2_1_at10, v10_at10, row_v11, copy1, stage4, row40]

/-- THE RESULT ARRAY at the last boundary is the network of the launch arguments, row by row. -/
theorem rows_result (c : Dev nD) :
    rows (W11 m ρ c (Proc.devRef .tc main_v12))
      = Cert.Gcn.net (rows (m ((c : Thread nD τ).loc main_arg0))) (rows (m ((c : Thread nD τ).loc main_arg1))) (rows (m ((c : Thread nD τ).loc main_arg2))) (vec (m ((c : Thread nD τ).loc main_arg3))) (vec (m ((c : Thread nD τ).loc main_arg4))) (vec (m ((c : Thread nD τ).loc main_arg5))) (rows (m ((c : Thread nD τ).loc main_arg6)))
          (vec (m ((c : Thread nD τ).loc main_arg7))) (vec (m ((c : Thread nD τ).loc main_arg8))) (vec (m ((c : Thread nD τ).loc main_arg9))) (rows (m ((c : Thread nD τ).loc main_arg10))) (vec (m ((c : Thread nD τ).loc main_arg11))) := by
  have h : W11 m ρ c (Proc.devRef .tc main_v12) = (dat5 (V10 m ρ) c).arrAt 3 cfg5.N := W11_arr m ρ c 3
  rw [h, stage5]
  rfl

end Cert.KernelIdeal.Value

end
-- ==== Proof.RefTerm.lean ====
/-
  The reference's result as one term of its twelve argument arrays, on the extended reals.

  Each definition below is the composition of the host operations one part of the reference applies, in the order
  and spelling the printed program has them: a graph-convolution layer (two matrix products and a bias row broadcast
  over the rows), the column mean, the column variance as the outlined variance function computes it (its own mean,
  the squared deviations summed and divided by the count less the zero "degrees of freedom" word, guarded by a
  select on that divisor being positive), the normalisation with scale and shift, the ReLU, and the log-softmax of
  every row. `result` chains them as the reference does.
-/
import proofs.«107854_g28295244546728_cont_sun_m_959_2_alg».proof.ReferenceIdeal
import proofs.«107854_g28295244546728_cont_sun_m_959_2_alg».proof.Proof.Gen.ReferenceIdeal
import Idealize.ShloMosaic.PureOps.Ideal

noncomputable section

namespace Cert.ReferenceIdeal.RefTerm

open Idealize.ShloMosaic Cert.ReferenceIdeal Cert.ReferenceIdeal.Facts₀

/-- adj · (h · W) + b, the bias row spread over the 10000 rows; 128 output columns. -/
def layer128 (adj : FVec Ideal S10000x10000 .f32) (h : FVec Ideal S10000x128 .f32) (W : FVec Ideal S128x128 .f32)
    (b : FVec Ideal S128 .f32) : FVec Ideal S10000x128 .f32 :=
  addf (Host.dotGeneral (F := Ideal) dot_S10000x10000_S10000x128_S10000x128_1_0_0_1_n_n none adj
      (Host.dotGeneral (F := Ideal) dot_S10000x128_S128x128_S10000x128_1_0_0_1_n_n none h W))
    (broadcastInDim S10000x128 ![0, 1] bcast_S1x128_S10000x128_0_1 (broadcastInDim S1x128 ![1] bcast_S128_S1x128_1 b))

/-- adj · (h · W) + b; 40 output columns. -/
def layer40 (adj : FVec Ideal S10000x10000 .f32) (h : FVec Ideal S10000x128 .f32) (W : FVec Ideal S128x40 .f32)
    (b : FVec Ideal S40 .f32) : FVec Ideal S10000x40 .f32 :=
  addf (Host.dotGeneral (F := Ideal) dot_S10000x10000_S10000x40_S10000x40_1_0_0_1_n_n none adj
      (Host.dotGeneral (F := Ideal) dot_S10000x128_S128x40_S10000x40_1_0_0_1_n_n none h W))
    (broadcastInDim S10000x40 ![0, 1] bcast_S1x40_S10000x40_0_1 (broadcastInDim S1x40 ![1] bcast_S40_S1x40_1 b))

/-- The column sums from the zero word. -/
def colSum (h : FVec Ideal S10000x128 .f32) : FVec Ideal S128 .f32 :=
  Host.reduceAdd (F := Ideal) h (constant (F := Ideal) S_ .f32 0x00000000#32) reducesTo_S10000x128_S128_d0 h_S_

/-- The column means: the column sums over the count. -/
def colMean (h : FVec Ideal S10000x128 .f32) : FVec Ideal S128 .f32 :=
  Host.divf (F := Ideal) (colSum h) (broadcastInDim S128 ![] bcast_S_S128 (constant (F := Ideal) S_ .f32 0x461C4000#32))

/-- The divisor the outlined variance uses: the count less the converted zero word. -/
def varDivisor : FVec Ideal S_ .f32 :=
  subf (constant (F := Ideal) S_ .f32 0x461C4000#32) (sitofp (F := Ideal) .f32 (constantI S_ 32 0#32))

/-- The deviations from the column means as the outlined variance computes them (the mean kept as a row). -/
def varCentred (h : FVec Ideal S10000x128 .f32) : FVec Ideal S10000x128 .f32 :=
  subf h (broadcastInDim S10000x128 ![0, 1] bcast_S1x128_S10000x128_0_1
    (Host.divf (F := Ideal) (broadcastInDim S1x128 ![1] bcast_S128_S1x128_1 (colSum h))
      (broadcastInDim S1x128 ![] bcast_S_S1x128 (constant (F := Ideal) S_ .f32 0x461C4000#32))))

/-- The column variances as the outlined function returns them: the guarded quotient. -/
def colVar (h : FVec Ideal S10000x128 .f32) : FVec Ideal S128 .f32 :=
  select (broadcastInDim S128 ![] bcast_S_S128 (cmpf (F := Ideal) .ogt varDivisor (constant (F := Ideal) S_ .f32 0x00000000#32)))
    (Host.divf (F := Ideal)
      (Host.reduceAdd (F := Ideal) (mulf (varCentred h) (varCentred h)) (constant (F := Ideal) S_ .f32 0x00000000#32)
        reducesTo_S10000x128_S128_d0 h_S_)
      (broadcastInDim S128 ![] bcast_S_S128 varDivisor))
    (broadcastInDim S128 ![] bcast_S_S128 (id (constant (F := Ideal) S_ .f32 0x7FC00000#32)))

/-- A vector of 128 spread over the 10000 rows. -/
def spread (v : FVec Ideal S128 .f32) : FVec Ideal S10000x128 .f32 :=
  broadcastInDim S10000x128 ![0, 1] bcast_S1x128_S10000x128_0_1 (broadcastInDim S1x128 ![1] bcast_S128_S1x128_1 v)

/-- Batch normalisation with scale g and shift β. -/
def batchNorm (h : FVec Ideal S10000x128 .f32) (g be : FVec Ideal S128 .f32) : FVec Ideal S10000x128 .f32 :=
  addf (mulf (Host.divf (F := Ideal) (subf h (spread (colMean h)))
      (spread (Host.sqrt (F := Ideal) (addf (colVar h)
        (broadcastInDim S128 ![] bcast_S_S128 (constant (F := Ideal) S_ .f32 0x3727C5AC#32))))))
    (spread g)) (spread be)

/-- The entrywise maximum with the zero constant. -/
def relu (h : FVec Ideal S10000x128 .f32) : FVec Ideal S10000x128 .f32 :=
  maximumf h (broadcastInDim S10000x128 ![] bcast_S_S10000x128 (constant (F := Ideal) S_ .f32 0x00000000#32))

/-- The row maxima as the outlined log-softmax takes them: the reduction from minus infinity, then the maximum
    with a vector of minus infinities. -/
def rowMax (h : FVec Ideal S10000x40 .f32) : FVec Ideal S10000 .f32 :=
  maximumf (broadcastInDim S10000 ![] bcast_S_S10000 (constant (F := Ideal) S_ .f32 0xFF800000#32))
    (Host.reduce (FloatOps.maximumf (F := Ideal)) h (constant (F := Ideal) S_ .f32 0xFF800000#32) reducesTo_S10000x40_S10000_d1 h_S_)

/-- A vector of 10000 kept as a column and spread over the 40 columns. -/
def spreadCol (v : FVec Ideal S10000 .f32) : FVec Ideal S10000x40 .f32 :=
  broadcastInDim S10000x40 ![0, 1] bcast_S10000x1_S10000x40_0_1 (broadcastInDim S10000x1 ![0] bcast_S10000_S10000x1_0 v)

/-- The entries less their row's maximum. -/
def shifted (h : FVec Ideal S10000x40 .f32) : FVec Ideal S10000x40 .f32 := subf h (spreadCol (rowMax h))

/-- The log-softmax of every row. -/
def logSoftmax (h : FVec Ideal S10000x40 .f32) : FVec Ideal S10000x40 .f32 :=
  subf (shifted h)
    (broadcastInDim S10000x40 ![0, 1] bcast_S10000x1_S10000x40_0_1
      (Host.log (F := Ideal) (broadcastInDim S10000x1 ![0] bcast_S10000_S10000x1_0
        (Host.reduceAdd (F := Ideal) (Host.exp (F := Ideal) (shifted h)) (constant (F := Ideal) S_ .f32 0x00000000#32)
          reducesTo_S10000x40_S10000_d1 h_S_))))

/-- The reference's result of its twelve arguments. -/
def result (x : FVec Ideal S10000x128 .f32) (adj : FVec Ideal S10000x10000 .f32)
    (W1 : FVec Ideal S128x128 .f32) (b1 g1 be1 : FVec Ideal S128 .f32)
    (W2 : FVec Ideal S128x128 .f32) (b2 g2 be2 : FVec Ideal S128 .f32)
    (W3 : FVec Ideal S128x40 .f32) (b3 : FVec Ideal S40 .f32) : FVec Ideal S10000x40 .f32 :=
  logSoftmax (layer40 adj (relu (batchNorm (layer128 adj (relu (batchNorm (layer128 adj x W1 b1) g1 be1)) W2 b2) g2 be2)) W3 b3)

end Cert.ReferenceIdeal.RefTerm

end
-- ==== Proof.RefRunOps.lean ====
/-
  The reference program as a straight line of host operations.

  The reference has no kernel: it is 124 host operations, those of its five calls of outlined functions (the
  column variance twice, with the select it calls; the ReLU twice; the log-softmax) written out at the call over that
  call's own buffers. The line is listed once whole, in program order, and once as twelve consecutive parts — per
  layer: the two matrix products with the bias, the column means, the column variances, the normalisation with scale
  and shift, the ReLU; then the output layer and the log-softmax — so that what each part leaves in its result buffer
  can be read off separately. The program equals the line run in order; every operation touches only buffers of the
  core.
-/
import proofs.«107854_g28295244546728_cont_sun_m_959_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first layer: the two matrix products and the bias row spread over the rows. -/
def opsL1 : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)) ]

/-- The first layer's column means: the column sums over the count. -/
def opsMean1 : List (HloOp τ sig (Elt F)) :=
  [ nullary main_cst (constant S_ .f32 0x00000000#32),
    binary main_v4 main_cst main_v5 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v6 (broadcastInDim S128 ![] bcast_S_S128 : (⟨S_, .f32⟩ : BufTy).Contents (Elt F) → (⟨S128, .f32⟩ : BufTy).Contents (Elt F)),
    binary main_v5 main_v6 main_v7 (Host.divf : (⟨S128, .f32⟩ : BufTy).Contents (Elt F) → (⟨S128, .f32⟩ : BufTy).Contents (Elt F) → (⟨S128, .f32⟩ : BufTy).Contents (Elt F)) ]

/-- The first layer's column variances: the zero word of the divisor, then the outlined variance's operations with its select inlined. -/
def opsVar1 : List (HloOp τ sig (Elt F)) :=
  [ nullary main_c (constantI S_ 32 0#32),
    TRef.nullary main_call0.cst (constant S_ .f32 0x00000000#32),
    TRef.binary (.of main_v4 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v4 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The first normalisation with scale and shift. -/
def opsBN1 : List (HloOp τ sig (Elt F)) :=
  [ unary main_v7 main_v9 (broadcastInDim S1x128 ![1] bcast_S128_S1x128_1 : (⟨S128, .f32⟩ : BufTy).Contents (Elt F) → (⟨S1x128, .f32⟩ : BufTy).Contents (Elt F)),
    unary main_v9 main_v10 (broadcastInDim S10000x128 ![0, 1] bcast_S1x128_S10000x128_0_1 : (⟨S1x128, .f32⟩ : BufTy).Contents (Elt F) → (⟨S10000x128, .f32⟩ : BufTy).Contents (Elt F)),
    binary main_v4 main_v10 main_v11 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v12 (broadcastInDim S128 ![] bcast_S_S128 : (⟨S_, .f32⟩ : BufTy).Contents (Elt F) → (⟨S128, .f32⟩ : BufTy).Contents (Elt F)),
    binary main_v8 main_v12 main_v13 (addf : (⟨S128, .f32⟩ : BufTy).Contents (Elt F) → (⟨S128, .f32⟩ : BufTy).Contents (Elt F) → (⟨S128, .f32⟩ : BufTy).Contents (Elt F)),
    unary main_v13 main_v14 (Host.sqrt : (⟨S128, .f32⟩ : BufTy).Contents (Elt F) → (⟨S128, .f32⟩ : BufTy).Contents (Elt F)),
    unary main_v14 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v11 main_v16 main_v17 (Host.divf : (⟨S10000x128, .f32⟩ : BufTy).Contents (Elt F) → (⟨S10000x128, .f32⟩ : BufTy).Contents (Elt F) → (⟨S10000x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (mulf : (⟨S10000x128, .f32⟩ : BufTy).Contents (Elt F) → (⟨S10000x128, .f32⟩ : BufTy).Contents (Elt F) → (⟨S10000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S10000x128 ![0, 1] bcast_S1x128_S10000x128_0_1 : (⟨S1x128, .f32⟩ : BufTy).Contents (Elt F) → (⟨S10000x128, .f32⟩ : BufTy).Contents (Elt F)),
    binary main_v20 main_v22 main_v23 (addf : (⟨S10000x128, .f32⟩ : BufTy).Contents (Elt F) → (⟨S10000x128, .f32⟩ : BufTy).Contents (Elt F) → (⟨S10000x128, .f32⟩ : BufTy).Contents (Elt F)) ]

/-- The first ReLU. -/
def opsRelu1 : List (HloOp τ sig (Elt F)) :=
  [ TRef.nullary main_call1.cst (constant S_ .f32 0x00000000#32),
    TRef.unary main_call1.cst main_call1.v0 (broadcastInDim S10000x128 ![] bcast_S_S10000x128),
    TRef.binary (.of main_v23 : TRef sig ⟨S10000x128, .f32⟩) main_call1.v0 main_call1.v1 maximumf ]

/-- The second layer. -/
def opsL2 : List (HloOp τ sig (Elt F)) :=
  [ binary main_v24 main_arg6 main_v25 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v25 main_v26 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v27 (broadcastInDim S1x128 ![1] bcast_S128_S1x128_1 : (⟨S128, .f32⟩ : BufTy).Contents (Elt F) → (⟨S1x128, .f32⟩ : BufTy).Contents (Elt F)),
    unary main_v27 main_v28 (broadcastInDim S10000x128 ![0, 1] bcast_S1x128_S10000x128_0_1 : (⟨S1x128, .f32⟩ : BufTy).Contents (Elt F) → (⟨S10000x128, .f32⟩ : BufTy).Contents (Elt F)),
    binary main_v26 main_v28 main_v29 (addf : (⟨S10000x128, .f32⟩ : BufTy).Contents (Elt F) → (⟨S10000x128, .f32⟩ : BufTy).Contents (Elt F) → (⟨S10000x128, .f32⟩ : BufTy).Contents (Elt F)) ]

/-- The second layer's column means. -/
def opsMean2 : List (HloOp τ sig (Elt F)) :=
  [ nullary main_cst_2 (constant S_ .f32 0x00000000#32),
    binary main_v29 main_cst_2 main_v30 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_3 (constant S_ .f32 0x461C4000#32),
    unary main_cst_3 main_v31 (broadcastInDim S128 ![] bcast_S_S128 : (⟨S_, .f32⟩ : BufTy).Contents (Elt F) → (⟨S128, .f32⟩ : BufTy).Contents (Elt F)),
    binary main_v30 main_v31 main_v32 (Host.divf : (⟨S128, .f32⟩ : BufTy).Contents (Elt F) → (⟨S128, .f32⟩ : BufTy).Contents (Elt F) → (⟨S128, .f32⟩ : BufTy).Contents (Elt F)) ]

/-- The second layer's column variances. -/
def opsVar2 : List (HloOp τ sig (Elt F)) :=
  [ nullary main_c_4 (constantI S_ 32 0#32),
    TRef.nullary main_call2.cst (constant S_ .f32 0x00000000#32),
    TRef.binary (.of main_v29 : TRef sig ⟨S10000x128, .f32⟩) main_call2.cst main_call2.v0 (fun x v => Host.reduceAdd x v reducesTo_S10000x128_S128_d0 h_S_),
    TRef.unary main_call2.v0 main_call2.v1 (broadcastInDim S1x128 ![1] bcast_S128_S1x128_1),
    TRef.nullary main_call2.cst_0 (constant S_ .f32 0x461C4000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S10000x128 ![0, 1] bcast_S1x128_S10000x128_0_1),
    TRef.binary (.of main_v29 : TRef sig ⟨S10000x128, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x461C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S10000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- The second normalisation with scale and shift. -/
def opsBN2 : List (HloOp τ sig (Elt F)) :=
  [ unary main_v32 main_v34 (broadcastInDim S1x128 ![1] bcast_S128_S1x128_1 : (⟨S128, .f32⟩ : BufTy).Contents (Elt F) → (⟨S1x128, .f32⟩ : BufTy).Contents (Elt F)),
    unary main_v34 main_v35 (broadcastInDim S10000x128 ![0, 1] bcast_S1x128_S10000x128_0_1 : (⟨S1x128, .f32⟩ : BufTy).Contents (Elt F) → (⟨S10000x128, .f32⟩ : BufTy).Contents (Elt F)),
    binary main_v29 main_v35 main_v36 (subf : (⟨S10000x128, .f32⟩ : BufTy).Contents (Elt F) → (⟨S10000x128, .f32⟩ : BufTy).Contents (Elt F) → (⟨S10000x128, .f32⟩ : BufTy).Contents (Elt F)),
    nullary main_cst_5 (constant S_ .f32 0x3727C5AC#32),
    unary main_cst_5 main_v37 (broadcastInDim S128 ![] bcast_S_S128 : (⟨S_, .f32⟩ : BufTy).Contents (Elt F) → (⟨S128, .f32⟩ : BufTy).Contents (Elt F)),
    binary main_v33 main_v37 main_v38 (addf : (⟨S128, .f32⟩ : BufTy).Contents (Elt F) → (⟨S128, .f32⟩ : BufTy).Contents (Elt F) → (⟨S128, .f32⟩ : BufTy).Contents (Elt F)),
    unary main_v38 main_v39 (Host.sqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S10000x128 ![0, 1] bcast_S1x128_S10000x128_0_1 : (⟨S1x128, .f32⟩ : BufTy).Contents (Elt F) → (⟨S10000x128, .f32⟩ : BufTy).Contents (Elt F)),
    binary main_v36 main_v41 main_v42 (Host.divf : (⟨S10000x128, .f32⟩ : BufTy).Contents (Elt F) → (⟨S10000x128, .f32⟩ : BufTy).Contents (Elt F) → (⟨S10000x128, .f32⟩ : BufTy).Contents (Elt F)),
    unary main_arg8 main_v43 (broadcastInDim S1x128 ![1] bcast_S128_S1x128_1 : (⟨S128, .f32⟩ : BufTy).Contents (Elt F) → (⟨S1x128, .f32⟩ : BufTy).Contents (Elt F)),
    unary main_v43 main_v44 (broadcastInDim S10000x128 ![0, 1] bcast_S1x128_S10000x128_0_1 : (⟨S1x128, .f32⟩ : BufTy).Contents (Elt F) → (⟨S10000x128, .f32⟩ : BufTy).Contents (Elt F)),
    binary main_v42 main_v44 main_v45 (mulf : (⟨S10000x128, .f32⟩ : BufTy).Contents (Elt F) → (⟨S10000x128, .f32⟩ : BufTy).Contents (Elt F) → (⟨S10000x128, .f32⟩ : BufTy).Contents (Elt F)),
    unary main_arg9 main_v46 (broadcastInDim S1x128 ![1] bcast_S128_S1x128_1 : (⟨S128, .f32⟩ : BufTy).Contents (Elt F) → (⟨S1x128, .f32⟩ : BufTy).Contents (Elt F)),
    unary main_v46 main_v47 (broadcastInDim S10000x128 ![0, 1] bcast_S1x128_S10000x128_0_1 : (⟨S1x128, .f32⟩ : BufTy).Contents (Elt F) → (⟨S10000x128, .f32⟩ : BufTy).Contents (Elt F)),
    binary main_v45 main_v47 main_v48 (addf : (⟨S10000x128, .f32⟩ : BufTy).Contents (Elt F) → (⟨S10000x128, .f32⟩ : BufTy).Contents (Elt F) → (⟨S10000x128, .f32⟩ : BufTy).Contents (Elt F)) ]

/-- The second ReLU. -/
def opsRelu2 : List (HloOp τ sig (Elt F)) :=
  [ TRef.nullary main_call3.cst (constant S_ .f32 0x00000000#32),
    TRef.unary main_call3.cst main_call3.v0 (broadcastInDim S10000x128 ![] bcast_S_S10000x128),
    TRef.binary (.of main_v48 : TRef sig ⟨S10000x128, .f32⟩) main_call3.v0 main_call3.v1 maximumf ]

/-- The output layer, 40 columns. -/
def opsL3 : List (HloOp τ sig (Elt F)) :=
  [ binary main_v49 main_arg10 main_v50 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    binary main_arg1 main_v50 main_v51 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg11 main_v52 (broadcastInDim S1x40 ![1] bcast_S40_S1x40_1 : (⟨S40, .f32⟩ : BufTy).Contents (Elt F) → (⟨S1x40, .f32⟩ : BufTy).Contents (Elt F)),
    unary main_v52 main_v53 (broadcastInDim S10000x40 ![0, 1] bcast_S1x40_S10000x40_0_1 : (⟨S1x40, .f32⟩ : BufTy).Contents (Elt F) → (⟨S10000x40, .f32⟩ : BufTy).Contents (Elt F)),
    binary main_v51 main_v53 main_v54 (addf : (⟨S10000x40, .f32⟩ : BufTy).Contents (Elt F) → (⟨S10000x40, .f32⟩ : BufTy).Contents (Elt F) → (⟨S10000x40, .f32⟩ : BufTy).Contents (Elt F)) ]

/-- The log-softmax of every row. -/
def opsLS : List (HloOp τ sig (Elt F)) :=
  [ TRef.nullary main_call4.cst (constant S_ .f32 0xFF800000#32),
    TRef.binary (.of main_v54 : TRef sig ⟨S10000x40, .f32⟩) main_call4.cst main_call4.v0 (fun x v => Host.reduce FloatOps.maximumf x v reducesTo_S10000x40_S10000_d1 h_S_),
    TRef.nullary main_call4.cst_0 (constant S_ .f32 0xFF800000#32),
    TRef.unary main_call4.cst_0 main_call4.v1 (broadcastInDim S10000 ![] bcast_S_S10000),
    TRef.binary main_call4.v1 main_call4.v0 main_call4.v2 maximumf,
    TRef.unary main_call4.v2 main_call4.v3 (broadcastInDim S10000x1 ![0] bcast_S10000_S10000x1_0),
    TRef.unary main_call4.v3 main_call4.v4 (broadcastInDim S10000x40 ![0, 1] bcast_S10000x1_S10000x40_0_1),
    TRef.binary (.of main_v54 : TRef sig ⟨S10000x40, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S10000x40_S10000_d1 h_S_),
    TRef.unary main_call4.v7 main_call4.v8 (broadcastInDim S10000x1 ![0] bcast_S10000_S10000x1_0),
    TRef.unary main_call4.v8 main_call4.v9 Host.log,
    TRef.unary main_call4.v9 main_call4.v10 (broadcastInDim S10000x40 ![0, 1] bcast_S10000x1_S10000x40_0_1),
    TRef.binary main_call4.v5 main_call4.v10 main_call4.v11 subf ]

/-- The reference's 124 host operations in program order, every call's body written out over that call's buffers. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    binary main_v4 main_cst main_v5 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v6 (broadcastInDim S128 ![] bcast_S_S128 : (⟨S_, .f32⟩ : BufTy).Contents (Elt F) → (⟨S128, .f32⟩ : BufTy).Contents (Elt F)),
    binary main_v5 main_v6 main_v7 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v4 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v4 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v7 main_v9 (broadcastInDim S1x128 ![1] bcast_S128_S1x128_1 : (⟨S128, .f32⟩ : BufTy).Contents (Elt F) → (⟨S1x128, .f32⟩ : BufTy).Contents (Elt F)),
    unary main_v9 main_v10 (broadcastInDim S10000x128 ![0, 1] bcast_S1x128_S10000x128_0_1 : (⟨S1x128, .f32⟩ : BufTy).Contents (Elt F) → (⟨S10000x128, .f32⟩ : BufTy).Contents (Elt F)),
    binary main_v4 main_v10 main_v11 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v12 (broadcastInDim S128 ![] bcast_S_S128 : (⟨S_, .f32⟩ : BufTy).Contents (Elt F) → (⟨S128, .f32⟩ : BufTy).Contents (Elt F)),
    binary main_v8 main_v12 main_v13 (addf : (⟨S128, .f32⟩ : BufTy).Contents (Elt F) → (⟨S128, .f32⟩ : BufTy).Contents (Elt F) → (⟨S128, .f32⟩ : BufTy).Contents (Elt F)),
    unary main_v13 main_v14 (Host.sqrt : (⟨S128, .f32⟩ : BufTy).Contents (Elt F) → (⟨S128, .f32⟩ : BufTy).Contents (Elt F)),
    unary main_v14 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v11 main_v16 main_v17 (Host.divf : (⟨S10000x128, .f32⟩ : BufTy).Contents (Elt F) → (⟨S10000x128, .f32⟩ : BufTy).Contents (Elt F) → (⟨S10000x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (mulf : (⟨S10000x128, .f32⟩ : BufTy).Contents (Elt F) → (⟨S10000x128, .f32⟩ : BufTy).Contents (Elt F) → (⟨S10000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S10000x128 ![0, 1] bcast_S1x128_S10000x128_0_1 : (⟨S1x128, .f32⟩ : BufTy).Contents (Elt F) → (⟨S10000x128, .f32⟩ : BufTy).Contents (Elt F)),
    binary main_v20 main_v22 main_v23 (addf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v23 : TRef sig ⟨S10000x128, .f32⟩) main_call1.v0 main_call1.v1 maximumf,
    binary main_v24 main_arg6 main_v25 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v25 main_v26 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v27 (broadcastInDim S1x128 ![1] bcast_S128_S1x128_1 : (⟨S128, .f32⟩ : BufTy).Contents (Elt F) → (⟨S1x128, .f32⟩ : BufTy).Contents (Elt F)),
    unary main_v27 main_v28 (broadcastInDim S10000x128 ![0, 1] bcast_S1x128_S10000x128_0_1 : (⟨S1x128, .f32⟩ : BufTy).Contents (Elt F) → (⟨S10000x128, .f32⟩ : BufTy).Contents (Elt F)),
    binary main_v26 main_v28 main_v29 (addf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    binary main_v29 main_cst_2 main_v30 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_3 (constant S_ .f32 0x461C4000#32),
    unary main_cst_3 main_v31 (broadcastInDim S128 ![] bcast_S_S128 : (⟨S_, .f32⟩ : BufTy).Contents (Elt F) → (⟨S128, .f32⟩ : BufTy).Contents (Elt F)),
    binary main_v30 main_v31 main_v32 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call2.cst (constant S_ .f32 0x00000000#32),
    TRef.binary (.of main_v29 : TRef sig ⟨S10000x128, .f32⟩) main_call2.cst main_call2.v0 (fun x v => Host.reduceAdd x v reducesTo_S10000x128_S128_d0 h_S_),
    TRef.unary main_call2.v0 main_call2.v1 (broadcastInDim S1x128 ![1] bcast_S128_S1x128_1),
    TRef.nullary main_call2.cst_0 (constant S_ .f32 0x461C4000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S10000x128 ![0, 1] bcast_S1x128_S10000x128_0_1),
    TRef.binary (.of main_v29 : TRef sig ⟨S10000x128, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x461C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S10000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v32 main_v34 (broadcastInDim S1x128 ![1] bcast_S128_S1x128_1 : (⟨S128, .f32⟩ : BufTy).Contents (Elt F) → (⟨S1x128, .f32⟩ : BufTy).Contents (Elt F)),
    unary main_v34 main_v35 (broadcastInDim S10000x128 ![0, 1] bcast_S1x128_S10000x128_0_1 : (⟨S1x128, .f32⟩ : BufTy).Contents (Elt F) → (⟨S10000x128, .f32⟩ : BufTy).Contents (Elt F)),
    binary main_v29 main_v35 main_v36 (subf : (⟨S10000x128, .f32⟩ : BufTy).Contents (Elt F) → (⟨S10000x128, .f32⟩ : BufTy).Contents (Elt F) → (⟨S10000x128, .f32⟩ : BufTy).Contents (Elt F)),
    nullary main_cst_5 (constant S_ .f32 0x3727C5AC#32),
    unary main_cst_5 main_v37 (broadcastInDim S128 ![] bcast_S_S128 : (⟨S_, .f32⟩ : BufTy).Contents (Elt F) → (⟨S128, .f32⟩ : BufTy).Contents (Elt F)),
    binary main_v33 main_v37 main_v38 (addf : (⟨S128, .f32⟩ : BufTy).Contents (Elt F) → (⟨S128, .f32⟩ : BufTy).Contents (Elt F) → (⟨S128, .f32⟩ : BufTy).Contents (Elt F)),
    unary main_v38 main_v39 (Host.sqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S10000x128 ![0, 1] bcast_S1x128_S10000x128_0_1 : (⟨S1x128, .f32⟩ : BufTy).Contents (Elt F) → (⟨S10000x128, .f32⟩ : BufTy).Contents (Elt F)),
    binary main_v36 main_v41 main_v42 (Host.divf : (⟨S10000x128, .f32⟩ : BufTy).Contents (Elt F) → (⟨S10000x128, .f32⟩ : BufTy).Contents (Elt F) → (⟨S10000x128, .f32⟩ : BufTy).Contents (Elt F)),
    unary main_arg8 main_v43 (broadcastInDim S1x128 ![1] bcast_S128_S1x128_1 : (⟨S128, .f32⟩ : BufTy).Contents (Elt F) → (⟨S1x128, .f32⟩ : BufTy).Contents (Elt F)),
    unary main_v43 main_v44 (broadcastInDim S10000x128 ![0, 1] bcast_S1x128_S10000x128_0_1 : (⟨S1x128, .f32⟩ : BufTy).Contents (Elt F) → (⟨S10000x128, .f32⟩ : BufTy).Contents (Elt F)),
    binary main_v42 main_v44 main_v45 (mulf : (⟨S10000x128, .f32⟩ : BufTy).Contents (Elt F) → (⟨S10000x128, .f32⟩ : BufTy).Contents (Elt F) → (⟨S10000x128, .f32⟩ : BufTy).Contents (Elt F)),
    unary main_arg9 main_v46 (broadcastInDim S1x128 ![1] bcast_S128_S1x128_1 : (⟨S128, .f32⟩ : BufTy).Contents (Elt F) → (⟨S1x128, .f32⟩ : BufTy).Contents (Elt F)),
    unary main_v46 main_v47 (broadcastInDim S10000x128 ![0, 1] bcast_S1x128_S10000x128_0_1 : (⟨S1x128, .f32⟩ : BufTy).Contents (Elt F) → (⟨S10000x128, .f32⟩ : BufTy).Contents (Elt F)),
    binary main_v45 main_v47 main_v48 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v48 : TRef sig ⟨S10000x128, .f32⟩) main_call3.v0 main_call3.v1 maximumf,
    binary main_v49 main_arg10 main_v50 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    binary main_arg1 main_v50 main_v51 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg11 main_v52 (broadcastInDim S1x40 ![1] bcast_S40_S1x40_1 : (⟨S40, .f32⟩ : BufTy).Contents (Elt F) → (⟨S1x40, .f32⟩ : BufTy).Contents (Elt F)),
    unary main_v52 main_v53 (broadcastInDim S10000x40 ![0, 1] bcast_S1x40_S10000x40_0_1 : (⟨S1x40, .f32⟩ : BufTy).Contents (Elt F) → (⟨S10000x40, .f32⟩ : BufTy).Contents (Elt F)),
    binary main_v51 main_v53 main_v54 (addf : (⟨S10000x40, .f32⟩ : BufTy).Contents (Elt F) → (⟨S10000x40, .f32⟩ : BufTy).Contents (Elt F) → (⟨S10000x40, .f32⟩ : BufTy).Contents (Elt F)),
    TRef.nullary main_call4.cst (constant S_ .f32 0xFF800000#32),
    TRef.binary (.of main_v54 : TRef sig ⟨S10000x40, .f32⟩) main_call4.cst main_call4.v0 (fun x v => Host.reduce FloatOps.maximumf x v reducesTo_S10000x40_S10000_d1 h_S_),
    TRef.nullary main_call4.cst_0 (constant S_ .f32 0xFF800000#32),
    TRef.unary main_call4.cst_0 main_call4.v1 (broadcastInDim S10000 ![] bcast_S_S10000),
    TRef.binary main_call4.v1 main_call4.v0 main_call4.v2 maximumf,
    TRef.unary main_call4.v2 main_call4.v3 (broadcastInDim S10000x1 ![0] bcast_S10000_S10000x1_0),
    TRef.unary main_call4.v3 main_call4.v4 (broadcastInDim S10000x40 ![0, 1] bcast_S10000x1_S10000x40_0_1),
    TRef.binary (.of main_v54 : TRef sig ⟨S10000x40, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S10000x40_S10000_d1 h_S_),
    TRef.unary main_call4.v7 main_call4.v8 (broadcastInDim S10000x1 ![0] bcast_S10000_S10000x1_0),
    TRef.unary main_call4.v8 main_call4.v9 Host.log,
    TRef.unary main_call4.v9 main_call4.v10 (broadcastInDim S10000x40 ![0, 1] bcast_S10000x1_S10000x40_0_1),
    TRef.binary main_call4.v5 main_call4.v10 main_call4.v11 subf ]

/-- The whole line is its twelve consecutive parts. -/
theorem ops_eq : (ops : List (HloOp τ sig (Elt F))) = opsL1 ++ (opsMean1 ++ (opsVar1 ++ (opsBN1 ++ (opsRelu1 ++ (opsL2 ++ (opsMean2 ++ (opsVar2 ++ (opsBN2 ++ (opsRelu2 ++ (opsL3 ++ (opsLS))))))))))) := rfl

set_option maxRecDepth 4096 in
/-- The program is that straight line: with the two windows, the outlined functions at their calls and the call records
    at their fields unfolded, both sides are one chain of steps once the sequencing is reassociated. -/
theorem main_eq (c : Dev nD) : main (F := F) c = seq ops := by
  simp only [main, main_part0, main_part1, fn_var.body, fn_where.body, fn_relu.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.RefRun

end
-- ==== Proof.RefRunFrames.lean ====
/-
  What each part of the reference's line leaves alone.

  For each of the twelve parts: the buffers it writes, one per operation, and the fact that every other buffer keeps
  its contents through the part. Running two lines in turn is running the second from what the first leaves.
-/
import proofs.«107854_g28295244546728_cont_sun_m_959_2_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A one-buffer set whose buffer is on a list of references lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Running two lines one after the other is running the first, then the second from what it leaves. -/
theorem after_parts : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_parts l₁ l₂]

/-- The buffers the part opsL1 writes, one per operation. -/
def wL1 : List (Ref sig .tc) := [main_v0, main_v1, main_v2, main_v3, main_v4]

theorem wL1_sub : (opsL1 (F := F)).Forall fun op => op.writes ⊆ ((wL1.map (Proc.devRef (τ := τ) .tc)).toFinset) :=
  ⟨single_sub_of_mem (y := main_v0) (by decide),
    single_sub_of_mem (y := main_v1) (by decide),
    single_sub_of_mem (y := main_v2) (by decide),
    single_sub_of_mem (y := main_v3) (by decide),
    single_sub_of_mem (y := main_v4) (by decide)⟩

/-- A buffer that is none of those keeps its contents through the part. -/
theorem frameL1 (V : Valuation τ sig (Elt F)) {r : Ref sig .tc} (hr : r ∉ wL1) :
    after (opsL1 (F := F)) V (no_index (Proc.devRef .tc r)) = V (Proc.devRef .tc r) :=
  after_of_writes_sub opsL1 V wL1_sub hr

/-- The buffers the part opsMean1 writes, one per operation. -/
def wMean1 : List (Ref sig .tc) := [main_cst, main_v5, main_cst_0, main_v6, main_v7]

theorem wMean1_sub : (opsMean1 (F := F)).Forall fun op => op.writes ⊆ ((wMean1.map (Proc.devRef (τ := τ) .tc)).toFinset) :=
  ⟨single_sub_of_mem (y := main_cst) (by decide),
    single_sub_of_mem (y := main_v5) (by decide),
    single_sub_of_mem (y := main_cst_0) (by decide),
    single_sub_of_mem (y := main_v6) (by decide),
    single_sub_of_mem (y := main_v7) (by decide)⟩

/-- A buffer that is none of those keeps its contents through the part. -/
theorem frameMean1 (V : Valuation τ sig (Elt F)) {r : Ref sig .tc} (hr : r ∉ wMean1) :
    after (opsMean1 (F := F)) V (no_index (Proc.devRef .tc r)) = V (Proc.devRef .tc r) :=
  after_of_writes_sub opsMean1 V wMean1_sub hr

/-- The buffers the part opsVar1 writes, one per operation. -/
def wVar1 : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v8]

theorem wVar1_sub : (opsVar1 (F := F)).Forall fun op => op.writes ⊆ ((wVar1.map (Proc.devRef (τ := τ) .tc)).toFinset) :=
  ⟨single_sub_of_mem (y := main_c) (by decide),
    single_sub_of_mem (y := main_call0_cst) (by decide),
    single_sub_of_mem (y := main_call0_v0) (by decide),
    single_sub_of_mem (y := main_call0_v1) (by decide),
    single_sub_of_mem (y := main_call0_cst_0) (by decide),
    single_sub_of_mem (y := main_call0_v2) (by decide),
    single_sub_of_mem (y := main_call0_v3) (by decide),
    single_sub_of_mem (y := main_call0_v4) (by decide),
    single_sub_of_mem (y := main_call0_v5) (by decide),
    single_sub_of_mem (y := main_call0_v6) (by decide),
    single_sub_of_mem (y := main_call0_v7) (by decide),
    single_sub_of_mem (y := main_call0_cst_1) (by decide),
    single_sub_of_mem (y := main_call0_v8) (by decide),
    single_sub_of_mem (y := main_call0_cst_2) (by decide),
    single_sub_of_mem (y := main_call0_v9) (by decide),
    single_sub_of_mem (y := main_call0_v10) (by decide),
    single_sub_of_mem (y := main_call0_v11) (by decide),
    single_sub_of_mem (y := main_call0_cst_3) (by decide),
    single_sub_of_mem (y := main_call0_v12) (by decide),
    single_sub_of_mem (y := main_call0_cst_4) (by decide),
    single_sub_of_mem (y := main_call0_call0_v0) (by decide),
    single_sub_of_mem (y := main_call0_call0_v1) (by decide),
    single_sub_of_mem (y := main_v8) (by decide)⟩

/-- A buffer that is none of those keeps its contents through the part. -/
theorem frameVar1 (V : Valuation τ sig (Elt F)) {r : Ref sig .tc} (hr : r ∉ wVar1) :
    after (opsVar1 (F := F)) V (no_index (Proc.devRef .tc r)) = V (Proc.devRef .tc r) :=
  after_of_writes_sub opsVar1 V wVar1_sub hr

/-- The buffers the part opsBN1 writes, one per operation. -/
def wBN1 : List (Ref sig .tc) := [main_v9, main_v10, main_v11, main_cst_1, main_v12, main_v13, main_v14, main_v15, main_v16, main_v17, main_v18, main_v19, main_v20, main_v21, main_v22, main_v23]

theorem wBN1_sub : (opsBN1 (F := F)).Forall fun op => op.writes ⊆ ((wBN1.map (Proc.devRef (τ := τ) .tc)).toFinset) :=
  ⟨single_sub_of_mem (y := main_v9) (by decide),
    single_sub_of_mem (y := main_v10) (by decide),
    single_sub_of_mem (y := main_v11) (by decide),
    single_sub_of_mem (y := main_cst_1) (by decide),
    single_sub_of_mem (y := main_v12) (by decide),
    single_sub_of_mem (y := main_v13) (by decide),
    single_sub_of_mem (y := main_v14) (by decide),
    single_sub_of_mem (y := main_v15) (by decide),
    single_sub_of_mem (y := main_v16) (by decide),
    single_sub_of_mem (y := main_v17) (by decide),
    single_sub_of_mem (y := main_v18) (by decide),
    single_sub_of_mem (y := main_v19) (by decide),
    single_sub_of_mem (y := main_v20) (by decide),
    single_sub_of_mem (y := main_v21) (by decide),
    single_sub_of_mem (y := main_v22) (by decide),
    single_sub_of_mem (y := main_v23) (by decide)⟩

/-- A buffer that is none of those keeps its contents through the part. -/
theorem frameBN1 (V : Valuation τ sig (Elt F)) {r : Ref sig .tc} (hr : r ∉ wBN1) :
    after (opsBN1 (F := F)) V (no_index (Proc.devRef .tc r)) = V (Proc.devRef .tc r) :=
  after_of_writes_sub opsBN1 V wBN1_sub hr

/-- The buffers the part opsRelu1 writes, one per operation. -/
def wRelu1 : List (Ref sig .tc) := [main_call1_cst, main_call1_v0, main_v24]

theorem wRelu1_sub : (opsRelu1 (F := F)).Forall fun op => op.writes ⊆ ((wRelu1.map (Proc.devRef (τ := τ) .tc)).toFinset) :=
  ⟨single_sub_of_mem (y := main_call1_cst) (by decide),
    single_sub_of_mem (y := main_call1_v0) (by decide),
    single_sub_of_mem (y := main_v24) (by decide)⟩

/-- A buffer that is none of those keeps its contents through the part. -/
theorem frameRelu1 (V : Valuation τ sig (Elt F)) {r : Ref sig .tc} (hr : r ∉ wRelu1) :
    after (opsRelu1 (F := F)) V (no_index (Proc.devRef .tc r)) = V (Proc.devRef .tc r) :=
  after_of_writes_sub opsRelu1 V wRelu1_sub hr

/-- The buffers the part opsL2 writes, one per operation. -/
def wL2 : List (Ref sig .tc) := [main_v25, main_v26, main_v27, main_v28, main_v29]

theorem wL2_sub : (opsL2 (F := F)).Forall fun op => op.writes ⊆ ((wL2.map (Proc.devRef (τ := τ) .tc)).toFinset) :=
  ⟨single_sub_of_mem (y := main_v25) (by decide),
    single_sub_of_mem (y := main_v26) (by decide),
    single_sub_of_mem (y := main_v27) (by decide),
    single_sub_of_mem (y := main_v28) (by decide),
    single_sub_of_mem (y := main_v29) (by decide)⟩

/-- A buffer that is none of those keeps its contents through the part. -/
theorem frameL2 (V : Valuation τ sig (Elt F)) {r : Ref sig .tc} (hr : r ∉ wL2) :
    after (opsL2 (F := F)) V (no_index (Proc.devRef .tc r)) = V (Proc.devRef .tc r) :=
  after_of_writes_sub opsL2 V wL2_sub hr

/-- The buffers the part opsMean2 writes, one per operation. -/
def wMean2 : List (Ref sig .tc) := [main_cst_2, main_v30, main_cst_3, main_v31, main_v32]

theorem wMean2_sub : (opsMean2 (F := F)).Forall fun op => op.writes ⊆ ((wMean2.map (Proc.devRef (τ := τ) .tc)).toFinset) :=
  ⟨single_sub_of_mem (y := main_cst_2) (by decide),
    single_sub_of_mem (y := main_v30) (by decide),
    single_sub_of_mem (y := main_cst_3) (by decide),
    single_sub_of_mem (y := main_v31) (by decide),
    single_sub_of_mem (y := main_v32) (by decide)⟩

/-- A buffer that is none of those keeps its contents through the part. -/
theorem frameMean2 (V : Valuation τ sig (Elt F)) {r : Ref sig .tc} (hr : r ∉ wMean2) :
    after (opsMean2 (F := F)) V (no_index (Proc.devRef .tc r)) = V (Proc.devRef .tc r) :=
  after_of_writes_sub opsMean2 V wMean2_sub hr

/-- The buffers the part opsVar2 writes, one per operation. -/
def wVar2 : List (Ref sig .tc) := [main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v33]

theorem wVar2_sub : (opsVar2 (F := F)).Forall fun op => op.writes ⊆ ((wVar2.map (Proc.devRef (τ := τ) .tc)).toFinset) :=
  ⟨single_sub_of_mem (y := main_c_4) (by decide),
    single_sub_of_mem (y := main_call2_cst) (by decide),
    single_sub_of_mem (y := main_call2_v0) (by decide),
    single_sub_of_mem (y := main_call2_v1) (by decide),
    single_sub_of_mem (y := main_call2_cst_0) (by decide),
    single_sub_of_mem (y := main_call2_v2) (by decide),
    single_sub_of_mem (y := main_call2_v3) (by decide),
    single_sub_of_mem (y := main_call2_v4) (by decide),
    single_sub_of_mem (y := main_call2_v5) (by decide),
    single_sub_of_mem (y := main_call2_v6) (by decide),
    single_sub_of_mem (y := main_call2_v7) (by decide),
    single_sub_of_mem (y := main_call2_cst_1) (by decide),
    single_sub_of_mem (y := main_call2_v8) (by decide),
    single_sub_of_mem (y := main_call2_cst_2) (by decide),
    single_sub_of_mem (y := main_call2_v9) (by decide),
    single_sub_of_mem (y := main_call2_v10) (by decide),
    single_sub_of_mem (y := main_call2_v11) (by decide),
    single_sub_of_mem (y := main_call2_cst_3) (by decide),
    single_sub_of_mem (y := main_call2_v12) (by decide),
    single_sub_of_mem (y := main_call2_cst_4) (by decide),
    single_sub_of_mem (y := main_call2_call0_v0) (by decide),
    single_sub_of_mem (y := main_call2_call0_v1) (by decide),
    single_sub_of_mem (y := main_v33) (by decide)⟩

/-- A buffer that is none of those keeps its contents through the part. -/
theorem frameVar2 (V : Valuation τ sig (Elt F)) {r : Ref sig .tc} (hr : r ∉ wVar2) :
    after (opsVar2 (F := F)) V (no_index (Proc.devRef .tc r)) = V (Proc.devRef .tc r) :=
  after_of_writes_sub opsVar2 V wVar2_sub hr

/-- The buffers the part opsBN2 writes, one per operation. -/
def wBN2 : List (Ref sig .tc) := [main_v34, main_v35, main_v36, main_cst_5, main_v37, main_v38, main_v39, main_v40, main_v41, main_v42, main_v43, main_v44, main_v45, main_v46, main_v47, main_v48]

theorem wBN2_sub : (opsBN2 (F := F)).Forall fun op => op.writes ⊆ ((wBN2.map (Proc.devRef (τ := τ) .tc)).toFinset) :=
  ⟨single_sub_of_mem (y := main_v34) (by decide),
    single_sub_of_mem (y := main_v35) (by decide),
    single_sub_of_mem (y := main_v36) (by decide),
    single_sub_of_mem (y := main_cst_5) (by decide),
    single_sub_of_mem (y := main_v37) (by decide),
    single_sub_of_mem (y := main_v38) (by decide),
    single_sub_of_mem (y := main_v39) (by decide),
    single_sub_of_mem (y := main_v40) (by decide),
    single_sub_of_mem (y := main_v41) (by decide),
    single_sub_of_mem (y := main_v42) (by decide),
    single_sub_of_mem (y := main_v43) (by decide),
    single_sub_of_mem (y := main_v44) (by decide),
    single_sub_of_mem (y := main_v45) (by decide),
    single_sub_of_mem (y := main_v46) (by decide),
    single_sub_of_mem (y := main_v47) (by decide),
    single_sub_of_mem (y := main_v48) (by decide)⟩

/-- A buffer that is none of those keeps its contents through the part. -/
theorem frameBN2 (V : Valuation τ sig (Elt F)) {r : Ref sig .tc} (hr : r ∉ wBN2) :
    after (opsBN2 (F := F)) V (no_index (Proc.devRef .tc r)) = V (Proc.devRef .tc r) :=
  after_of_writes_sub opsBN2 V wBN2_sub hr

/-- The buffers the part opsRelu2 writes, one per operation. -/
def wRelu2 : List (Ref sig .tc) := [main_call3_cst, main_call3_v0, main_v49]

theorem wRelu2_sub : (opsRelu2 (F := F)).Forall fun op => op.writes ⊆ ((wRelu2.map (Proc.devRef (τ := τ) .tc)).toFinset) :=
  ⟨single_sub_of_mem (y := main_call3_cst) (by decide),
    single_sub_of_mem (y := main_call3_v0) (by decide),
    single_sub_of_mem (y := main_v49) (by decide)⟩

/-- A buffer that is none of those keeps its contents through the part. -/
theorem frameRelu2 (V : Valuation τ sig (Elt F)) {r : Ref sig .tc} (hr : r ∉ wRelu2) :
    after (opsRelu2 (F := F)) V (no_index (Proc.devRef .tc r)) = V (Proc.devRef .tc r) :=
  after_of_writes_sub opsRelu2 V wRelu2_sub hr

/-- The buffers the part opsL3 writes, one per operation. -/
def wL3 : List (Ref sig .tc) := [main_v50, main_v51, main_v52, main_v53, main_v54]

theorem wL3_sub : (opsL3 (F := F)).Forall fun op => op.writes ⊆ ((wL3.map (Proc.devRef (τ := τ) .tc)).toFinset) :=
  ⟨single_sub_of_mem (y := main_v50) (by decide),
    single_sub_of_mem (y := main_v51) (by decide),
    single_sub_of_mem (y := main_v52) (by decide),
    single_sub_of_mem (y := main_v53) (by decide),
    single_sub_of_mem (y := main_v54) (by decide)⟩

/-- A buffer that is none of those keeps its contents through the part. -/
theorem frameL3 (V : Valuation τ sig (Elt F)) {r : Ref sig .tc} (hr : r ∉ wL3) :
    after (opsL3 (F := F)) V (no_index (Proc.devRef .tc r)) = V (Proc.devRef .tc r) :=
  after_of_writes_sub opsL3 V wL3_sub hr

/-- The buffers the part opsLS writes, one per operation. -/
def wLS : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v55]

theorem wLS_sub : (opsLS (F := F)).Forall fun op => op.writes ⊆ ((wLS.map (Proc.devRef (τ := τ) .tc)).toFinset) :=
  ⟨single_sub_of_mem (y := main_call4_cst) (by decide),
    single_sub_of_mem (y := main_call4_v0) (by decide),
    single_sub_of_mem (y := main_call4_cst_0) (by decide),
    single_sub_of_mem (y := main_call4_v1) (by decide),
    single_sub_of_mem (y := main_call4_v2) (by decide),
    single_sub_of_mem (y := main_call4_v3) (by decide),
    single_sub_of_mem (y := main_call4_v4) (by decide),
    single_sub_of_mem (y := main_call4_v5) (by decide),
    single_sub_of_mem (y := main_call4_v6) (by decide),
    single_sub_of_mem (y := main_call4_cst_1) (by decide),
    single_sub_of_mem (y := main_call4_v7) (by decide),
    single_sub_of_mem (y := main_call4_v8) (by decide),
    single_sub_of_mem (y := main_call4_v9) (by decide),
    single_sub_of_mem (y := main_call4_v10) (by decide),
    single_sub_of_mem (y := main_v55) (by decide)⟩

/-- A buffer that is none of those keeps its contents through the part. -/
theorem frameLS (V : Valuation τ sig (Elt F)) {r : Ref sig .tc} (hr : r ∉ wLS) :
    after (opsLS (F := F)) V (no_index (Proc.devRef .tc r)) = V (Proc.devRef .tc r) :=
  after_of_writes_sub opsLS V wLS_sub hr

end Cert.ReferenceIdeal.RefRun

end
-- ==== Proof.RefRunParts.lean ====
/-
  What each part of the reference's line computes.

  For each of the twelve parts, the contents of its result buffer after the part: the matching definition of the
  reference's term applied to the contents, before the part, of the buffers it reads. The normalisation part reads the
  column means and variances from their buffers, so it is stated for given means and variances; batch normalisation is
  that at the array's own.
-/
import proofs.«107854_g28295244546728_cont_sun_m_959_2_alg».proof.Proof.RefTerm
import proofs.«107854_g28295244546728_cont_sun_m_959_2_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The normalisation with scale and shift of an array whose column means and column variances are given. -/
def bnOf (h : FVec Ideal S10000x128 .f32) (mean var g be : FVec Ideal S128 .f32) : FVec Ideal S10000x128 .f32 :=
  addf (mulf (Host.divf (F := Ideal) (subf h (RefTerm.spread mean))
      (RefTerm.spread (Host.sqrt (F := Ideal) (addf var
        (broadcastInDim S128 ![] bcast_S_S128 (constant (F := Ideal) S_ .f32 0x3727C5AC#32))))))
    (RefTerm.spread g)) (RefTerm.spread be)

/-- Batch normalisation is the normalisation at the array's own column means and variances. -/
theorem batchNorm_eq (h : FVec Ideal S10000x128 .f32) (g be : FVec Ideal S128 .f32) :
    RefTerm.batchNorm h g be = bnOf h (RefTerm.colMean h) (RefTerm.colVar h) g be := rfl

attribute [local irreducible] Host.reduceAdd Host.reduce Host.divf Host.sqrt Host.exp Host.log in
/-- After the first layer's operations its result buffer holds the layer of the arguments. -/
theorem l1_eq (V : Valuation τ sig (Elt Ideal)) :
    after (opsL1 (F := Ideal)) V (no_index (main_v4 : DevRef τ sig))
      = RefTerm.layer128 (V (main_arg1 : DevRef τ sig)) (V (main_arg0 : DevRef τ sig)) (V (main_arg2 : DevRef τ sig)) (V (main_arg3 : DevRef τ sig)) := by
  simp only [opsL1, after_cons, after_nil]
  rfl

attribute [local irreducible] Host.reduceAdd Host.reduce Host.divf Host.sqrt Host.exp Host.log in
/-- The column means of the first layer's result. -/
theorem mean1_eq (V : Valuation τ sig (Elt Ideal)) :
    after (opsMean1 (F := Ideal)) V (no_index (main_v7 : DevRef τ sig))
      = RefTerm.colMean (V (main_v4 : DevRef τ sig)) := by
  simp only [opsMean1, after_cons, after_nil]
  rfl

attribute [local irreducible] Host.reduceAdd Host.reduce Host.divf Host.sqrt Host.exp Host.log in
/-- The column variances of the first layer's result, as the outlined function returns them. -/
theorem var1_eq (V : Valuation τ sig (Elt Ideal)) :
    after (opsVar1 (F := Ideal)) V (no_index (main_v8 : DevRef τ sig))
      = RefTerm.colVar (V (main_v4 : DevRef τ sig)) := by
  simp only [opsVar1, after_cons, after_nil]
  rfl

attribute [local irreducible] Host.reduceAdd Host.reduce Host.divf Host.sqrt Host.exp Host.log in
/-- The first normalisation, of the buffers holding the array, its means and its variances. -/
theorem bn1_eq (V : Valuation τ sig (Elt Ideal)) :
    after (opsBN1 (F := Ideal)) V (no_index (main_v23 : DevRef τ sig))
      = bnOf (V (main_v4 : DevRef τ sig)) (V (main_v7 : DevRef τ sig)) (V (main_v8 : DevRef τ sig)) (V (main_arg4 : DevRef τ sig)) (V (main_arg5 : DevRef τ sig)) := by
  simp only [opsBN1, after_cons, after_nil]
  rfl

attribute [local irreducible] Host.reduceAdd Host.reduce Host.divf Host.sqrt Host.exp Host.log in
/-- The first ReLU. -/
theorem relu1_eq (V : Valuation τ sig (Elt Ideal)) :
    after (opsRelu1 (F := Ideal)) V (no_index (main_v24 : DevRef τ sig))
      = RefTerm.relu (V (main_v23 : DevRef τ sig)) := by
  simp only [opsRelu1, after_cons, after_nil]
  rfl

attribute [local irreducible] Host.reduceAdd Host.reduce Host.divf Host.sqrt Host.exp Host.log in
/-- The second layer. -/
theorem l2_eq (V : Valuation τ sig (Elt Ideal)) :
    after (opsL2 (F := Ideal)) V (no_index (main_v29 : DevRef τ sig))
      = RefTerm.layer128 (V (main_arg1 : DevRef τ sig)) (V (main_v24 : DevRef τ sig)) (V (main_arg6 : DevRef τ sig)) (V (main_arg7 : DevRef τ sig)) := by
  simp only [opsL2, after_cons, after_nil]
  rfl

attribute [local irreducible] Host.reduceAdd Host.reduce Host.divf Host.sqrt Host.exp Host.log in
/-- The column means of the second layer's result. -/
theorem mean2_eq (V : Valuation τ sig (Elt Ideal)) :
    after (opsMean2 (F := Ideal)) V (no_index (main_v32 : DevRef τ sig))
      = RefTerm.colMean (V (main_v29 : DevRef τ sig)) := by
  simp only [opsMean2, after_cons, after_nil]
  rfl

attribute [local irreducible] Host.reduceAdd Host.reduce Host.divf Host.sqrt Host.exp Host.log in
/-- The column variances of the second layer's result. -/
theorem var2_eq (V : Valuation τ sig (Elt Ideal)) :
    after (opsVar2 (F := Ideal)) V (no_index (main_v33 : DevRef τ sig))
      = RefTerm.colVar (V (main_v29 : DevRef τ sig)) := by
  simp only [opsVar2, after_cons, after_nil]
  rfl

attribute [local irreducible] Host.reduceAdd Host.reduce Host.divf Host.sqrt Host.exp Host.log in
/-- The second normalisation. -/
theorem bn2_eq (V : Valuation τ sig (Elt Ideal)) :
    after (opsBN2 (F := Ideal)) V (no_index (main_v48 : DevRef τ sig))
      = bnOf (V (main_v29 : DevRef τ sig)) (V (main_v32 : DevRef τ sig)) (V (main_v33 : DevRef τ sig)) (V (main_arg8 : DevRef τ sig)) (V (main_arg9 : DevRef τ sig)) := by
  simp only [opsBN2, after_cons, after_nil]
  rfl

attribute [local irreducible] Host.reduceAdd Host.reduce Host.divf Host.sqrt Host.exp Host.log in
/-- The second ReLU. -/
theorem relu2_eq (V : Valuation τ sig (Elt Ideal)) :
    after (opsRelu2 (F := Ideal)) V (no_index (main_v49 : DevRef τ sig))
      = RefTerm.relu (V (main_v48 : DevRef τ sig)) := by
  simp only [opsRelu2, after_cons, after_nil]
  rfl

attribute [local irreducible] Host.reduceAdd Host.reduce Host.divf Host.sqrt Host.exp Host.log in
/-- The output layer. -/
theorem l3_eq (V : Valuation τ sig (Elt Ideal)) :
    after (opsL3 (F := Ideal)) V (no_index (main_v54 : DevRef τ sig))
      = RefTerm.layer40 (V (main_arg1 : DevRef τ sig)) (V (main_v49 : DevRef τ sig)) (V (main_arg10 : DevRef τ sig)) (V (main_arg11 : DevRef τ sig)) := by
  simp only [opsL3, after_cons, after_nil]
  rfl

attribute [local irreducible] Host.reduceAdd Host.reduce Host.divf Host.sqrt Host.exp Host.log in
/-- The log-softmax of the output layer's result. -/
theorem ls_eq (V : Valuation τ sig (Elt Ideal)) :
    after (opsLS (F := Ideal)) V (no_index (main_v55 : DevRef τ sig))
      = RefTerm.logSoftmax (V (main_v54 : DevRef τ sig)) := by
  simp only [opsLS, after_cons, after_nil]
  rfl

end Cert.ReferenceIdeal.RefRun

end
-- ==== Proof.RefRun.lean ====
/-
  The reference's run.

  The whole line run from any contents leaves the result buffer at the reference's term of the twelve argument
  buffers' contents and leaves the arguments as they were; hence every weakly fair execution of the reference from a
  memory with zero counters terminates in such a state.
-/
import proofs.«107854_g28295244546728_cont_sun_m_959_2_alg».proof.Proof.RefTerm
import proofs.«107854_g28295244546728_cont_sun_m_959_2_alg».proof.Proof.Gen.ReferenceIdeal
import proofs.«107854_g28295244546728_cont_sun_m_959_2_alg».proof.Proof.RefRunFrames
import proofs.«107854_g28295244546728_cont_sun_m_959_2_alg».proof.Proof.RefRunParts

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- From any contents, after the whole line the result buffer holds the reference's term of the twelve argument buffers'
    contents: the line is cut into its parts, each part's result is read by its own lemma at what the part before
    leaves, and every buffer a part reads but does not write is carried back through the parts between. -/
theorem out_eq (V : Valuation τ sig (Elt Ideal)) :
    after (ops (F := Ideal)) V (main_v55 : DevRef τ sig)
      = RefTerm.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ops_eq]
  simp (disch := decide) only [after_parts, ls_eq, l3_eq, relu2_eq, bn2_eq, var2_eq, mean2_eq, l2_eq, relu1_eq, bn1_eq, var1_eq, mean1_eq, l1_eq,
    frameLS, frameL3, frameRelu2, frameBN2, frameVar2, frameMean2, frameL2, frameRelu1, frameBN1, frameVar1, frameMean1, frameL1]
  simp only [RefTerm.result, batchNorm_eq]

/-- No operation writes argument 0: it holds after the line what it held before. -/
theorem arg0_eq (V : Valuation τ sig (Elt F)) : after (ops (F := F)) V (main_arg0 : DevRef τ sig) = V (main_arg0 : DevRef τ sig) := by
  rw [ops_eq]
  simp (disch := decide) only [after_parts, frameLS, frameL3, frameRelu2, frameBN2, frameVar2, frameMean2, frameL2, frameRelu1, frameBN1, frameVar1, frameMean1, frameL1]

/-- No operation writes argument 1: it holds after the line what it held before. -/
theorem arg1_eq (V : Valuation τ sig (Elt F)) : after (ops (F := F)) V (main_arg1 : DevRef τ sig) = V (main_arg1 : DevRef τ sig) := by
  rw [ops_eq]
  simp (disch := decide) only [after_parts, frameLS, frameL3, frameRelu2, frameBN2, frameVar2, frameMean2, frameL2, frameRelu1, frameBN1, frameVar1, frameMean1, frameL1]

/-- No operation writes argument 2: it holds after the line what it held before. -/
theorem arg2_eq (V : Valuation τ sig (Elt F)) : after (ops (F := F)) V (main_arg2 : DevRef τ sig) = V (main_arg2 : DevRef τ sig) := by
  rw [ops_eq]
  simp (disch := decide) only [after_parts, frameLS, frameL3, frameRelu2, frameBN2, frameVar2, frameMean2, frameL2, frameRelu1, frameBN1, frameVar1, frameMean1, frameL1]

/-- No operation writes argument 3: it holds after the line what it held before. -/
theorem arg3_eq (V : Valuation τ sig (Elt F)) : after (ops (F := F)) V (main_arg3 : DevRef τ sig) = V (main_arg3 : DevRef τ sig) := by
  rw [ops_eq]
  simp (disch := decide) only [after_parts, frameLS, frameL3, frameRelu2, frameBN2, frameVar2, frameMean2, frameL2, frameRelu1, frameBN1, frameVar1, frameMean1, frameL1]

/-- No operation writes argument 4: it holds after the line what it held before. -/
theorem arg4_eq (V : Valuation τ sig (Elt F)) : after (ops (F := F)) V (main_arg4 : DevRef τ sig) = V (main_arg4 : DevRef τ sig) := by
  rw [ops_eq]
  simp (disch := decide) only [after_parts, frameLS, frameL3, frameRelu2, frameBN2, frameVar2, frameMean2, frameL2, frameRelu1, frameBN1, frameVar1, frameMean1, frameL1]

/-- No operation writes argument 5: it holds after the line what it held before. -/
theorem arg5_eq (V : Valuation τ sig (Elt F)) : after (ops (F := F)) V (main_arg5 : DevRef τ sig) = V (main_arg5 : DevRef τ sig) := by
  rw [ops_eq]
  simp (disch := decide) only [after_parts, frameLS, frameL3, frameRelu2, frameBN2, frameVar2, frameMean2, frameL2, frameRelu1, frameBN1, frameVar1, frameMean1, frameL1]

/-- No operation writes argument 6: it holds after the line what it held before. -/
theorem arg6_eq (V : Valuation τ sig (Elt F)) : after (ops (F := F)) V (main_arg6 : DevRef τ sig) = V (main_arg6 : DevRef τ sig) := by
  rw [ops_eq]
  simp (disch := decide) only [after_parts, frameLS, frameL3, frameRelu2, frameBN2, frameVar2, frameMean2, frameL2, frameRelu1, frameBN1, frameVar1, frameMean1, frameL1]

/-- No operation writes argument 7: it holds after the line what it held before. -/
theorem arg7_eq (V : Valuation τ sig (Elt F)) : after (ops (F := F)) V (main_arg7 : DevRef τ sig) = V (main_arg7 : DevRef τ sig) := by
  rw [ops_eq]
  simp (disch := decide) only [after_parts, frameLS, frameL3, frameRelu2, frameBN2, frameVar2, frameMean2, frameL2, frameRelu1, frameBN1, frameVar1, frameMean1, frameL1]

/-- No operation writes argument 8: it holds after the line what it held before. -/
theorem arg8_eq (V : Valuation τ sig (Elt F)) : after (ops (F := F)) V (main_arg8 : DevRef τ sig) = V (main_arg8 : DevRef τ sig) := by
  rw [ops_eq]
  simp (disch := decide) only [after_parts, frameLS, frameL3, frameRelu2, frameBN2, frameVar2, frameMean2, frameL2, frameRelu1, frameBN1, frameVar1, frameMean1, frameL1]

/-- No operation writes argument 9: it holds after the line what it held before. -/
theorem arg9_eq (V : Valuation τ sig (Elt F)) : after (ops (F := F)) V (main_arg9 : DevRef τ sig) = V (main_arg9 : DevRef τ sig) := by
  rw [ops_eq]
  simp (disch := decide) only [after_parts, frameLS, frameL3, frameRelu2, frameBN2, frameVar2, frameMean2, frameL2, frameRelu1, frameBN1, frameVar1, frameMean1, frameL1]

/-- No operation writes argument 10: it holds after the line what it held before. -/
theorem arg10_eq (V : Valuation τ sig (Elt F)) : after (ops (F := F)) V (main_arg10 : DevRef τ sig) = V (main_arg10 : DevRef τ sig) := by
  rw [ops_eq]
  simp (disch := decide) only [after_parts, frameLS, frameL3, frameRelu2, frameBN2, frameVar2, frameMean2, frameL2, frameRelu1, frameBN1, frameVar1, frameMean1, frameL1]

/-- No operation writes argument 11: it holds after the line what it held before. -/
theorem arg11_eq (V : Valuation τ sig (Elt F)) : after (ops (F := F)) V (main_arg11 : DevRef τ sig) = V (main_arg11 : DevRef τ sig) := by
  rw [ops_eq]
  simp (disch := decide) only [after_parts, frameLS, frameL3, frameRelu2, frameBN2, frameVar2, frameMean2, frameL2, frameRelu1, frameBN1, frameVar1, frameMean1, frameL1]

/-- On every device, from any memory with zero counters: every weakly fair execution of the reference terminates with
    the result buffer at the reference's term of the arguments' launch contents, and the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55)
          = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v55).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.RefValueLayer.lean ====
/-
  A graph-convolution layer of the reference, row by row.

  The layer is adj · (h · W) + b with the bias vector spread over the rows. Row r of the sum is the bias added to
  row r of adj times the inner product, and row r' of the inner product is row r' of h times W: exactly the
  specification's `agg` of `mm`. Both dimension records are the plain rows-by-columns contraction.
-/
import proofs.«107854_g28295244546728_cont_sun_m_959_2_alg».proof.Proof.RefTerm
import proofs.«107854_g28295244546728_cont_sun_m_959_2_alg».proof.Proof.Spec
import proofs.«107854_g28295244546728_cont_sun_m_959_2_alg».proof.Proof.LibHostDenseRows

noncomputable section

namespace Cert.ReferenceIdeal.RefValue

open Idealize.ShloMosaic Idealize.ShloMosaic.ValueIdx Cert.ReferenceIdeal Cert.ReferenceIdeal.RefTerm Cert.LibDenseRows

/-- The layer with 128 output columns is the specification's aggregation of the product. -/
theorem rows_layer128 (adj : FVec Ideal S10000x10000 .f32) (h : FVec Ideal S10000x128 .f32) (W : FVec Ideal S128x128 .f32)
    (b : FVec Ideal S128 .f32) :
    rows (layer128 adj h W b) = Cert.Gcn.agg (rows adj) (Cert.Gcn.mm (rows h) (rows W)) (vec b) := by
  funext r
  unfold layer128 Cert.Gcn.agg
  refine (Cert.LibHostDenseRows.rows_hostDense _ rfl none adj _ b _ _ r).trans ?_
  refine congrArg (fun P => dense P (vec b) (rows adj r)) ?_
  funext r'
  exact Cert.LibHostDenseRows.rows_hostDot _ rfl none h W r'

/-- The layer with 40 output columns likewise. -/
theorem rows_layer40 (adj : FVec Ideal S10000x10000 .f32) (h : FVec Ideal S10000x128 .f32) (W : FVec Ideal S128x40 .f32)
    (b : FVec Ideal S40 .f32) :
    rows (layer40 adj h W b) = Cert.Gcn.agg (rows adj) (Cert.Gcn.mm (rows h) (rows W)) (vec b) := by
  funext r
  unfold layer40 Cert.Gcn.agg
  refine (Cert.LibHostDenseRows.rows_hostDense _ rfl none adj _ b _ _ r).trans ?_
  refine congrArg (fun P => dense P (vec b) (rows adj r)) ?_
  funext r'
  exact Cert.LibHostDenseRows.rows_hostDot _ rfl none h W r'

end Cert.ReferenceIdeal.RefValue

end
-- ==== Proof.RefValueNorm.lean ====
/-
  Batch normalisation and ReLU of the reference, entry by entry.

  The column sums are host sums over the first axis from the zero word, so at column e they are the sums of the
  column's entries. The mean divides by the count word, which is the same literal the specification divides by. The
  variance function's divisor is the count less the converted integer zero, which is the count itself; the count is
  the real 10000, above zero, so the guard on the divisor is true and the select returns the quotient: the other
  branch is never read. The deviations keep the mean as a row spread over the rows; squared, summed over the column
  and divided by the count they are the specification's variance. Scale and shift are vectors spread over the rows,
  and the maximum with the zero constant is the ReLU.
-/
import proofs.«107854_g28295244546728_cont_sun_m_959_2_alg».proof.Proof.RefTerm
import proofs.«107854_g28295244546728_cont_sun_m_959_2_alg».proof.Proof.Spec
import proofs.«107854_g28295244546728_cont_sun_m_959_2_alg».proof.Proof.LibHostDenseRows
import proofs.«107854_g28295244546728_cont_sun_m_959_2_alg».proof.Proof.LibAxisReads

noncomputable section

open scoped BigOperators

namespace Cert.ReferenceIdeal.RefValue

open Idealize.ShloMosaic Idealize.ShloMosaic.ValueIdx Cert.ReferenceIdeal Cert.ReferenceIdeal.RefTerm Cert.LibDenseRows
open Cert.LibAxisReads Cert.ReferenceIdeal.Facts₀

/-- Dropping the first axis of a [10000, 128] matrix leaves [128], with at least one axis. -/
theorem reduces_S10000x128_d0 : S10000x128.Reduces [0] S128 := by decide

/-- A vector of 128 spread over the rows reads, at (r, e), the vector at e. -/
theorem spread_apply (v : FVec Ideal S128 .f32) (r : Fin 10000) (e : Fin 128) : spread v (ix2 r e) = v (ix1 e) :=
  congrFun (Cert.LibHostDenseRows.rows_broadcast_vec v _ _ r) e

/-- The column sum at e is the sum of column e. -/
theorem colSum_apply (h : FVec Ideal S10000x128 .f32) (e : Fin 128) : colSum h (ix1 e) = ∑ r : Fin 10000, h (ix2 r e) := by
  unfold colSum
  refine (hostReduceAdd_firstAxis_apply h _ _ reduces_S10000x128_d0 _ e).trans ?_
  show Ideal.ofBits .f32 0x00000000#32 + _ = _
  rw [Ideal.ofBits_zero_f32, zero_add]

/-- The column mean at e is the specification's. -/
theorem colMean_apply (h : FVec Ideal S10000x128 .f32) (e : Fin 128) :
    RefTerm.colMean h (ix1 e) = Cert.Gcn.colMean (rows h) e := by
  unfold RefTerm.colMean Cert.Gcn.colMean
  show Ideal.div (colSum h (ix1 e))
      (broadcastInDim S128 ![] bcast_S_S128 (constant (F := Ideal) S_ .f32 0x461C4000#32) (ix1 e)) = _
  rw [colSum_apply, const_broadcast_apply]
  rfl

/-- The variance's divisor is the count: the converted integer zero is 0. -/
theorem varDivisor_apply (j : S_.Idx) : varDivisor j = Cert.Gcn.count := by
  show Ideal.ofBits .f32 0x461C4000#32 - (((0#32 : BitVec 32).toInt : ℝ) : EReal) = _
  rw [BitVec.toInt_zero, Int.cast_zero, EReal.coe_zero, sub_zero]

/-- The count is above zero. -/
theorem count_pos : (0 : EReal) < Cert.Gcn.count := by
  rw [show Cert.Gcn.count = ((10000 : ℝ) : EReal) from Cert.Gcn.count_eq]
  exact_mod_cast (by norm_num : (0 : ℝ) < 10000)

/-- The guard "divisor above zero" is true. -/
theorem guard_apply (j : S_.Idx) :
    cmpf (F := Ideal) .ogt varDivisor (constant (F := Ideal) S_ .f32 0x00000000#32) j = 1#1 := by
  show Ideal.cmp .ogt (varDivisor j) (Ideal.ofBits .f32 0x00000000#32) = 1#1
  rw [varDivisor_apply, Ideal.ofBits_zero_f32]
  show BitVec.ofBool (decide ((0 : EReal) < Cert.Gcn.count)) = 1#1
  rw [decide_eq_true count_pos]
  rfl

/-- The deviations the variance function takes are the specification's centred entries. -/
theorem varCentred_apply (h : FVec Ideal S10000x128 .f32) (r : Fin 10000) (e : Fin 128) :
    varCentred h (ix2 r e) = Cert.Gcn.centred (rows h) r e := by
  unfold varCentred Cert.Gcn.centred Cert.Gcn.colMean
  show h (ix2 r e) - broadcastInDim S10000x128 ![0, 1] bcast_S1x128_S10000x128_0_1
      (Host.divf (F := Ideal) (broadcastInDim S1x128 ![1] bcast_S128_S1x128_1 (colSum h))
        (broadcastInDim S1x128 ![] bcast_S_S1x128 (constant (F := Ideal) S_ .f32 0x461C4000#32))) (ix2 r e) = _
  rw [row_spread_apply]
  show h (ix2 r e) - Ideal.div (broadcastInDim S1x128 ![1] bcast_S128_S1x128_1 (colSum h) (ix2 (0 : Fin 1) e))
      (broadcastInDim S1x128 ![] bcast_S_S1x128 (constant (F := Ideal) S_ .f32 0x461C4000#32) (ix2 (0 : Fin 1) e)) = _
  rw [vec_row_apply, const_broadcast_apply, colSum_apply]
  rfl

/-- The column variance at e is the specification's: the guard holds, so the select returns the quotient. -/
theorem colVar_apply (h : FVec Ideal S10000x128 .f32) (e : Fin 128) :
    RefTerm.colVar h (ix1 e) = Cert.Gcn.colVar (rows h) e := by
  unfold RefTerm.colVar Cert.Gcn.colVar
  rw [select_apply, scalar_broadcast_apply, guard_apply, select_one]
  show Ideal.div (Host.reduceAdd (F := Ideal) (mulf (varCentred h) (varCentred h)) (constant (F := Ideal) S_ .f32 0x00000000#32)
        reducesTo_S10000x128_S128_d0 h_S_ (ix1 e))
      (broadcastInDim S128 ![] bcast_S_S128 varDivisor (ix1 e)) = _
  rw [hostReduceAdd_firstAxis_apply _ _ _ reduces_S10000x128_d0 _ e, scalar_broadcast_apply, varDivisor_apply]
  show Ideal.div (Ideal.ofBits .f32 0x00000000#32 + ∑ r : Fin 10000, varCentred h (ix2 r e) * varCentred h (ix2 r e))
      Cert.Gcn.count = _
  rw [Ideal.ofBits_zero_f32, zero_add]
  refine congrArg (fun z => Ideal.div z Cert.Gcn.count) (Finset.sum_congr rfl fun r _ => ?_)
  rw [varCentred_apply]

/-- Batch normalisation at (r, e). -/
theorem batchNorm_apply (h : FVec Ideal S10000x128 .f32) (g be : FVec Ideal S128 .f32) (r : Fin 10000) (e : Fin 128) :
    batchNorm h g be (ix2 r e)
      = Ideal.div (Cert.Gcn.centred (rows h) r e) (Ideal.sqrt (Cert.Gcn.colVar (rows h) e + Cert.Gcn.eps)) * vec g e + vec be e := by
  unfold batchNorm
  show Ideal.div (h (ix2 r e) - spread (RefTerm.colMean h) (ix2 r e))
        (spread (Host.sqrt (F := Ideal) (addf (RefTerm.colVar h)
          (broadcastInDim S128 ![] bcast_S_S128 (constant (F := Ideal) S_ .f32 0x3727C5AC#32)))) (ix2 r e))
      * spread g (ix2 r e) + spread be (ix2 r e) = _
  rw [spread_apply, spread_apply, spread_apply, spread_apply]
  show Ideal.div (h (ix2 r e) - RefTerm.colMean h (ix1 e))
        (Ideal.sqrt (RefTerm.colVar h (ix1 e)
          + broadcastInDim S128 ![] bcast_S_S128 (constant (F := Ideal) S_ .f32 0x3727C5AC#32) (ix1 e)))
      * g (ix1 e) + be (ix1 e) = _
  rw [colMean_apply, colVar_apply, const_broadcast_apply]
  rfl

/-- Batch normalisation then ReLU is the specification's. -/
theorem rows_bnRelu (h : FVec Ideal S10000x128 .f32) (g be : FVec Ideal S128 .f32) :
    rows (RefTerm.relu (batchNorm h g be)) = Cert.Gcn.bnRelu (rows h) (vec g) (vec be) := by
  funext r
  unfold RefTerm.relu
  refine (Cert.LibHostDenseRows.rows_max_zero_const _ _ r).trans ?_
  funext e
  show max (batchNorm h g be (ix2 r e)) 0 = _
  rw [batchNorm_apply]
  rfl

end Cert.ReferenceIdeal.RefValue

end
-- ==== Proof.LibHostRowFold.lean ====
/-
  A host reduction over the last axis of a matrix, read at a row.

  A one-operand reduction of an `[a, b]` matrix over its last axis with a commutative and associative body `op`
  (a maximum, a minimum) holds, at row `i`, the fold of `op` from the initial value over that row's entries
  `(i, f)`, `f < b`. Stated for any extents, any element type and any such body.
-/
import Idealize.ShloMosaic.Lib.ValueIdx
import Idealize.ShloMosaic.PureOps.Reduce

noncomputable section

namespace Cert.LibHostRowFold

open Idealize.ShloMosaic Idealize.ShloMosaic.ValueIdx

/-- The host's reduce over the last axis of an `[a, b]` matrix reads, at row `i`, the fold of the body from the
    initial value over the row's entries. -/
theorem hostReduce_lastAxis_apply {α : Type} {a b : ℕ} {u : Shape} (op : α → α → α) [Std.Commutative op] [Std.Associative op]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce op x init h' hu (ix1 i)
      = (Finset.univ : Finset (Fin b)).fold op (init (Shape.Idx.first hu)) (fun f : Fin b => x (ix2 i f)) := by
  refine (Host.reduce_eq_fold_single op x init h' h hu (ix1 i)).trans ?_
  refine congrArg (fun g => (Finset.univ : Finset (Fin b)).fold op (init (Shape.Idx.first hu)) g) ?_
  funext f
  exact congrArg x (funext fun d => Fin.ext (by
    match d with
    | ⟨0, _⟩ => rfl
    | ⟨1, _⟩ => rfl))

end Cert.LibHostRowFold

end
-- ==== Proof.RefValueSoftmax.lean ====
/-
  The log-softmax of the reference, entry by entry.

  The row maximum is a host reduction of the maximum over the last axis from the minus-infinity word, then the
  maximum with a vector of minus-infinity words. The reduction at row i is the fold of max from minus infinity over
  the row, and the fold is at least its starting value, so the extra maximum changes nothing. The row maxima are
  kept as a column and spread over the 40 columns; the exponentials of the shifted entries are summed over the last
  axis from the zero word, the logarithm is taken entrywise on the column, and the column is spread again. Each
  step read at (r, e) gives the specification's expression.
-/
import proofs.«107854_g28295244546728_cont_sun_m_959_2_alg».proof.Proof.RefTerm
import proofs.«107854_g28295244546728_cont_sun_m_959_2_alg».proof.Proof.Spec
import proofs.«107854_g28295244546728_cont_sun_m_959_2_alg».proof.Proof.LibHostRowFold
import proofs.«107854_g28295244546728_cont_sun_m_959_2_alg».proof.Proof.LibAxisReads

noncomputable section

open scoped BigOperators

namespace Cert.ReferenceIdeal.RefValue

open Idealize.ShloMosaic Idealize.ShloMosaic.ValueIdx Cert.ReferenceIdeal Cert.ReferenceIdeal.RefTerm Cert.LibDenseRows
open Cert.LibAxisReads Cert.ReferenceIdeal.Facts₀

/-- Dropping the last axis of a [10000, 40] matrix leaves [10000], with at least one axis. -/
theorem reduces_S10000x40_d1 : S10000x40.Reduces [1] S10000 := by decide

/-- The row maximum at i is the specification's: the fold from minus infinity is at least minus infinity. -/
theorem rowMax_apply (h : FVec Ideal S10000x40 .f32) (i : Fin 10000) :
    RefTerm.rowMax h (ix1 i) = Cert.Gcn.rowMax (rows h) i := by
  unfold RefTerm.rowMax Cert.Gcn.rowMax
  show max (broadcastInDim S10000 ![] bcast_S_S10000 (constant (F := Ideal) S_ .f32 0xFF800000#32) (ix1 i))
      (Host.reduce (FloatOps.maximumf (F := Ideal)) h (constant (F := Ideal) S_ .f32 0xFF800000#32)
        reducesTo_S10000x40_S10000_d1 h_S_ (ix1 i)) = _
  rw [const_broadcast_apply,
    Cert.LibHostRowFold.hostReduce_lastAxis_apply (FloatOps.maximumf (F := Ideal)) h _ _ reduces_S10000x40_d1 _ i]
  show max Cert.Gcn.negInf ((Finset.univ : Finset (Fin 40)).fold max Cert.Gcn.negInf (fun f => h (ix2 i f))) = _
  exact max_eq_right ((Finset.le_fold_max _).mpr (Or.inl le_rfl))

/-- A vector of 10000 kept as a column and spread over the 40 columns reads, at (r, e), the vector at r. -/
theorem spreadCol_apply (v : FVec Ideal S10000 .f32) (r : Fin 10000) (e : Fin 40) : spreadCol v (ix2 r e) = v (ix1 r) := by
  unfold spreadCol
  rw [column_spread_apply, vec_column_apply]

/-- The shifted entry at (r, e) is the entry less its row's maximum. -/
theorem shifted_apply (h : FVec Ideal S10000x40 .f32) (r : Fin 10000) (e : Fin 40) :
    shifted h (ix2 r e) = rows h r e - Cert.Gcn.rowMax (rows h) r := by
  unfold shifted
  show h (ix2 r e) - spreadCol (RefTerm.rowMax h) (ix2 r e) = _
  rw [spreadCol_apply, rowMax_apply]
  rfl

/-- The log-softmax is the specification's. -/
theorem rows_logSoftmax (h : FVec Ideal S10000x40 .f32) : rows (RefTerm.logSoftmax h) = Cert.Gcn.logSoftmax (rows h) := by
  funext r e
  unfold RefTerm.logSoftmax Cert.Gcn.logSoftmax
  show shifted h (ix2 r e)
      - broadcastInDim S10000x40 ![0, 1] bcast_S10000x1_S10000x40_0_1
          (Host.log (F := Ideal) (broadcastInDim S10000x1 ![0] bcast_S10000_S10000x1_0
            (Host.reduceAdd (F := Ideal) (Host.exp (F := Ideal) (shifted h)) (constant (F := Ideal) S_ .f32 0x00000000#32)
              reducesTo_S10000x40_S10000_d1 h_S_))) (ix2 r e) = _
  rw [column_spread_apply]
  show shifted h (ix2 r e)
      - Ideal.log (broadcastInDim S10000x1 ![0] bcast_S10000_S10000x1_0
            (Host.reduceAdd (F := Ideal) (Host.exp (F := Ideal) (shifted h)) (constant (F := Ideal) S_ .f32 0x00000000#32)
              reducesTo_S10000x40_S10000_d1 h_S_) (ix2 r (0 : Fin 1))) = _
  rw [vec_column_apply, hostReduceAdd_lastAxis_apply _ _ _ reduces_S10000x40_d1 _ r, shifted_apply]
  show rows h r e - Cert.Gcn.rowMax (rows h) r
      - Ideal.log (Ideal.ofBits .f32 0x00000000#32 + ∑ f : Fin 40, Ideal.exp (shifted h (ix2 r f))) = _
  rw [Ideal.ofBits_zero_f32, zero_add]
  refine congrArg (fun z => rows h r e - Cert.Gcn.rowMax (rows h) r - Ideal.log z) (Finset.sum_congr rfl fun f _ => ?_)
  rw [shifted_apply]

end Cert.ReferenceIdeal.RefValue

end
-- ==== Proof.RefValue.lean ====
/-
  The reference's result is the specification's network.

  The result chains three graph-convolution layers, the first two each followed by batch normalisation and ReLU,
  and ends in the log-softmax of every row. Each stage, read row by row, is the specification's stage of the rows of
  its argument, so the chain is the specification's chain.
-/
import proofs.«107854_g28295244546728_cont_sun_m_959_2_alg».proof.Proof.RefValueLayer
import proofs.«107854_g28295244546728_cont_sun_m_959_2_alg».proof.Proof.RefValueNorm
import proofs.«107854_g28295244546728_cont_sun_m_959_2_alg».proof.Proof.RefValueSoftmax

noncomputable section

namespace Cert.ReferenceIdeal.RefValue

open Idealize.ShloMosaic Idealize.ShloMosaic.ValueIdx Cert.ReferenceIdeal Cert.ReferenceIdeal.RefTerm Cert.LibDenseRows

/-- The reference's result, row by row, is the three-layer network of the rows of its arguments. -/
theorem result_eq (x : FVec Ideal S10000x128 .f32) (adj : FVec Ideal S10000x10000 .f32)
    (W1 : FVec Ideal S128x128 .f32) (b1 g1 be1 : FVec Ideal S128 .f32)
    (W2 : FVec Ideal S128x128 .f32) (b2 g2 be2 : FVec Ideal S128 .f32)
    (W3 : FVec Ideal S128x40 .f32) (b3 : FVec Ideal S40 .f32) :
    rows (result x adj W1 b1 g1 be1 W2 b2 g2 be2 W3 b3)
      = Cert.Gcn.net (rows x) (rows adj) (rows W1) (vec b1) (vec g1) (vec be1) (rows W2) (vec b2) (vec g2) (vec be2)
          (rows W3) (vec b3) := by
  unfold result Cert.Gcn.net
  rw [rows_logSoftmax, rows_layer40, rows_bnRelu, rows_layer128, rows_bnRelu, rows_layer128]

end Cert.ReferenceIdeal.RefValue

end
-- ==== Proof.lean ====
/-
  The certificate: the kernel and its idealization run and leave their arguments unchanged, the idealization is the
  kernel's own text read on the extended reals, and the idealized kernel and the idealized reference end with the same
  result from memories that agree on the twelve arguments.

  Both idealized programs compute one function of the arguments, the three-layer network of Proof/Spec.lean:
  graph-convolution layers A·(X·W) + b, batch normalisation over the 10000 rows with a ReLU between the layers, and a
  log-softmax of every row at the end. The kernel computes it in six regions — a product, an aggregation over blocks
  of 200 rows of the adjacency (which also copies the adjacency), a normalisation fused with the next product, and so
  on — and the reference in one line of host operations. The two differ in spelling only where the kernel multiplies
  by the reciprocal square root of variance + ε and the reference divides by the square root; on the extended reals
  these agree for every numerator because variance + ε is positive (a square is never negative there), infinite or
  not. So the equality of the results uses no finiteness of any input: the precondition is taken and never opened.
-/
import proofs.«107854_g28295244546728_cont_sun_m_959_2_alg».proof.Defs
import proofs.«107854_g28295244546728_cont_sun_m_959_2_alg».proof.Proof.Gen.Kernel
import proofs.«107854_g28295244546728_cont_sun_m_959_2_alg».proof.Proof.Gen.Kernel.Frame
import proofs.«107854_g28295244546728_cont_sun_m_959_2_alg».proof.Proof.Gen.KernelIdeal
import proofs.«107854_g28295244546728_cont_sun_m_959_2_alg».proof.Proof.Gen.KernelIdeal.Frame
import proofs.«107854_g28295244546728_cont_sun_m_959_2_alg».proof.Proof.Gen.ReferenceIdeal
import proofs.«107854_g28295244546728_cont_sun_m_959_2_alg».proof.Proof.Gen.Pre_finite_inputs
import proofs.«107854_g28295244546728_cont_sun_m_959_2_alg».proof.Proof.KernelRun
import proofs.«107854_g28295244546728_cont_sun_m_959_2_alg».proof.Proof.KernelValue
import proofs.«107854_g28295244546728_cont_sun_m_959_2_alg».proof.Proof.RefRun
import proofs.«107854_g28295244546728_cont_sun_m_959_2_alg».proof.Proof.RefValue
import Idealize.ShloMosaic.Adequacy
import Idealize.ShloMosaic.Init

noncomputable section

namespace Cert.Proof

open Idealize.ShloMosaic Idealize.ShloMosaic.TcCoe Idealize.SL.Sem Cert.LibDenseRows

/-- Two matrices with the same rows are the same matrix. -/
theorem eq_of_rows_eq {M N : ℕ} (A B : (⟨2, ![M, N]⟩ : Shape).Idx → EReal) (h : rows A = rows B) : A = B :=
  funext fun j => by rw [ValueIdx.eq_ix2 j]; exact congrFun (congrFun h (j 0)) (j 1)

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- The kernel's result array ends at the last boundary's contents, whose rows are the network of its arguments; the
    reference's result is the reference's term of its arguments, whose rows are the same network; and the arguments
    agree. -/
theorem algebraic : Cert.algebraic_KernelIdeal_ReferenceIdeal := by
  intro m ρ m' ρ' _ hagree
  refine ⟨fun c => Cert.KernelIdeal.Gen.W11 m ρ c (Proc.devRef .tc Cert.KernelIdeal.main_v12),
    Cert.KernelIdeal.Run.run_out m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11⟩ := hagree c
  refine eq_of_rows_eq (M := 10000) (N := 40) _ _ ?_
  rw [Cert.ReferenceIdeal.RefValue.result_eq, Cert.KernelIdeal.Value.rows_result m ρ c,
    h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
